-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S2048x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2048x2048 : Shape := ⟨2, ![2048, 2048]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 9
  | .vmem => 35
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .f32⟩
  | .local _ .vmem, ⟨14, _⟩ => ⟨S1024x1024, .f32⟩
  | .local _ .vmem, ⟨15, _⟩ => ⟨S1024x1024, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | .local _ .vmem, ⟨19, _⟩ => ⟨S1024x2048, .bf16⟩
  | .local _ .vmem, ⟨20, _⟩ => ⟨S1024x2048, .f32⟩
  | .local _ .vmem, ⟨21, _⟩ => ⟨S1024x1024, .f32⟩
  | .local _ .vmem, ⟨22, _⟩ => ⟨S1024x1024, .f32⟩
  | .local _ .vmem, ⟨23, _⟩ => ⟨S1024x2048, .f32⟩
  | .local _ .vmem, ⟨24, _⟩ => ⟨S1024x2048, .f32⟩
  | .local _ .vmem, ⟨25, _⟩ => ⟨S1024x2048, .bf16⟩
  | .local _ .vmem, ⟨26, _⟩ => ⟨S1024x2048, .bf16⟩
  | .local _ .vmem, ⟨27, _⟩ => ⟨S1024x2048, .f32⟩
  | .local _ .vmem, ⟨28, _⟩ => ⟨S1024x1024, .bf16⟩
  | .local _ .vmem, ⟨29, _⟩ => ⟨S1024x1024, .bf16⟩
  | .local _ .vmem, ⟨30, _⟩ => ⟨S1024x2048, .bf16⟩
  | .local _ .vmem, ⟨31, _⟩ => ⟨S1024x2048, .bf16⟩
  | .local _ .vmem, ⟨32, _⟩ => ⟨S1024x2048, .f32⟩
  | .local _ .vmem, ⟨33, _⟩ => ⟨S1024x2048, .f32⟩
  | .local _ .vmem, ⟨34, _⟩ => ⟨S1024x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 2], ![false, false]⟩

def k1_cond2 (i : grid1.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 2], ![false, false]⟩

def k3_cond2 (i : grid3.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![2, 2], ![false, false]⟩

def k4_cond2 (i : grid4.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  shapeCasts_S1024x1024_S1024x1024 : S1024x1024.ShapeCasts S1024x1024
  reduces_S1024x2048_S1024 : S1024x2048.Reduces [1] S1024
  shapeCasts_S1024_S1024x1 : S1024.ShapeCasts S1024x1
  broadcasts_S1024x1_S1024x2048 : S1024x1.Broadcasts S1024x2048
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x2048.size a
  hwx0_0 : ∀ i : grid0.Coords, EltTy.bits .f32 = 32 ∨ (Rect.block (s := S2048x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S2048x2048.size a
  hwx0_1 : ∀ i : grid0.Coords, EltTy.bits .f32 = 32 ∨ (Rect.block (s := S2048x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S2048x2048.size a
  hwx0_2 : ∀ i : grid0.Coords, EltTy.bits .f32 = 32 ∨ (Rect.block (s := S2048x2048) S1024x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x2048.size a
  hwx1_0 : ∀ i : grid1.Coords, EltTy.bits .f32 = 32 ∨ (Rect.block (s := S2048x2048) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S2048x2048.size a
  hwx1_1 : ∀ i : grid1.Coords, EltTy.bits .f32 = 32 ∨ (Rect.block (s := S2048x2048) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S2048x2048.size a
  hwx1_2 : ∀ i : grid1.Coords, EltTy.bits .f32 = 32 ∨ (Rect.block (s := S2048x2048) S1024x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S2048x2048.size a
  hwx2_0 : ∀ i : grid2.Coords, EltTy.bits .f32 = 32 ∨ (Rect.block (s := S2048x2048) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S2048x2048.size a
  hwx2_1 : ∀ i : grid2.Coords, EltTy.bits .f32 = 32 ∨ (Rect.block (s := S2048x2048) S1024x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S2048x2048.size a
  hwx2_2 : ∀ i : grid2.Coords, EltTy.bits .bf16 = 32 ∨ (Rect.block (s := S2048x2048) S1024x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S2048x2048.size a
  hwx3_0 : ∀ i : grid3.Coords, EltTy.bits .f32 = 32 ∨ (Rect.block (s := S2048x2048) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S2048x2048.size a
  hwx3_1 : ∀ i : grid3.Coords, EltTy.bits .f32 = 32 ∨ (Rect.block (s := S2048x2048) S1024x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x2048.size a ≤ S2048x2048.size a
  hwx3_2 : ∀ i : grid3.Coords, EltTy.bits .bf16 = 32 ∨ (Rect.block (s := S2048x2048) S1024x2048.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S2048x2048.size a
  hwx4_0 : ∀ i : grid4.Coords, EltTy.bits .bf16 = 32 ∨ (Rect.block (s := S2048x2048) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x2048.size a ≤ S2048x2048.size a
  hwx4_1 : ∀ i : grid4.Coords, EltTy.bits .bf16 = 32 ∨ (Rect.block (s := S2048x2048) S1024x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x2048.size a ≤ S2048x2048.size a
  hwx4_2 : ∀ i : grid4.Coords, EltTy.bits .f32 = 32 ∨ (Rect.block (s := S2048x2048) S1024x2048.size (cc4_transform_2 i) (hinb4_2 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v3) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S1024x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1024x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.KB.R0Runs.lean ====
/-
  Kernel 0 of the program, one grid point at a time.  The grid is 2 x 2: point t has row-block t / 2 and
  contraction step t % 2.  At step 0 the body zeroes its accumulator and adds the first block product into
  it, storing nothing into the output block; at step 1 it adds the second block product and stores the
  output block.  Here: the two branch conditions in closed form over the grid, where the output window is
  idle, the memory references a point is called with, and the body's run in each of the two cases, ending
  with the accumulator (and at step 1 the output block) holding the stores the run made.
-/
import proofs.«144174_j32117765439601_2_alg».proof.Proof.Gen.Kernel.Launch
import proofs.«144174_j32117765439601_2_alg».proof.Proof.Gen.Kernel.Skeleton
import proofs.«144174_j32117765439601_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: a parameter
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, for any proof data over these arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions -/

/-- The first conditional's test: the contraction step is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- The second conditional's test: the contraction step is the last one. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At step 0 the output window is idle and is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At step 1 it is live. -/
theorem liveAt0_2_B : ∀ t : Fin cfg0.N, ¬cond0_0 (grid0.coords t) → cond0_1 (grid0.coords t) → cfg0.idle 2 (grid0.coords t) = false := by decide +kernel

/-! ## The memory references at a point -/

abbrev VO0_2 : View sig .tc .vmem S1024x2048 .f32 := (Memref.whole cc0_stg2_0 : Memref sig .tc .vmem S1024x2048 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
/-- The accumulator: a whole buffer of the kernel's own, kept from one point to the next. -/
abbrev scM0_0 : Memref sig .tc .vmem S1024x2048 .f32 := Memref.whole cc0_scratch0
abbrev VS0_0 : View sig .tc .vmem S1024x2048 .f32 := scM0_0.view

/-! ## The body's run, case by case -/

set_option maxHeartbeats 4000000 in
/-- Step 0: from the two input blocks, the output buffer at anything (handed back untouched) and the
    accumulator at anything, the body runs and leaves the accumulator with its stores written. -/
noncomputable def kernelRun0_A (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond0_0 i) (hc1 : ¬cond0_1 i)
    (x0 : Vec F S1024x1024 .f32) (x1 : Vec F S1024x2048 .f32) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kernel i arg2 harg2 arg3 harg3 arg4 harg4 arg5 harg5) K } := by
  refine ⟨[], ?_, fun xi2 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 1: from the two input blocks, the output buffer at anything and the accumulator at what the step
    before left, the body runs and leaves the accumulator and the output buffer with its stores written. -/
noncomputable def kernelRun0_B (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kernel i arg2 harg2 arg3 harg3 arg4 harg4 arg5 harg5) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.R0Frame.lean ====
/-
  Kernel 0: what its accumulator and its output block hold after every grid point, the region's
  invariant (the accumulator at what the point before left), the pipeline's proof data and the body
  obligation at every point.
-/
import proofs.«144174_j32117765439601_2_alg».proof.Proof.KB.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Step 0 stores nothing into the output block: a placeholder nothing consults. -/
def out0_A_2 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond0_0 i) (hc1 : ¬cond0_1 i)
    (x0 : Vec F S1024x1024 .f32) (x1 : Vec F S1024x2048 .f32) : Vec F S1024x2048 .f32 :=
  VO0_2.read (Elt F) (VO0_2.writes (Elt F) VO0_2.junk (kernelRun0_A c i arg2 harg2 arg3 harg3 arg4 harg4 arg5 harg5 hc0 hc1 x0 x1).1)

/-- Step 0's stores into the accumulator cover it. -/
theorem scover0_A_0 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond0_0 i) (hc1 : ¬cond0_1 i)
    (x0 : Vec F S1024x1024 .f32) (x1 : Vec F S1024x2048 .f32) (y : S1024x2048.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x2048.size (by sl_kernel_rfl) y

/-- What step 0 leaves in the accumulator. -/
def sout0_A_0 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond0_0 i) (hc1 : ¬cond0_1 i)
    (x0 : Vec F S1024x1024 .f32) (x1 : Vec F S1024x2048 .f32) : Vec F S1024x2048 .f32 :=
  VS0_0.read (Elt F) (VS0_0.writes (Elt F) VS0_0.junk (kernelRun0_A c i arg2 harg2 arg3 harg3 arg4 harg4 arg5 harg5 hc0 hc1 x0 x1).2.1)

/-- Step 1's store into the output block covers it. -/
theorem cover0_B_2 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) (y : S1024x2048.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x2048.size (by sl_kernel_rfl) y

/-- What step 1 leaves in the output block. -/
def out0_B_2 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) : Vec F S1024x2048 .f32 :=
  VO0_2.read (Elt F) (VO0_2.writes (Elt F) VO0_2.junk (kernelRun0_B c i arg2 harg2 arg3 harg3 arg4 harg4 arg5 harg5 hc0 hc1 x0 x1 xs0).1)

/-- Step 1's store into the accumulator covers it. -/
theorem scover0_B_0 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) (y : S1024x2048.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x2048.size (by sl_kernel_rfl) y

/-- What step 1 leaves in the accumulator. -/
def sout0_B_0 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) : Vec F S1024x2048 .f32 :=
  VS0_0.read (Elt F) (VS0_0.writes (Elt F) VS0_0.junk (kernelRun0_B c i arg2 harg2 arg3 harg3 arg4 harg4 arg5 harg5 hc0 hc1 x0 x1 xs0).2.1)

/-! ## The accumulation, point by point -/

/-- After the body at position n: the output block's buffer and the accumulator.  An even position is step
    0 of its row-block (from the two input blocks alone), an odd one step 1 (over what position n - 1 left
    in the accumulator). -/
def outsAt0 (c : Dev nD) : (n : ℕ) → n < cfg0.N → Vec F S1024x2048 .f32 × Vec F S1024x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => by have := (hcond0_1 ⟨0, hn⟩).mp h; (try dsimp only at this); omega) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => by have := (hcond0_1 ⟨0, hn⟩).mp h; (try dsimp only at this); omega) (iblk0 V c 0 ⟨0, hn⟩) (iblk0 V c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => by have := (hcond0_1 ⟨n + 1, hn⟩).mp h; (try dsimp only at this); omega) (iblk0 V c 0 ⟨n + 1, hn⟩) (iblk0 V c 1 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => by have := (hcond0_1 ⟨n + 1, hn⟩).mp h; (try dsimp only at this); omega) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (iblk0 V c 1 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (iblk0 V c 1 ⟨n + 1, hn⟩) (outsAt0 c n (Nat.lt_of_succ_lt hn)).2)

/-- At a point of step 0. -/
theorem outsAt0_A (c : Dev nD) (t : Fin cfg0.N) (h0 : t.val % 2 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => by have := (hcond0_1 t).mp h; (try dsimp only at this); omega) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => by have := (hcond0_1 t).mp h; (try dsimp only at this); omega) (iblk0 V c 0 t) (iblk0 V c 1 t)) := by
  obtain ⟨n, hn⟩ := t
  cases n with
  | zero => exact rfl
  | succ n => exact (dif_pos h0).trans rfl

/-- At a point of step 1: over what the point before left. -/
theorem outsAt0_B (c : Dev nD) (t : Fin cfg0.N) (h0 : ¬t.val % 2 = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr (by (try dsimp only); omega)) (iblk0 V c 0 t) (iblk0 V c 1 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr (by (try dsimp only); omega)) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- The scoped buffers no window stages, with the accumulator taken out as a memory reference owned at some
    contents, beside the generator register: what the region is entered with. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-- Before position n: at the first point what the region is entered with; afterwards the accumulator at
    what the point before left, the other scoped buffers and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The region's arrays as it finds them; after the body at a point each input's buffer at its block and the
    output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point.  The parity of the point says which case it is in; the inputs' buffers hold their
    blocks; the invariant hands the body the accumulator (at anything at the first point, else at what the
    point before left) and takes it back at this point's contents, since the case's stores cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2_A t hc0 hc1) (noFlush0_2_A t hc0 hc1)]
    rw [outsAt0_A V c t h0]
    unfold sout0_A_0; (try dsimp only)
    by_cases hz : t.val = 0
    · rw [PhiS0_castSucc V c t, PhiS0_zero V c _ _ hz, PhiA0_eq]
      iintro ⟨⟨⟨HS0, Hsr⟩, Hg⟩, Ho, ⟨%d0, H0⟩, ⟨%d1, H1⟩, ⟨%d2, H2⟩⟩
      iapply ((kernelRun0_A c (grid0.coords t) _ _ _ _ _ _ _ _ hc0 hc1 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover0_A_0 c _ _ _ _ _ _ _ _ _ _ _ _ _)
          iexact Hsr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hsr⟩, Hg⟩, Ho, ⟨%d0, H0⟩, ⟨%d1, H1⟩, ⟨%d2, H2⟩⟩
      iapply ((kernelRun0_A c (grid0.coords t) _ _ _ _ _ _ _ _ hc0 hc1 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover0_A_0 c _ _ _ _ _ _ _ _ _ _ _ _ _)
          iexact Hsr
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hc1 : cond0_1 (grid0.coords t) := (hcond0_1 t).mpr (by omega)
    rw [show (dat0 V c).leavesExact 2 t = owns (c : Thread nD τ) (ms0_2 t) fullShare ((dat0 V c).after 2 t) from by
      unfold Dat.leavesExact; rw [liveAt0_2_B t hc0 hc1], after0_2]
    rw [outsAt0_B V c t h0]
    unfold out0_B_2 sout0_B_0; (try dsimp only)
    have hz : t.val ≠ 0 := by omega
    rw [PhiS0_castSucc V c t, PhiS0_pos V c _ _ hz]
    iintro ⟨⟨⟨HS0, Hsr⟩, Hg⟩, Ho, ⟨%d0, H0⟩, ⟨%d1, H1⟩, ⟨%d2, H2⟩⟩
    iapply ((kernelRun0_B c (grid0.coords t) _ _ _ _ _ _ _ _ hc0 hc1 (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover0_B_0 c _ _ _ _ _ _ _ _ _ _ _ _ _ _)
        iexact Hsr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1Runs.lean ====
/-
  Kernel 1 of the program, one grid point at a time.  The grid is 2 x 2: point t has row-block t / 2 and
  contraction step t % 2.  At step 0 the body zeroes its accumulator and adds the first block product into
  it, storing nothing into the output block; at step 1 it adds the second block product and stores the
  output block.  Here: the two branch conditions in closed form over the grid, where the output window is
  idle, the memory references a point is called with, and the body's run in each of the two cases, ending
  with the accumulator (and at step 1 the output block) holding the stores the run made.
-/
import proofs.«144174_j32117765439601_2_alg».proof.Proof.Gen.Kernel.Launch
import proofs.«144174_j32117765439601_2_alg».proof.Proof.Gen.Kernel.Skeleton
import proofs.«144174_j32117765439601_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: a parameter
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, for any proof data over these arrays
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two branch conditions -/

/-- The first conditional's test: the contraction step is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The second conditional's test: the contraction step is the last one. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- At step 0 the output window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At step 1 it is live. -/
theorem liveAt1_2_B : ∀ t : Fin cfg1.N, ¬cond1_0 (grid1.coords t) → cond1_1 (grid1.coords t) → cfg1.idle 2 (grid1.coords t) = false := by decide +kernel

/-! ## The memory references at a point -/

abbrev VO1_2 : View sig .tc .vmem S1024x2048 .f32 := (Memref.whole cc1_stg2_0 : Memref sig .tc .vmem S1024x2048 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .f32 := win1_2.stage (cfg1.slots t 2)
abbrev hs1_2 (t : Fin cfg1.N) : (ms1_2 t).IsWhole := hstage1_2 ((cfg1.slots t 2).cast nbuf1_2)
/-- The accumulator: a whole buffer of the kernel's own, kept from one point to the next. -/
abbrev scM1_0 : Memref sig .tc .vmem S1024x2048 .f32 := Memref.whole cc1_scratch0
abbrev VS1_0 : View sig .tc .vmem S1024x2048 .f32 := scM1_0.view

/-! ## The body's run, case by case -/

set_option maxHeartbeats 4000000 in
/-- Step 0: from the two input blocks, the output buffer at anything (handed back untouched) and the
    accumulator at anything, the body runs and leaves the accumulator with its stores written. -/
noncomputable def kernelRun1_A (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond1_0 i) (hc1 : ¬cond1_1 i)
    (x0 : Vec F S1024x1024 .f32) (x1 : Vec F S1024x2048 .f32) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__kernel i arg2 harg2 arg3 harg3 arg4 harg4 arg5 harg5) K } := by
  refine ⟨[], ?_, fun xi2 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 1: from the two input blocks, the output buffer at anything and the accumulator at what the step
    before left, the body runs and leaves the accumulator and the output buffer with its stores written. -/
noncomputable def kernelRun1_B (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__kernel i arg2 harg2 arg3 harg3 arg4 harg4 arg5 harg5) K } := by
  refine ⟨?_, ?_, fun E K => ?run⟩
  case run =>
    simp only [cc1__kernel_eq_skeleton]; unfold cc1__kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.R1Frame.lean ====
/-
  Kernel 1: what its accumulator and its output block hold after every grid point, the region's
  invariant (the accumulator at what the point before left), the pipeline's proof data and the body
  obligation at every point.
-/
import proofs.«144174_j32117765439601_2_alg».proof.Proof.KB.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Step 0 stores nothing into the output block: a placeholder nothing consults. -/
def out1_A_2 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond1_0 i) (hc1 : ¬cond1_1 i)
    (x0 : Vec F S1024x1024 .f32) (x1 : Vec F S1024x2048 .f32) : Vec F S1024x2048 .f32 :=
  VO1_2.read (Elt F) (VO1_2.writes (Elt F) VO1_2.junk (kernelRun1_A c i arg2 harg2 arg3 harg3 arg4 harg4 arg5 harg5 hc0 hc1 x0 x1).1)

/-- Step 0's stores into the accumulator cover it. -/
theorem scover1_A_0 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond1_0 i) (hc1 : ¬cond1_1 i)
    (x0 : Vec F S1024x1024 .f32) (x1 : Vec F S1024x2048 .f32) (y : S1024x2048.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x2048.size (by sl_kernel_rfl) y

/-- What step 0 leaves in the accumulator. -/
def sout1_A_0 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond1_0 i) (hc1 : ¬cond1_1 i)
    (x0 : Vec F S1024x1024 .f32) (x1 : Vec F S1024x2048 .f32) : Vec F S1024x2048 .f32 :=
  VS1_0.read (Elt F) (VS1_0.writes (Elt F) VS1_0.junk (kernelRun1_A c i arg2 harg2 arg3 harg3 arg4 harg4 arg5 harg5 hc0 hc1 x0 x1).2.1)

/-- Step 1's store into the output block covers it. -/
theorem cover1_B_2 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) (y : S1024x2048.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x2048.size (by sl_kernel_rfl) y

/-- What step 1 leaves in the output block. -/
def out1_B_2 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) : Vec F S1024x2048 .f32 :=
  VO1_2.read (Elt F) (VO1_2.writes (Elt F) VO1_2.junk (kernelRun1_B c i arg2 harg2 arg3 harg3 arg4 harg4 arg5 harg5 hc0 hc1 x0 x1 xs0).1)

/-- Step 1's store into the accumulator covers it. -/
theorem scover1_B_0 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) (y : S1024x2048.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x2048.size (by sl_kernel_rfl) y

/-- What step 1 leaves in the accumulator. -/
def sout1_B_0 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) : Vec F S1024x2048 .f32 :=
  VS1_0.read (Elt F) (VS1_0.writes (Elt F) VS1_0.junk (kernelRun1_B c i arg2 harg2 arg3 harg3 arg4 harg4 arg5 harg5 hc0 hc1 x0 x1 xs0).2.1)

/-! ## The accumulation, point by point -/

/-- After the body at position n: the output block's buffer and the accumulator.  An even position is step
    0 of its row-block (from the two input blocks alone), an odd one step 1 (over what position n - 1 left
    in the accumulator). -/
def outsAt1 (c : Dev nD) : (n : ℕ) → n < cfg1.N → Vec F S1024x2048 .f32 × Vec F S1024x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => by have := (hcond1_1 ⟨0, hn⟩).mp h; (try dsimp only at this); omega) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => by have := (hcond1_1 ⟨0, hn⟩).mp h; (try dsimp only at this); omega) (iblk1 V c 0 ⟨0, hn⟩) (iblk1 V c 1 ⟨0, hn⟩))
  | n + 1, hn =>
    if h0 : (n + 1) % 2 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => by have := (hcond1_1 ⟨n + 1, hn⟩).mp h; (try dsimp only at this); omega) (iblk1 V c 0 ⟨n + 1, hn⟩) (iblk1 V c 1 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => by have := (hcond1_1 ⟨n + 1, hn⟩).mp h; (try dsimp only at this); omega) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (outsAt1 c n (Nat.lt_of_succ_lt hn)).2)

/-- At a point of step 0. -/
theorem outsAt1_A (c : Dev nD) (t : Fin cfg1.N) (h0 : t.val % 2 = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => by have := (hcond1_1 t).mp h; (try dsimp only at this); omega) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (fun h => by have := (hcond1_1 t).mp h; (try dsimp only at this); omega) (iblk1 V c 0 t) (iblk1 V c 1 t)) := by
  obtain ⟨n, hn⟩ := t
  cases n with
  | zero => exact rfl
  | succ n => exact (dif_pos h0).trans rfl

/-- At a point of step 1: over what the point before left. -/
theorem outsAt1_B (c : Dev nD) (t : Fin cfg1.N) (h0 : ¬t.val % 2 = 0) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr (by (try dsimp only); omega)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr (by (try dsimp only); omega)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- The scoped buffers no window stages, with the accumulator taken out as a memory reference owned at some
    contents, beside the generator register: what the region is entered with. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-- Before position n: at the first point what the region is entered with; afterwards the accumulator at
    what the point before left, the other scoped buffers and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's arrays as it finds them; after the body at a point each input's buffer at its block and the
    output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The parity of the point says which case it is in; the inputs' buffers hold their
    blocks; the invariant hands the body the accumulator (at anything at the first point, else at what the
    point before left) and takes it back at this point's contents, since the case's stores cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2_A t hc0 hc1) (noFlush1_2_A t hc0 hc1)]
    rw [outsAt1_A V c t h0]
    unfold sout1_A_0; (try dsimp only)
    by_cases hz : t.val = 0
    · rw [PhiS1_castSucc V c t, PhiS1_zero V c _ _ hz, PhiA1_eq]
      iintro ⟨⟨⟨HS0, Hsr⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover1_A_0 c _ _ _ _ _ _ _ _ _ _ _ _ _)
          iexact Hsr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hsr⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover1_A_0 c _ _ _ _ _ _ _ _ _ _ _ _ _)
          iexact Hsr
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hc1 : cond1_1 (grid1.coords t) := (hcond1_1 t).mpr (by omega)
    rw [show (dat1 V c).leavesExact 2 t = owns (c : Thread nD τ) (ms1_2 t) fullShare ((dat1 V c).after 2 t) from by
      unfold Dat.leavesExact; rw [liveAt1_2_B t hc0 hc1], after1_2]
    rw [outsAt1_B V c t h0]
    unfold out1_B_2 sout1_B_0; (try dsimp only)
    have hz : t.val ≠ 0 := by omega
    rw [PhiS1_castSucc V c t, PhiS1_pos V c _ _ hz]
    iintro ⟨⟨⟨HS0, Hsr⟩, Hg⟩, Ho, ⟨%d0, H0⟩, ⟨%d1, H1⟩, ⟨%d2, H2⟩⟩
    iapply ((kernelRun1_B c (grid1.coords t) _ _ _ _ _ _ _ _ hc0 hc1 (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover1_B_0 c _ _ _ _ _ _ _ _ _ _ _ _ _ _)
        iexact Hsr
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2Runs.lean ====
/-
  Kernel 2 of the program, one grid point at a time.  The grid is 2 x 2: point t has row-block t / 2 and
  contraction step t % 2.  At step 0 the body zeroes its accumulator and adds the first block product into
  it, storing nothing into the output block; at step 1 it adds the second block product and stores the
  output block.  Here: the two branch conditions in closed form over the grid, where the output window is
  idle, the memory references a point is called with, and the body's run in each of the two cases, ending
  with the accumulator (and at step 1 the output block) holding the stores the run made.
-/
import proofs.«144174_j32117765439601_2_alg».proof.Proof.Gen.Kernel.Launch
import proofs.«144174_j32117765439601_2_alg».proof.Proof.Gen.Kernel.Skeleton
import proofs.«144174_j32117765439601_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: a parameter
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, for any proof data over these arrays
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-! ## The two branch conditions -/

/-- The first conditional's test: the contraction step is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- The second conditional's test: the contraction step is the last one. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At step 0 the output window is idle and is not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- At step 1 it is live. -/
theorem liveAt2_2_B : ∀ t : Fin cfg2.N, ¬cond2_0 (grid2.coords t) → cond2_1 (grid2.coords t) → cfg2.idle 2 (grid2.coords t) = false := by decide +kernel

/-! ## The memory references at a point -/

abbrev VO2_2 : View sig .tc .vmem S1024x2048 .bf16 := (Memref.whole cc2_stg2_0 : Memref sig .tc .vmem S1024x2048 .bf16).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x2048 .bf16 := win2_2.stage (cfg2.slots t 2)
abbrev hs2_2 (t : Fin cfg2.N) : (ms2_2 t).IsWhole := hstage2_2 ((cfg2.slots t 2).cast nbuf2_2)
/-- The accumulator: a whole buffer of the kernel's own, kept from one point to the next. -/
abbrev scM2_0 : Memref sig .tc .vmem S1024x2048 .f32 := Memref.whole cc2_scratch0
abbrev VS2_0 : View sig .tc .vmem S1024x2048 .f32 := scM2_0.view

/-! ## The body's run, case by case -/

set_option maxHeartbeats 4000000 in
/-- Step 0: from the two input blocks, the output buffer at anything (handed back untouched) and the
    accumulator at anything, the body runs and leaves the accumulator with its stores written. -/
noncomputable def kernelRun2_A (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond2_0 i) (hc1 : ¬cond2_1 i)
    (x0 : Vec F S1024x1024 .f32) (x1 : Vec F S1024x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__kernel i arg2 harg2 arg3 harg3 arg4 harg4 arg5 harg5) K } := by
  refine ⟨[], ?_, fun xi2 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 1: from the two input blocks, the output buffer at anything and the accumulator at what the step
    before left, the body runs and leaves the accumulator and the output buffer with its stores written. -/
noncomputable def kernelRun2_B (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) :
    Σ' (L2 : List (View.Piece (Elt F) S1024x2048 .bf16)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__kernel i arg2 harg2 arg3 harg3 arg4 harg4 arg5 harg5) K } := by
  refine ⟨?_, ?_, fun E K => ?run⟩
  case run =>
    simp only [cc2__kernel_eq_skeleton]; unfold cc2__kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.R2Frame.lean ====
/-
  Kernel 2: what its accumulator and its output block hold after every grid point, the region's
  invariant (the accumulator at what the point before left), the pipeline's proof data and the body
  obligation at every point.
-/
import proofs.«144174_j32117765439601_2_alg».proof.Proof.KB.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Step 0 stores nothing into the output block: a placeholder nothing consults. -/
def out2_A_2 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond2_0 i) (hc1 : ¬cond2_1 i)
    (x0 : Vec F S1024x1024 .f32) (x1 : Vec F S1024x2048 .f32) : Vec F S1024x2048 .bf16 :=
  VO2_2.read (Elt F) (VO2_2.writes (Elt F) VO2_2.junk (kernelRun2_A c i arg2 harg2 arg3 harg3 arg4 harg4 arg5 harg5 hc0 hc1 x0 x1).1)

/-- Step 0's stores into the accumulator cover it. -/
theorem scover2_A_0 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond2_0 i) (hc1 : ¬cond2_1 i)
    (x0 : Vec F S1024x1024 .f32) (x1 : Vec F S1024x2048 .f32) (y : S1024x2048.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x2048.size (by sl_kernel_rfl) y

/-- What step 0 leaves in the accumulator. -/
def sout2_A_0 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond2_0 i) (hc1 : ¬cond2_1 i)
    (x0 : Vec F S1024x1024 .f32) (x1 : Vec F S1024x2048 .f32) : Vec F S1024x2048 .f32 :=
  VS2_0.read (Elt F) (VS2_0.writes (Elt F) VS2_0.junk (kernelRun2_A c i arg2 harg2 arg3 harg3 arg4 harg4 arg5 harg5 hc0 hc1 x0 x1).2.1)

/-- Step 1's store into the output block covers it. -/
theorem cover2_B_2 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) (y : S1024x2048.Idx) :
    ∃ pc ∈ (kernelRun2_B c i arg2 harg2 arg3 harg3 arg4 harg4 arg5 harg5 hc0 hc1 x0 x1 xs0).1, y ∈ pc.1.set :=
  View.cover_of_tiledL (kernelRun2_B c i arg2 harg2 arg3 harg3 arg4 harg4 arg5 harg5 hc0 hc1 x0 x1 xs0).1 S1024x2048.size (by sl_kernel_rfl) y

/-- What step 1 leaves in the output block. -/
def out2_B_2 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) : Vec F S1024x2048 .bf16 :=
  VO2_2.read (Elt F) (VO2_2.writes (Elt F) VO2_2.junk (kernelRun2_B c i arg2 harg2 arg3 harg3 arg4 harg4 arg5 harg5 hc0 hc1 x0 x1 xs0).1)

/-- Step 1's store into the accumulator covers it. -/
theorem scover2_B_0 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) (y : S1024x2048.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x2048.size (by sl_kernel_rfl) y

/-- What step 1 leaves in the accumulator. -/
def sout2_B_0 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) : Vec F S1024x2048 .f32 :=
  VS2_0.read (Elt F) (VS2_0.writes (Elt F) VS2_0.junk (kernelRun2_B c i arg2 harg2 arg3 harg3 arg4 harg4 arg5 harg5 hc0 hc1 x0 x1 xs0).2.1)

/-! ## The accumulation, point by point -/

/-- After the body at position n: the output block's buffer and the accumulator.  An even position is step
    0 of its row-block (from the two input blocks alone), an odd one step 1 (over what position n - 1 left
    in the accumulator). -/
def outsAt2 (c : Dev nD) : (n : ℕ) → n < cfg2.N → Vec F S1024x2048 .bf16 × Vec F S1024x2048 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => by have := (hcond2_1 ⟨0, hn⟩).mp h; (try dsimp only at this); omega) (iblk2 V c 0 ⟨0, hn⟩) (iblk2 V c 1 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => by have := (hcond2_1 ⟨0, hn⟩).mp h; (try dsimp only at this); omega) (iblk2 V c 0 ⟨0, hn⟩) (iblk2 V c 1 ⟨0, hn⟩))
  | n + 1, hn =>
    if h0 : (n + 1) % 2 = 0 then
      (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => by have := (hcond2_1 ⟨n + 1, hn⟩).mp h; (try dsimp only at this); omega) (iblk2 V c 0 ⟨n + 1, hn⟩) (iblk2 V c 1 ⟨n + 1, hn⟩),
        sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => by have := (hcond2_1 ⟨n + 1, hn⟩).mp h; (try dsimp only at this); omega) (iblk2 V c 0 ⟨n + 1, hn⟩) (iblk2 V c 1 ⟨n + 1, hn⟩))
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr (by (try dsimp only); omega)) (iblk2 V c 0 ⟨n + 1, hn⟩) (iblk2 V c 1 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr (by (try dsimp only); omega)) (iblk2 V c 0 ⟨n + 1, hn⟩) (iblk2 V c 1 ⟨n + 1, hn⟩) (outsAt2 c n (Nat.lt_of_succ_lt hn)).2)

/-- At a point of step 0. -/
theorem outsAt2_A (c : Dev nD) (t : Fin cfg2.N) (h0 : t.val % 2 = 0) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => by have := (hcond2_1 t).mp h; (try dsimp only at this); omega) (iblk2 V c 0 t) (iblk2 V c 1 t),
      sout2_A_0 c (grid2.coords t) (ms2_0 t) (hs2_0 t) (ms2_1 t) (hs2_1 t) (ms2_2 t) (hs2_2 t) scM2_0 (Memref.isWhole_whole _) ((hcond2_0 t).mpr h0) (fun h => by have := (hcond2_1 t).mp h; (try dsimp only at this); omega) (iblk2 V c 0 t) (iblk2 V c 1 t)) := by
  obtain ⟨n, hn⟩ := t
  cases n with
  | zero => exact rfl
  | succ n => exact (dif_pos h0).trans rfl

/-- At a point of step 1: over what the point before left. -/
theorem outsAt2_B (c : Dev nD) (t : Fin cfg2.N) (h0 : ¬t.val % 2 = 0) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr (by (try dsimp only); omega)) (iblk2 V c 0 t) (iblk2 V c 1 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr (by (try dsimp only); omega)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- The scoped buffers no window stages, with the accumulator taken out as a memory reference owned at some
    contents, beside the generator register: what the region is entered with. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-- Before position n: at the first point what the region is entered with; afterwards the accumulator at
    what the point before left, the other scoped buffers and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The region's arrays as it finds them; after the body at a point each input's buffer at its block and the
    output's at the accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point.  The parity of the point says which case it is in; the inputs' buffers hold their
    blocks; the invariant hands the body the accumulator (at anything at the first point, else at what the
    point before left) and takes it back at this point's contents, since the case's stores cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 4 := lt_of_lt_of_eq t.isLt (show cfg2.N = 4 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2_A t hc0 hc1) (noFlush2_2_A t hc0 hc1)]
    rw [outsAt2_A V c t h0]
    unfold sout2_A_0; (try dsimp only)
    by_cases hz : t.val = 0
    · rw [PhiS2_castSucc V c t, PhiS2_zero V c _ _ hz, PhiA2_eq]
      iintro ⟨⟨⟨HS0, Hsr⟩, Hg⟩, Ho, ⟨%d0, H0⟩, ⟨%d1, H1⟩, ⟨%d2, H2⟩⟩
      iapply ((kernelRun2_A c (grid2.coords t) _ _ _ _ _ _ _ _ hc0 hc1 (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover2_A_0 c _ _ _ _ _ _ _ _ _ _ _ _ _)
          iexact Hsr
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, Hsr⟩, Hg⟩, Ho, ⟨%d0, H0⟩, ⟨%d1, H1⟩, ⟨%d2, H2⟩⟩
      iapply ((kernelRun2_A c (grid2.coords t) _ _ _ _ _ _ _ _ hc0 hc1 (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover2_A_0 c _ _ _ _ _ _ _ _ _ _ _ _ _)
          iexact Hsr
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hc1 : cond2_1 (grid2.coords t) := (hcond2_1 t).mpr (by omega)
    rw [show (dat2 V c).leavesExact 2 t = owns (c : Thread nD τ) (ms2_2 t) fullShare ((dat2 V c).after 2 t) from by
      unfold Dat.leavesExact; rw [liveAt2_2_B t hc0 hc1], after2_2]
    rw [outsAt2_B V c t h0]
    unfold out2_B_2 sout2_B_0; (try dsimp only)
    have hz : t.val ≠ 0 := by omega
    rw [PhiS2_castSucc V c t, PhiS2_pos V c _ _ hz]
    iintro ⟨⟨⟨HS0, Hsr⟩, Hg⟩, Ho, ⟨%d0, H0⟩, ⟨%d1, H1⟩, ⟨%d2, H2⟩⟩
    iapply ((kernelRun2_B c (grid2.coords t) _ _ _ _ _ _ _ _ hc0 hc1 (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover2_B_0 c _ _ _ _ _ _ _ _ _ _ _ _ _ _)
        iexact Hsr
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.R3Runs.lean ====
/-
  Kernel 3 of the program, one grid point at a time.  The grid is 2 x 2: point t has row-block t / 2 and
  contraction step t % 2.  At step 0 the body zeroes its accumulator and adds the first block product into
  it, storing nothing into the output block; at step 1 it adds the second block product and stores the
  output block.  Here: the two branch conditions in closed form over the grid, where the output window is
  idle, the memory references a point is called with, and the body's run in each of the two cases, ending
  with the accumulator (and at step 1 the output block) holding the stores the run made.
-/
import proofs.«144174_j32117765439601_2_alg».proof.Proof.Gen.Kernel.Launch
import proofs.«144174_j32117765439601_2_alg».proof.Proof.Gen.Kernel.Skeleton
import proofs.«144174_j32117765439601_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: a parameter
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, for any proof data over these arrays
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
end

/-! ## The two branch conditions -/

/-- The first conditional's test: the contraction step is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
/-- The second conditional's test: the contraction step is the last one. -/
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- At step 0 the output window is idle and is not written back. -/
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
/-- At step 1 it is live. -/
theorem liveAt3_2_B : ∀ t : Fin cfg3.N, ¬cond3_0 (grid3.coords t) → cond3_1 (grid3.coords t) → cfg3.idle 2 (grid3.coords t) = false := by decide +kernel

/-! ## The memory references at a point -/

abbrev VO3_2 : View sig .tc .vmem S1024x2048 .bf16 := (Memref.whole cc3_stg2_0 : Memref sig .tc .vmem S1024x2048 .bf16).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x2048 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x2048 .bf16 := win3_2.stage (cfg3.slots t 2)
abbrev hs3_2 (t : Fin cfg3.N) : (ms3_2 t).IsWhole := hstage3_2 ((cfg3.slots t 2).cast nbuf3_2)
/-- The accumulator: a whole buffer of the kernel's own, kept from one point to the next. -/
abbrev scM3_0 : Memref sig .tc .vmem S1024x2048 .f32 := Memref.whole cc3_scratch0
abbrev VS3_0 : View sig .tc .vmem S1024x2048 .f32 := scM3_0.view

/-! ## The body's run, case by case -/

set_option maxHeartbeats 4000000 in
/-- Step 0: from the two input blocks, the output buffer at anything (handed back untouched) and the
    accumulator at anything, the body runs and leaves the accumulator with its stores written. -/
noncomputable def kernelRun3_A (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond3_0 i) (hc1 : ¬cond3_1 i)
    (x0 : Vec F S1024x1024 .f32) (x1 : Vec F S1024x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__qk_softmax_kernel i arg2 harg2 arg3 harg3 arg4 harg4 arg5 harg5) K } := by
  refine ⟨[], ?_, fun xi2 E K => ?run⟩
  case run =>
    simp only [cc3__qk_softmax_kernel_eq_skeleton]; unfold cc3__qk_softmax_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 1: from the two input blocks, the output buffer at anything and the accumulator at what the step
    before left, the body runs and leaves the accumulator and the output buffer with its stores written. -/
noncomputable def kernelRun3_B (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) :
    Σ' (L2 : List (View.Piece (Elt F) S1024x2048 .bf16)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__qk_softmax_kernel i arg2 harg2 arg3 harg3 arg4 harg4 arg5 harg5) K } := by
  refine ⟨?_, ?_, fun E K => ?run⟩
  case run =>
    simp only [cc3__qk_softmax_kernel_eq_skeleton]; unfold cc3__qk_softmax_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.R3Frame.lean ====
/-
  Kernel 3: what its accumulator and its output block hold after every grid point, the region's
  invariant (the accumulator at what the point before left), the pipeline's proof data and the body
  obligation at every point.
-/
import proofs.«144174_j32117765439601_2_alg».proof.Proof.KB.R3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Step 0 stores nothing into the output block: a placeholder nothing consults. -/
def out3_A_2 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond3_0 i) (hc1 : ¬cond3_1 i)
    (x0 : Vec F S1024x1024 .f32) (x1 : Vec F S1024x2048 .f32) : Vec F S1024x2048 .bf16 :=
  VO3_2.read (Elt F) (VO3_2.writes (Elt F) VO3_2.junk (kernelRun3_A c i arg2 harg2 arg3 harg3 arg4 harg4 arg5 harg5 hc0 hc1 x0 x1).1)

/-- Step 0's stores into the accumulator cover it. -/
theorem scover3_A_0 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond3_0 i) (hc1 : ¬cond3_1 i)
    (x0 : Vec F S1024x1024 .f32) (x1 : Vec F S1024x2048 .f32) (y : S1024x2048.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1024x2048.size (by sl_kernel_rfl) y

/-- What step 0 leaves in the accumulator. -/
def sout3_A_0 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond3_0 i) (hc1 : ¬cond3_1 i)
    (x0 : Vec F S1024x1024 .f32) (x1 : Vec F S1024x2048 .f32) : Vec F S1024x2048 .f32 :=
  VS3_0.read (Elt F) (VS3_0.writes (Elt F) VS3_0.junk (kernelRun3_A c i arg2 harg2 arg3 harg3 arg4 harg4 arg5 harg5 hc0 hc1 x0 x1).2.1)

/-- Step 1's store into the output block covers it. -/
theorem cover3_B_2 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) (y : S1024x2048.Idx) :
    ∃ pc ∈ (kernelRun3_B c i arg2 harg2 arg3 harg3 arg4 harg4 arg5 harg5 hc0 hc1 x0 x1 xs0).1, y ∈ pc.1.set :=
  View.cover_of_tiledL (kernelRun3_B c i arg2 harg2 arg3 harg3 arg4 harg4 arg5 harg5 hc0 hc1 x0 x1 xs0).1 S1024x2048.size (by sl_kernel_rfl) y

/-- What step 1 leaves in the output block. -/
def out3_B_2 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) : Vec F S1024x2048 .bf16 :=
  VO3_2.read (Elt F) (VO3_2.writes (Elt F) VO3_2.junk (kernelRun3_B c i arg2 harg2 arg3 harg3 arg4 harg4 arg5 harg5 hc0 hc1 x0 x1 xs0).1)

/-- Step 1's store into the accumulator covers it. -/
theorem scover3_B_0 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) (y : S1024x2048.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1024x2048.size (by sl_kernel_rfl) y

/-- What step 1 leaves in the accumulator. -/
def sout3_B_0 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) : Vec F S1024x2048 .f32 :=
  VS3_0.read (Elt F) (VS3_0.writes (Elt F) VS3_0.junk (kernelRun3_B c i arg2 harg2 arg3 harg3 arg4 harg4 arg5 harg5 hc0 hc1 x0 x1 xs0).2.1)

/-! ## The accumulation, point by point -/

/-- After the body at position n: the output block's buffer and the accumulator.  An even position is step
    0 of its row-block (from the two input blocks alone), an odd one step 1 (over what position n - 1 left
    in the accumulator). -/
def outsAt3 (c : Dev nD) : (n : ℕ) → n < cfg3.N → Vec F S1024x2048 .bf16 × Vec F S1024x2048 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => by have := (hcond3_1 ⟨0, hn⟩).mp h; (try dsimp only at this); omega) (iblk3 V c 0 ⟨0, hn⟩) (iblk3 V c 1 ⟨0, hn⟩),
      sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => by have := (hcond3_1 ⟨0, hn⟩).mp h; (try dsimp only at this); omega) (iblk3 V c 0 ⟨0, hn⟩) (iblk3 V c 1 ⟨0, hn⟩))
  | n + 1, hn =>
    if h0 : (n + 1) % 2 = 0 then
      (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => by have := (hcond3_1 ⟨n + 1, hn⟩).mp h; (try dsimp only at this); omega) (iblk3 V c 0 ⟨n + 1, hn⟩) (iblk3 V c 1 ⟨n + 1, hn⟩),
        sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => by have := (hcond3_1 ⟨n + 1, hn⟩).mp h; (try dsimp only at this); omega) (iblk3 V c 0 ⟨n + 1, hn⟩) (iblk3 V c 1 ⟨n + 1, hn⟩))
    else
      (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr (by (try dsimp only); omega)) (iblk3 V c 0 ⟨n + 1, hn⟩) (iblk3 V c 1 ⟨n + 1, hn⟩) (outsAt3 c n (Nat.lt_of_succ_lt hn)).2,
        sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr (by (try dsimp only); omega)) (iblk3 V c 0 ⟨n + 1, hn⟩) (iblk3 V c 1 ⟨n + 1, hn⟩) (outsAt3 c n (Nat.lt_of_succ_lt hn)).2)

/-- At a point of step 0. -/
theorem outsAt3_A (c : Dev nD) (t : Fin cfg3.N) (h0 : t.val % 2 = 0) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => by have := (hcond3_1 t).mp h; (try dsimp only at this); omega) (iblk3 V c 0 t) (iblk3 V c 1 t),
      sout3_A_0 c (grid3.coords t) (ms3_0 t) (hs3_0 t) (ms3_1 t) (hs3_1 t) (ms3_2 t) (hs3_2 t) scM3_0 (Memref.isWhole_whole _) ((hcond3_0 t).mpr h0) (fun h => by have := (hcond3_1 t).mp h; (try dsimp only at this); omega) (iblk3 V c 0 t) (iblk3 V c 1 t)) := by
  obtain ⟨n, hn⟩ := t
  cases n with
  | zero => exact rfl
  | succ n => exact (dif_pos h0).trans rfl

/-- At a point of step 1: over what the point before left. -/
theorem outsAt3_B (c : Dev nD) (t : Fin cfg3.N) (h0 : ¬t.val % 2 = 0) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr (by (try dsimp only); omega)) (iblk3 V c 0 t) (iblk3 V c 1 t) (outsAt3 V c (t.val - 1) (Nat.lt_of_le_of_lt (Nat.sub_le _ _) t.isLt)).2,
      sout3_B_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr (by (try dsimp only); omega)) (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- The scoped buffers no window stages, with the accumulator taken out as a memory reference owned at some
    contents, beside the generator register: what the region is entered with. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-- Before position n: at the first point what the region is entered with; afterwards the accumulator at
    what the point before left, the other scoped buffers and the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The region's arrays as it finds them; after the body at a point each input's buffer at its block and the
    output's at the accumulation's first component; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point.  The parity of the point says which case it is in; the inputs' buffers hold their
    blocks; the invariant hands the body the accumulator (at anything at the first point, else at what the
    point before left) and takes it back at this point's contents, since the case's stores cover it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 4 := lt_of_lt_of_eq t.isLt (show cfg3.N = 4 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 2 = 0
  · have hc0 : cond3_0 (grid3.coords t) := (hcond3_0 t).mpr h0
    have hc1 : ¬cond3_1 (grid3.coords t) := fun h => by have := (hcond3_1 t).mp h; omega
    rw [Dat.leavesExact_idle (dat3 V c) 2 t (idleAt3_2_A t hc0 hc1) (noFlush3_2_A t hc0 hc1)]
    rw [outsAt3_A V c t h0]
    unfold sout3_A_0; (try dsimp only)
    by_cases hz : t.val = 0
    · rw [PhiS3_castSucc V c t, PhiS3_zero V c _ _ hz, PhiA3_eq]
      iintro ⟨⟨⟨HS0, Hsr⟩, Hg⟩, Ho, ⟨%d0, H0⟩, ⟨%d1, H1⟩, ⟨%d2, H2⟩⟩
      iapply ((kernelRun3_A c (grid3.coords t) _ _ _ _ _ _ _ _ hc0 hc1 (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover3_A_0 c _ _ _ _ _ _ _ _ _ _ _ _ _)
          iexact Hsr
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨HS0, Hsr⟩, Hg⟩, Ho, ⟨%d0, H0⟩, ⟨%d1, H1⟩, ⟨%d2, H2⟩⟩
      iapply ((kernelRun3_A c (grid3.coords t) _ _ _ _ _ _ _ _ hc0 hc1 (iblk3 V c 0 t) (iblk3 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover3_A_0 c _ _ _ _ _ _ _ _ _ _ _ _ _)
          iexact Hsr
        iexact Hg
      isplitl [Ho]; · iexact Ho
      isplitl [H0]; · iexact H0
      isplitl [H1]; · iexact H1
      iexists _; iexact H2
  · have hc0 : ¬cond3_0 (grid3.coords t) := fun h => h0 ((hcond3_0 t).mp h)
    have hc1 : cond3_1 (grid3.coords t) := (hcond3_1 t).mpr (by omega)
    rw [show (dat3 V c).leavesExact 2 t = owns (c : Thread nD τ) (ms3_2 t) fullShare ((dat3 V c).after 2 t) from by
      unfold Dat.leavesExact; rw [liveAt3_2_B t hc0 hc1], after3_2]
    rw [outsAt3_B V c t h0]
    unfold out3_B_2 sout3_B_0; (try dsimp only)
    have hz : t.val ≠ 0 := by omega
    rw [PhiS3_castSucc V c t, PhiS3_pos V c _ _ hz]
    iintro ⟨⟨⟨HS0, Hsr⟩, Hg⟩, Ho, ⟨%d0, H0⟩, ⟨%d1, H1⟩, ⟨%d2, H2⟩⟩
    iapply ((kernelRun3_B c (grid3.coords t) _ _ _ _ _ _ _ _ hc0 hc1 (iblk3 V c 0 t) (iblk3 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover3_B_0 c _ _ _ _ _ _ _ _ _ _ _ _ _ _)
        iexact Hsr
      iexact Hg
    isplitl [Ho]; · iexact Ho
    isplitl [H0]; · iexact H0
    isplitl [H1]; · iexact H1
    unfold owns; iexists _; isplitr
    swap; · iexact H2
    ipureintro; exact View.read_writes_of_cover _ _ _ _ _ (cover3_B_2 c _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.R4Runs.lean ====
/-
  Kernel 4 of the program, one grid point at a time.  The grid is 2 x 2: point t has row-block t / 2 and
  contraction step t % 2.  At step 0 the body zeroes its accumulator and adds the first block product into
  it, storing nothing into the output block; at step 1 it adds the second block product and stores the
  output block.  Here: the two branch conditions in closed form over the grid, where the output window is
  idle, the memory references a point is called with, and the body's run in each of the two cases, ending
  with the accumulator (and at step 1 the output block) holding the stores the run made.
-/
import proofs.«144174_j32117765439601_2_alg».proof.Proof.Gen.Kernel.Launch
import proofs.«144174_j32117765439601_2_alg».proof.Proof.Gen.Kernel.Skeleton
import proofs.«144174_j32117765439601_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: a parameter
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, for any proof data over these arrays
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
end

/-! ## The two branch conditions -/

/-- The first conditional's test: the contraction step is 0. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 2 = 0 :=
  (by decide +kernel : ∀ t : Fin grid4.N, cond4_0 (grid4.coords t) ↔ t.val % 2 = 0)
/-- The second conditional's test: the contraction step is the last one. -/
abbrev cond4_1 (i : grid4.Coords) : Prop := k4_cond2 i = 1#1
theorem hcond4_1 : ∀ t : Fin cfg4.N, cond4_1 (grid4.coords t) ↔ t.val % 2 = 1 :=
  (by decide +kernel : ∀ t : Fin grid4.N, cond4_1 (grid4.coords t) ↔ t.val % 2 = 1)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- At step 0 the output window is idle and is not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
/-- At step 1 it is live. -/
theorem liveAt4_2_B : ∀ t : Fin cfg4.N, ¬cond4_0 (grid4.coords t) → cond4_1 (grid4.coords t) → cfg4.idle 2 (grid4.coords t) = false := by decide +kernel

/-! ## The memory references at a point -/

abbrev VO4_2 : View sig .tc .vmem S1024x2048 .f32 := (Memref.whole cc4_stg2_0 : Memref sig .tc .vmem S1024x2048 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x2048 .f32 := win4_2.stage (cfg4.slots t 2)
abbrev hs4_2 (t : Fin cfg4.N) : (ms4_2 t).IsWhole := hstage4_2 ((cfg4.slots t 2).cast nbuf4_2)
/-- The accumulator: a whole buffer of the kernel's own, kept from one point to the next. -/
abbrev scM4_0 : Memref sig .tc .vmem S1024x2048 .f32 := Memref.whole cc4_scratch0
abbrev VS4_0 : View sig .tc .vmem S1024x2048 .f32 := scM4_0.view

/-! ## The body's run, case by case -/

set_option maxHeartbeats 4000000 in
/-- Step 0: from the two input blocks, the output buffer at anything (handed back untouched) and the
    accumulator at anything, the body runs and leaves the accumulator with its stores written. -/
noncomputable def kernelRun4_A (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : cond4_0 i) (hc1 : ¬cond4_1 i)
    (x0 : Vec F S1024x1024 .bf16) (x1 : Vec F S1024x2048 .bf16) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__kernel i arg2 harg2 arg3 harg3 arg4 harg4 arg5 harg5) K } := by
  refine ⟨[], ?_, fun xi2 E K => ?run⟩
  case run =>
    simp only [cc4__kernel_eq_skeleton]; unfold cc4__kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 1: from the two input blocks, the output buffer at anything and the accumulator at what the step
    before left, the body runs and leaves the accumulator and the output buffer with its stores written. -/
noncomputable def kernelRun4_B (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__kernel i arg2 harg2 arg3 harg3 arg4 harg4 arg5 harg5) K } := by
  refine ⟨?_, ?_, fun E K => ?run⟩
  case run =>
    simp only [cc4__kernel_eq_skeleton]; unfold cc4__kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.R4Frame.lean ====
/-
  Kernel 4: what its accumulator and its output block hold after every grid point, the region's
  invariant (the accumulator at what the point before left), the pipeline's proof data and the body
  obligation at every point.
-/
import proofs.«144174_j32117765439601_2_alg».proof.Proof.KB.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Step 0 stores nothing into the output block: a placeholder nothing consults. -/
def out4_A_2 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : cond4_0 i) (hc1 : ¬cond4_1 i)
    (x0 : Vec F S1024x1024 .bf16) (x1 : Vec F S1024x2048 .bf16) : Vec F S1024x2048 .f32 :=
  VO4_2.read (Elt F) (VO4_2.writes (Elt F) VO4_2.junk (kernelRun4_A c i arg2 harg2 arg3 harg3 arg4 harg4 arg5 harg5 hc0 hc1 x0 x1).1)

/-- Step 0's stores into the accumulator cover it. -/
theorem scover4_A_0 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : cond4_0 i) (hc1 : ¬cond4_1 i)
    (x0 : Vec F S1024x1024 .bf16) (x1 : Vec F S1024x2048 .bf16) (y : S1024x2048.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1024x2048.size (by sl_kernel_rfl) y

/-- What step 0 leaves in the accumulator. -/
def sout4_A_0 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : cond4_0 i) (hc1 : ¬cond4_1 i)
    (x0 : Vec F S1024x1024 .bf16) (x1 : Vec F S1024x2048 .bf16) : Vec F S1024x2048 .f32 :=
  VS4_0.read (Elt F) (VS4_0.writes (Elt F) VS4_0.junk (kernelRun4_A c i arg2 harg2 arg3 harg3 arg4 harg4 arg5 harg5 hc0 hc1 x0 x1).2.1)

/-- Step 1's store into the output block covers it. -/
theorem cover4_B_2 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) (y : S1024x2048.Idx) :
    ∃ pc ∈ (kernelRun4_B c i arg2 harg2 arg3 harg3 arg4 harg4 arg5 harg5 hc0 hc1 x0 x1 xs0).1, y ∈ pc.1.set :=
  View.cover_of_tiledL (kernelRun4_B c i arg2 harg2 arg3 harg3 arg4 harg4 arg5 harg5 hc0 hc1 x0 x1 xs0).1 S1024x2048.size (by sl_kernel_rfl) y

/-- What step 1 leaves in the output block. -/
def out4_B_2 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) : Vec F S1024x2048 .f32 :=
  VO4_2.read (Elt F) (VO4_2.writes (Elt F) VO4_2.junk (kernelRun4_B c i arg2 harg2 arg3 harg3 arg4 harg4 arg5 harg5 hc0 hc1 x0 x1 xs0).1)

/-- Step 1's store into the accumulator covers it. -/
theorem scover4_B_0 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) (y : S1024x2048.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1024x2048.size (by sl_kernel_rfl) y

/-- What step 1 leaves in the accumulator. -/
def sout4_B_0 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) : Vec F S1024x2048 .f32 :=
  VS4_0.read (Elt F) (VS4_0.writes (Elt F) VS4_0.junk (kernelRun4_B c i arg2 harg2 arg3 harg3 arg4 harg4 arg5 harg5 hc0 hc1 x0 x1 xs0).2.1)

/-! ## The accumulation, point by point -/

/-- After the body at position n: the output block's buffer and the accumulator.  An even position is step
    0 of its row-block (from the two input blocks alone), an odd one step 1 (over what position n - 1 left
    in the accumulator). -/
def outsAt4 (c : Dev nD) : (n : ℕ) → n < cfg4.N → Vec F S1024x2048 .f32 × Vec F S1024x2048 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => by have := (hcond4_1 ⟨0, hn⟩).mp h; (try dsimp only at this); omega) (iblk4 V c 0 ⟨0, hn⟩) (iblk4 V c 1 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => by have := (hcond4_1 ⟨0, hn⟩).mp h; (try dsimp only at this); omega) (iblk4 V c 0 ⟨0, hn⟩) (iblk4 V c 1 ⟨0, hn⟩))
  | n + 1, hn =>
    if h0 : (n + 1) % 2 = 0 then
      (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => by have := (hcond4_1 ⟨n + 1, hn⟩).mp h; (try dsimp only at this); omega) (iblk4 V c 0 ⟨n + 1, hn⟩) (iblk4 V c 1 ⟨n + 1, hn⟩),
        sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => by have := (hcond4_1 ⟨n + 1, hn⟩).mp h; (try dsimp only at this); omega) (iblk4 V c 0 ⟨n + 1, hn⟩) (iblk4 V c 1 ⟨n + 1, hn⟩))
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr (by (try dsimp only); omega)) (iblk4 V c 0 ⟨n + 1, hn⟩) (iblk4 V c 1 ⟨n + 1, hn⟩) (outsAt4 c n (Nat.lt_of_succ_lt hn)).2,
        sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr (by (try dsimp only); omega)) (iblk4 V c 0 ⟨n + 1, hn⟩) (iblk4 V c 1 ⟨n + 1, hn⟩) (outsAt4 c n (Nat.lt_of_succ_lt hn)).2)

/-- At a point of step 0. -/
theorem outsAt4_A (c : Dev nD) (t : Fin cfg4.N) (h0 : t.val % 2 = 0) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => by have := (hcond4_1 t).mp h; (try dsimp only at this); omega) (iblk4 V c 0 t) (iblk4 V c 1 t),
      sout4_A_0 c (grid4.coords t) (ms4_0 t) (hs4_0 t) (ms4_1 t) (hs4_1 t) (ms4_2 t) (hs4_2 t) scM4_0 (Memref.isWhole_whole _) ((hcond4_0 t).mpr h0) (fun h => by have := (hcond4_1 t).mp h; (try dsimp only at this); omega) (iblk4 V c 0 t) (iblk4 V c 1 t)) := by
  obtain ⟨n, hn⟩ := t
  cases n with
  | zero => exact rfl
  | succ n => exact (dif_pos h0).trans rfl

/-- At a point of step 1: over what the point before left. -/
theorem outsAt4_B (c : Dev nD) (t : Fin cfg4.N) (h0 : ¬t.val % 2 = 0) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr (by (try dsimp only); omega)) (iblk4 V c 0 t) (iblk4 V c 1 t) (outsAt4 V c (t.val - 1) (Nat.lt_of_le_of_lt (Nat.sub_le _ _) t.isLt)).2,
      sout4_B_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr (by (try dsimp only); omega)) (iblk4 V c 0 t) (iblk4 V c 1 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- The scoped buffers no window stages, with the accumulator taken out as a memory reference owned at some
    contents, beside the generator register: what the region is entered with. -/
theorem PhiA4_eq (c : Dev nD) :
    (Pipeline.ΦA spec4 c : sProp 𝕄)
      = iprop(iprop((∃ d, owns (c : Thread nD τ) scM4_0 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-- Before position n: at the first point what the region is entered with; afterwards the accumulator at
    what the point before left, the other scoped buffers and the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The region's arrays as it finds them; after the body at a point each input's buffer at its block and the
    output's at the accumulation's first component; the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point.  The parity of the point says which case it is in; the inputs' buffers hold their
    blocks; the invariant hands the body the accumulator (at anything at the first point, else at what the
    point before left) and takes it back at this point's contents, since the case's stores cover it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 4 := lt_of_lt_of_eq t.isLt (show cfg4.N = 4 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 2 = 0
  · have hc0 : cond4_0 (grid4.coords t) := (hcond4_0 t).mpr h0
    have hc1 : ¬cond4_1 (grid4.coords t) := fun h => by have := (hcond4_1 t).mp h; omega
    rw [Dat.leavesExact_idle (dat4 V c) 2 t (idleAt4_2_A t hc0 hc1) (noFlush4_2_A t hc0 hc1)]
    rw [outsAt4_A V c t h0]
    unfold sout4_A_0; (try dsimp only)
    by_cases hz : t.val = 0
    · rw [PhiS4_castSucc V c t, PhiS4_zero V c _ _ hz, PhiA4_eq]
      iintro ⟨⟨⟨HS0, Hsr⟩, Hg⟩, Ho, ⟨%d0, H0⟩, ⟨%d1, H1⟩, ⟨%d2, H2⟩⟩
      iapply ((kernelRun4_A c (grid4.coords t) _ _ _ _ _ _ _ _ hc0 hc1 (iblk4 V c 0 t) (iblk4 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover4_A_0 c _ _ _ _ _ _ _ _ _ _ _ _ _)
          iexact Hsr
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, Hsr⟩, Hg⟩, Ho, ⟨%d0, H0⟩, ⟨%d1, H1⟩, ⟨%d2, H2⟩⟩
      iapply ((kernelRun4_A c (grid4.coords t) _ _ _ _ _ _ _ _ hc0 hc1 (iblk4 V c 0 t) (iblk4 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover4_A_0 c _ _ _ _ _ _ _ _ _ _ _ _ _)
          iexact Hsr
        iexact Hg
      isplitl [Ho]; · iexact Ho
      isplitl [H0]; · iexact H0
      isplitl [H1]; · iexact H1
      iexists _; iexact H2
  · have hc0 : ¬cond4_0 (grid4.coords t) := fun h => h0 ((hcond4_0 t).mp h)
    have hc1 : cond4_1 (grid4.coords t) := (hcond4_1 t).mpr (by omega)
    rw [show (dat4 V c).leavesExact 2 t = owns (c : Thread nD τ) (ms4_2 t) fullShare ((dat4 V c).after 2 t) from by
      unfold Dat.leavesExact; rw [liveAt4_2_B t hc0 hc1], after4_2]
    rw [outsAt4_B V c t h0]
    unfold out4_B_2 sout4_B_0; (try dsimp only)
    have hz : t.val ≠ 0 := by omega
    rw [PhiS4_castSucc V c t, PhiS4_pos V c _ _ hz]
    iintro ⟨⟨⟨HS0, Hsr⟩, Hg⟩, Ho, ⟨%d0, H0⟩, ⟨%d1, H1⟩, ⟨%d2, H2⟩⟩
    iapply ((kernelRun4_B c (grid4.coords t) _ _ _ _ _ _ _ _ hc0 hc1 (iblk4 V c 0 t) (iblk4 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover4_B_0 c _ _ _ _ _ _ _ _ _ _ _ _ _ _)
        iexact Hsr
      iexact Hg
    isplitl [Ho]; · iexact Ho
    isplitl [H0]; · iexact H0
    isplitl [H1]; · iexact H1
    unfold owns; iexists _; isplitr
    swap; · iexact H2
    ipureintro; exact View.read_writes_of_cover _ _ _ _ _ (cover4_B_2 c _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Run.lean ====
/-
  The whole program: five kernel regions, one after the other, with no host operation between them.  The
  buffers' contents at each boundary are a fold from the launch memory (after a region, its arrays at what
  its write-backs leave, every other buffer untouched); each region is a segment entered from the contents
  before it and left at the contents after it; the launch composes them.  At the end every unscoped buffer
  holds the last fold's contents: each argument array its launch contents, the result array what the last
  region's write-backs leave.
-/
import proofs.«144174_j32117765439601_2_alg».proof.Proof.KB.R0Frame
import proofs.«144174_j32117765439601_2_alg».proof.Proof.KB.R1Frame
import proofs.«144174_j32117765439601_2_alg».proof.Proof.KB.R2Frame
import proofs.«144174_j32117765439601_2_alg».proof.Proof.KB.R3Frame
import proofs.«144174_j32117765439601_2_alg».proof.Proof.KB.R4Frame
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- An input window's array is left as the region found it. -/
theorem W1_in0 (c : Dev nD) : W1 m ρ c (Proc.devRef .tc (Pipeline.arrRef spec0 0)) = W0 m ρ c (Proc.devRef .tc (Pipeline.arrRef spec0 0)) :=
  (W1_arr m ρ c 0).trans (((dat0 (V0 m ρ) c).arrAt_in 0 rfl _).trans (A_eq0 (V0 m ρ) c 0))
theorem W1_in1 (c : Dev nD) : W1 m ρ c (Proc.devRef .tc (Pipeline.arrRef spec0 1)) = W0 m ρ c (Proc.devRef .tc (Pipeline.arrRef spec0 1)) :=
  (W1_arr m ρ c 1).trans (((dat0 (V0 m ρ) c).arrAt_in 1 rfl _).trans (A_eq0 (V0 m ρ) c 1))
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the pipeline leaves, every other buffer as before. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- An input window's array is left as the region found it. -/
theorem W2_in0 (c : Dev nD) : W2 m ρ c (Proc.devRef .tc (Pipeline.arrRef spec1 0)) = W1 m ρ c (Proc.devRef .tc (Pipeline.arrRef spec1 0)) :=
  (W2_arr m ρ c 0).trans (((dat1 (V1 m ρ) c).arrAt_in 0 rfl _).trans (A_eq1 (V1 m ρ) c 0))
theorem W2_in1 (c : Dev nD) : W2 m ρ c (Proc.devRef .tc (Pipeline.arrRef spec1 1)) = W1 m ρ c (Proc.devRef .tc (Pipeline.arrRef spec1 1)) :=
  (W2_arr m ρ c 1).trans (((dat1 (V1 m ρ) c).arrAt_in 1 rfl _).trans (A_eq1 (V1 m ρ) c 1))
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what the pipeline leaves, every other buffer as before. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- An input window's array is left as the region found it. -/
theorem W3_in0 (c : Dev nD) : W3 m ρ c (Proc.devRef .tc (Pipeline.arrRef spec2 0)) = W2 m ρ c (Proc.devRef .tc (Pipeline.arrRef spec2 0)) :=
  (W3_arr m ρ c 0).trans (((dat2 (V2 m ρ) c).arrAt_in 0 rfl _).trans (A_eq2 (V2 m ρ) c 0))
theorem W3_in1 (c : Dev nD) : W3 m ρ c (Proc.devRef .tc (Pipeline.arrRef spec2 1)) = W2 m ρ c (Proc.devRef .tc (Pipeline.arrRef spec2 1)) :=
  (W3_arr m ρ c 1).trans (((dat2 (V2 m ρ) c).arrAt_in 1 rfl _).trans (A_eq2 (V2 m ρ) c 1))
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After region 3: its arrays at what the pipeline leaves, every other buffer as before. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- An input window's array is left as the region found it. -/
theorem W4_in0 (c : Dev nD) : W4 m ρ c (Proc.devRef .tc (Pipeline.arrRef spec3 0)) = W3 m ρ c (Proc.devRef .tc (Pipeline.arrRef spec3 0)) :=
  (W4_arr m ρ c 0).trans (((dat3 (V3 m ρ) c).arrAt_in 0 rfl _).trans (A_eq3 (V3 m ρ) c 0))
theorem W4_in1 (c : Dev nD) : W4 m ρ c (Proc.devRef .tc (Pipeline.arrRef spec3 1)) = W3 m ρ c (Proc.devRef .tc (Pipeline.arrRef spec3 1)) :=
  (W4_arr m ρ c 1).trans (((dat3 (V3 m ρ) c).arrAt_in 1 rfl _).trans (A_eq3 (V3 m ρ) c 1))
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-- After region 4: its arrays at what the pipeline leaves, every other buffer as before. -/
def W5 (c : Dev nD) : Valuation τ sig (Elt F) :=
  Pipeline.withArrays spec4 c (W4 m ρ c) fun w => (dat4 (V4 m ρ) c).arrAt w cfg4.N
theorem W5_arr (c : Dev nD) (w : Fin cfg4.W) :
    W5 m ρ c (Proc.devRef .tc (Pipeline.arrRef spec4 w)) = (dat4 (V4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
/-- An input window's array is left as the region found it. -/
theorem W5_in0 (c : Dev nD) : W5 m ρ c (Proc.devRef .tc (Pipeline.arrRef spec4 0)) = W4 m ρ c (Proc.devRef .tc (Pipeline.arrRef spec4 0)) :=
  (W5_arr m ρ c 0).trans (((dat4 (V4 m ρ) c).arrAt_in 0 rfl _).trans (A_eq4 (V4 m ρ) c 0))
theorem W5_in1 (c : Dev nD) : W5 m ρ c (Proc.devRef .tc (Pipeline.arrRef spec4 1)) = W4 m ρ c (Proc.devRef .tc (Pipeline.arrRef spec4 1)) :=
  (W5_arr m ρ c 1).trans (((dat4 (V4 m ρ) c).arrAt_in 1 rfl _).trans (A_eq4 (V4 m ρ) c 1))
abbrev V5 : (c : Dev nD) → (b : Ref sig .tc) → Buf (Elt F) ((c : Thread nD τ).loc b) := fun c b => W5 m ρ c b
theorem hF4 (c : Dev nD) (w : Fin cfg4.W) : (dat4 (V4 m ρ) c).arrAt w cfg4.N = V5 m ρ c (Pipeline.arrRef spec4 w) :=
  (W5_arr m ρ c w).symm
theorem hrest4 (c : Dev nD) : ∀ b, b ∉ Finset.univ.image (Pipeline.arrRef spec4) → V5 m ρ c b = V4 m ρ c b :=
  fun b hb => W5_of_ne m ρ c b fun w e => hb (Finset.mem_image.mpr ⟨w, Finset.mem_univ _, e⟩)

/-! ## No region writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_in0 m ρ c
    _ = W1 m ρ c (Proc.devRef .tc main_arg0) := W2_in0 m ρ c
    _ = W0 m ρ c (Proc.devRef .tc main_arg0) := W1_in0 m ρ c
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_in1 m ρ c
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_in1 m ρ c
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_in1 m ρ c
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered with every unscoped buffer at the contents before it, left with them at
    the contents after it.  Its arrays are split out of the unscoped buffers and put back at their final
    contents; the generator register goes into the invariant and comes back; the accumulator is among the
    scoped buffers the region is handed and hands back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none,
      show (pdats m ρ 0 c).Φ (Fin.last _) = PhiS0 (V0 m ρ) c (Fin.last cfg0.N).val (Nat.le_of_lt_succ (Fin.last cfg0.N).isLt) from rfl,
      PhiS0_pos (V0 m ρ) c _ _ (by rw [Fin.val_last]; have : cfg0.N = 4 := N_0; omega)]
    show _ ⊢ iprop((∃ r, prngReg c r) ∗ BI.emp ∗ Pipeline.scopedRest (Ix := Unit) (Name := ℕ) (U := UR sig nD τ) (Lvl := ℕ) (Val := Elt F) spec0 c)
    rw [scopedRest0_split]
    simp only [scM0_0, owns_whole]
    iintro ⟨⟨HS, Hsr⟩, Hp⟩
    isplitl [Hp]; · iexact Hp
    isplitr; · iempintro
    isplitl [HS]; · iexists _; iexact HS
    iexact Hsr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at
    the contents after it.  Its arrays are split out of the unscoped buffers and put back at their final
    contents; the generator register goes into the invariant and comes back; the accumulator is among the
    scoped buffers the region is handed and hands back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none,
      show (pdats m ρ 1 c).Φ (Fin.last _) = PhiS1 (V1 m ρ) c (Fin.last cfg1.N).val (Nat.le_of_lt_succ (Fin.last cfg1.N).isLt) from rfl,
      PhiS1_pos (V1 m ρ) c _ _ (by rw [Fin.val_last]; have : cfg1.N = 4 := N_1; omega)]
    show _ ⊢ iprop((∃ r, prngReg c r) ∗ BI.emp ∗ Pipeline.scopedRest (Ix := Unit) (Name := ℕ) (U := UR sig nD τ) (Lvl := ℕ) (Val := Elt F) spec1 c)
    rw [scopedRest1_split]
    simp only [scM1_0, owns_whole]
    iintro ⟨⟨HS, Hsr⟩, Hp⟩
    isplitl [Hp]; · iexact Hp
    isplitr; · iempintro
    isplitl [HS]; · iexists _; iexact HS
    iexact Hsr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at
    the contents after it.  Its arrays are split out of the unscoped buffers and put back at their final
    contents; the generator register goes into the invariant and comes back; the accumulator is among the
    scoped buffers the region is handed and hands back; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none,
      show (pdats m ρ 2 c).Φ (Fin.last _) = PhiS2 (V2 m ρ) c (Fin.last cfg2.N).val (Nat.le_of_lt_succ (Fin.last cfg2.N).isLt) from rfl,
      PhiS2_pos (V2 m ρ) c _ _ (by rw [Fin.val_last]; have : cfg2.N = 4 := N_2; omega)]
    show _ ⊢ iprop((∃ r, prngReg c r) ∗ BI.emp ∗ Pipeline.scopedRest (Ix := Unit) (Name := ℕ) (U := UR sig nD τ) (Lvl := ℕ) (Val := Elt F) spec2 c)
    rw [scopedRest2_split]
    simp only [scM2_0, owns_whole]
    iintro ⟨⟨HS, Hsr⟩, Hp⟩
    isplitl [Hp]; · iexact Hp
    isplitr; · iempintro
    isplitl [HS]; · iexists _; iexact HS
    iexact Hsr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with them at
    the contents after it.  Its arrays are split out of the unscoped buffers and put back at their final
    contents; the generator register goes into the invariant and comes back; the accumulator is among the
    scoped buffers the region is handed and hands back; nothing is owed; the kernel has no semaphore of
    its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none,
      show (pdats m ρ 3 c).Φ (Fin.last _) = PhiS3 (V3 m ρ) c (Fin.last cfg3.N).val (Nat.le_of_lt_succ (Fin.last cfg3.N).isLt) from rfl,
      PhiS3_pos (V3 m ρ) c _ _ (by rw [Fin.val_last]; have : cfg3.N = 4 := N_3; omega)]
    show _ ⊢ iprop((∃ r, prngReg c r) ∗ BI.emp ∗ Pipeline.scopedRest (Ix := Unit) (Name := ℕ) (U := UR sig nD τ) (Lvl := ℕ) (Val := Elt F) spec3 c)
    rw [scopedRest3_split]
    simp only [scM3_0, owns_whole]
    iintro ⟨⟨HS, Hsr⟩, Hp⟩
    isplitl [Hp]; · iexact Hp
    isplitr; · iempintro
    isplitl [HS]; · iexists _; iexact HS
    iexact Hsr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at the contents before it, left with them at
    the contents after it.  Its arrays are split out of the unscoped buffers and put back at their final
    contents; the generator register goes into the invariant and comes back; the accumulator is among the
    scoped buffers the region is handed and hands back; nothing is owed; the kernel has no semaphore of
    its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none,
      show (pdats m ρ 4 c).Φ (Fin.last _) = PhiS4 (V4 m ρ) c (Fin.last cfg4.N).val (Nat.le_of_lt_succ (Fin.last cfg4.N).isLt) from rfl,
      PhiS4_pos (V4 m ρ) c _ _ (by rw [Fin.val_last]; have : cfg4.N = 4 := N_4; omega)]
    show _ ⊢ iprop((∃ r, prngReg c r) ∗ BI.emp ∗ Pipeline.scopedRest (Ix := Unit) (Name := ℕ) (U := UR sig nD τ) (Lvl := ℕ) (Val := Elt F) spec4 c)
    rw [scopedRest4_split]
    simp only [scM4_0, owns_whole]
    iintro ⟨⟨HS, Hsr⟩, Hp⟩
    isplitl [Hp]; · iexact Hp
    isplitr; · iempintro
    isplitl [HS]; · iexists _; iexact HS
    iexact Hsr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V4 m ρ c) (V5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing
    faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Hand

end
-- ==== Proof.KI.R0Runs.lean ====
/-
  Kernel 0 of the program, one grid point at a time.  The grid is 2 x 2: point t has row-block t / 2 and
  contraction step t % 2.  At step 0 the body zeroes its accumulator and adds the first block product into
  it, storing nothing into the output block; at step 1 it adds the second block product and stores the
  output block.  Here: the two branch conditions in closed form over the grid, where the output window is
  idle, the memory references a point is called with, and the body's run in each of the two cases, ending
  with the accumulator (and at step 1 the output block) holding the stores the run made.
-/
import proofs.«144174_j32117765439601_2_alg».proof.Proof.Gen.KernelIdeal.Launch
import proofs.«144174_j32117765439601_2_alg».proof.Proof.Gen.KernelIdeal.Skeleton
import proofs.«144174_j32117765439601_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: a parameter
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, for any proof data over these arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions -/

/-- The first conditional's test: the contraction step is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- The second conditional's test: the contraction step is the last one. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At step 0 the output window is idle and is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At step 1 it is live. -/
theorem liveAt0_2_B : ∀ t : Fin cfg0.N, ¬cond0_0 (grid0.coords t) → cond0_1 (grid0.coords t) → cfg0.idle 2 (grid0.coords t) = false := by decide +kernel

/-! ## The memory references at a point -/

abbrev VO0_2 : View sig .tc .vmem S1024x2048 .f32 := (Memref.whole cc0_stg2_0 : Memref sig .tc .vmem S1024x2048 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
/-- The accumulator: a whole buffer of the kernel's own, kept from one point to the next. -/
abbrev scM0_0 : Memref sig .tc .vmem S1024x2048 .f32 := Memref.whole cc0_scratch0
abbrev VS0_0 : View sig .tc .vmem S1024x2048 .f32 := scM0_0.view

/-! ## The body's run, case by case -/

set_option maxHeartbeats 4000000 in
/-- Step 0: from the two input blocks, the output buffer at anything (handed back untouched) and the
    accumulator at anything, the body runs and leaves the accumulator with its stores written. -/
noncomputable def kernelRun0_A (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond0_0 i) (hc1 : ¬cond0_1 i)
    (x0 : Vec F S1024x1024 .f32) (x1 : Vec F S1024x2048 .f32) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kernel i arg2 harg2 arg3 harg3 arg4 harg4 arg5 harg5) K } := by
  refine ⟨[], ?_, fun xi2 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 1: from the two input blocks, the output buffer at anything and the accumulator at what the step
    before left, the body runs and leaves the accumulator and the output buffer with its stores written. -/
noncomputable def kernelRun0_B (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kernel i arg2 harg2 arg3 harg3 arg4 harg4 arg5 harg5) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R0Frame.lean ====
/-
  Kernel 0: what its accumulator and its output block hold after every grid point, the region's
  invariant (the accumulator at what the point before left), the pipeline's proof data and the body
  obligation at every point.
-/
import proofs.«144174_j32117765439601_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Step 0 stores nothing into the output block: a placeholder nothing consults. -/
def out0_A_2 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond0_0 i) (hc1 : ¬cond0_1 i)
    (x0 : Vec F S1024x1024 .f32) (x1 : Vec F S1024x2048 .f32) : Vec F S1024x2048 .f32 :=
  VO0_2.read (Elt F) (VO0_2.writes (Elt F) VO0_2.junk (kernelRun0_A c i arg2 harg2 arg3 harg3 arg4 harg4 arg5 harg5 hc0 hc1 x0 x1).1)

/-- Step 0's stores into the accumulator cover it. -/
theorem scover0_A_0 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond0_0 i) (hc1 : ¬cond0_1 i)
    (x0 : Vec F S1024x1024 .f32) (x1 : Vec F S1024x2048 .f32) (y : S1024x2048.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x2048.size (by sl_kernel_rfl) y

/-- What step 0 leaves in the accumulator. -/
def sout0_A_0 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond0_0 i) (hc1 : ¬cond0_1 i)
    (x0 : Vec F S1024x1024 .f32) (x1 : Vec F S1024x2048 .f32) : Vec F S1024x2048 .f32 :=
  VS0_0.read (Elt F) (VS0_0.writes (Elt F) VS0_0.junk (kernelRun0_A c i arg2 harg2 arg3 harg3 arg4 harg4 arg5 harg5 hc0 hc1 x0 x1).2.1)

/-- Step 1's store into the output block covers it. -/
theorem cover0_B_2 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) (y : S1024x2048.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x2048.size (by sl_kernel_rfl) y

/-- What step 1 leaves in the output block. -/
def out0_B_2 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) : Vec F S1024x2048 .f32 :=
  VO0_2.read (Elt F) (VO0_2.writes (Elt F) VO0_2.junk (kernelRun0_B c i arg2 harg2 arg3 harg3 arg4 harg4 arg5 harg5 hc0 hc1 x0 x1 xs0).1)

/-- Step 1's store into the accumulator covers it. -/
theorem scover0_B_0 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) (y : S1024x2048.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x2048.size (by sl_kernel_rfl) y

/-- What step 1 leaves in the accumulator. -/
def sout0_B_0 (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) : Vec F S1024x2048 .f32 :=
  VS0_0.read (Elt F) (VS0_0.writes (Elt F) VS0_0.junk (kernelRun0_B c i arg2 harg2 arg3 harg3 arg4 harg4 arg5 harg5 hc0 hc1 x0 x1 xs0).2.1)

/-! ## The accumulation, point by point -/

/-- After the body at position n: the output block's buffer and the accumulator.  An even position is step
    0 of its row-block (from the two input blocks alone), an odd one step 1 (over what position n - 1 left
    in the accumulator). -/
def outsAt0 (c : Dev nD) : (n : ℕ) → n < cfg0.N → Vec F S1024x2048 .f32 × Vec F S1024x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => by have := (hcond0_1 ⟨0, hn⟩).mp h; (try dsimp only at this); omega) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => by have := (hcond0_1 ⟨0, hn⟩).mp h; (try dsimp only at this); omega) (iblk0 V c 0 ⟨0, hn⟩) (iblk0 V c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => by have := (hcond0_1 ⟨n + 1, hn⟩).mp h; (try dsimp only at this); omega) (iblk0 V c 0 ⟨n + 1, hn⟩) (iblk0 V c 1 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => by have := (hcond0_1 ⟨n + 1, hn⟩).mp h; (try dsimp only at this); omega) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (iblk0 V c 1 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (iblk0 V c 1 ⟨n + 1, hn⟩) (outsAt0 c n (Nat.lt_of_succ_lt hn)).2)

/-- At a point of step 0. -/
theorem outsAt0_A (c : Dev nD) (t : Fin cfg0.N) (h0 : t.val % 2 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => by have := (hcond0_1 t).mp h; (try dsimp only at this); omega) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => by have := (hcond0_1 t).mp h; (try dsimp only at this); omega) (iblk0 V c 0 t) (iblk0 V c 1 t)) := by
  obtain ⟨n, hn⟩ := t
  cases n with
  | zero => exact rfl
  | succ n => exact (dif_pos h0).trans rfl

/-- At a point of step 1: over what the point before left. -/
theorem outsAt0_B (c : Dev nD) (t : Fin cfg0.N) (h0 : ¬t.val % 2 = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr (by (try dsimp only); omega)) (iblk0 V c 0 t) (iblk0 V c 1 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr (by (try dsimp only); omega)) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- The scoped buffers no window stages, with the accumulator taken out as a memory reference owned at some
    contents, beside the generator register: what the region is entered with. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-- Before position n: at the first point what the region is entered with; afterwards the accumulator at
    what the point before left, the other scoped buffers and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The region's arrays as it finds them; after the body at a point each input's buffer at its block and the
    output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point.  The parity of the point says which case it is in; the inputs' buffers hold their
    blocks; the invariant hands the body the accumulator (at anything at the first point, else at what the
    point before left) and takes it back at this point's contents, since the case's stores cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2_A t hc0 hc1) (noFlush0_2_A t hc0 hc1)]
    rw [outsAt0_A V c t h0]
    unfold sout0_A_0; (try dsimp only)
    by_cases hz : t.val = 0
    · rw [PhiS0_castSucc V c t, PhiS0_zero V c _ _ hz, PhiA0_eq]
      iintro ⟨⟨⟨HS0, Hsr⟩, Hg⟩, Ho, ⟨%d0, H0⟩, ⟨%d1, H1⟩, ⟨%d2, H2⟩⟩
      iapply ((kernelRun0_A c (grid0.coords t) _ _ _ _ _ _ _ _ hc0 hc1 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover0_A_0 c _ _ _ _ _ _ _ _ _ _ _ _ _)
          iexact Hsr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hsr⟩, Hg⟩, Ho, ⟨%d0, H0⟩, ⟨%d1, H1⟩, ⟨%d2, H2⟩⟩
      iapply ((kernelRun0_A c (grid0.coords t) _ _ _ _ _ _ _ _ hc0 hc1 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover0_A_0 c _ _ _ _ _ _ _ _ _ _ _ _ _)
          iexact Hsr
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hc1 : cond0_1 (grid0.coords t) := (hcond0_1 t).mpr (by omega)
    rw [show (dat0 V c).leavesExact 2 t = owns (c : Thread nD τ) (ms0_2 t) fullShare ((dat0 V c).after 2 t) from by
      unfold Dat.leavesExact; rw [liveAt0_2_B t hc0 hc1], after0_2]
    rw [outsAt0_B V c t h0]
    unfold out0_B_2 sout0_B_0; (try dsimp only)
    have hz : t.val ≠ 0 := by omega
    rw [PhiS0_castSucc V c t, PhiS0_pos V c _ _ hz]
    iintro ⟨⟨⟨HS0, Hsr⟩, Hg⟩, Ho, ⟨%d0, H0⟩, ⟨%d1, H1⟩, ⟨%d2, H2⟩⟩
    iapply ((kernelRun0_B c (grid0.coords t) _ _ _ _ _ _ _ _ hc0 hc1 (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover0_B_0 c _ _ _ _ _ _ _ _ _ _ _ _ _ _)
        iexact Hsr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  Kernel 1 of the program, one grid point at a time.  The grid is 2 x 2: point t has row-block t / 2 and
  contraction step t % 2.  At step 0 the body zeroes its accumulator and adds the first block product into
  it, storing nothing into the output block; at step 1 it adds the second block product and stores the
  output block.  Here: the two branch conditions in closed form over the grid, where the output window is
  idle, the memory references a point is called with, and the body's run in each of the two cases, ending
  with the accumulator (and at step 1 the output block) holding the stores the run made.
-/
import proofs.«144174_j32117765439601_2_alg».proof.Proof.Gen.KernelIdeal.Launch
import proofs.«144174_j32117765439601_2_alg».proof.Proof.Gen.KernelIdeal.Skeleton
import proofs.«144174_j32117765439601_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: a parameter
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, for any proof data over these arrays
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two branch conditions -/

/-- The first conditional's test: the contraction step is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The second conditional's test: the contraction step is the last one. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- At step 0 the output window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At step 1 it is live. -/
theorem liveAt1_2_B : ∀ t : Fin cfg1.N, ¬cond1_0 (grid1.coords t) → cond1_1 (grid1.coords t) → cfg1.idle 2 (grid1.coords t) = false := by decide +kernel

/-! ## The memory references at a point -/

abbrev VO1_2 : View sig .tc .vmem S1024x2048 .f32 := (Memref.whole cc1_stg2_0 : Memref sig .tc .vmem S1024x2048 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .f32 := win1_2.stage (cfg1.slots t 2)
abbrev hs1_2 (t : Fin cfg1.N) : (ms1_2 t).IsWhole := hstage1_2 ((cfg1.slots t 2).cast nbuf1_2)
/-- The accumulator: a whole buffer of the kernel's own, kept from one point to the next. -/
abbrev scM1_0 : Memref sig .tc .vmem S1024x2048 .f32 := Memref.whole cc1_scratch0
abbrev VS1_0 : View sig .tc .vmem S1024x2048 .f32 := scM1_0.view

/-! ## The body's run, case by case -/

set_option maxHeartbeats 4000000 in
/-- Step 0: from the two input blocks, the output buffer at anything (handed back untouched) and the
    accumulator at anything, the body runs and leaves the accumulator with its stores written. -/
noncomputable def kernelRun1_A (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond1_0 i) (hc1 : ¬cond1_1 i)
    (x0 : Vec F S1024x1024 .f32) (x1 : Vec F S1024x2048 .f32) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__kernel i arg2 harg2 arg3 harg3 arg4 harg4 arg5 harg5) K } := by
  refine ⟨[], ?_, fun xi2 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 1: from the two input blocks, the output buffer at anything and the accumulator at what the step
    before left, the body runs and leaves the accumulator and the output buffer with its stores written. -/
noncomputable def kernelRun1_B (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__kernel i arg2 harg2 arg3 harg3 arg4 harg4 arg5 harg5) K } := by
  refine ⟨?_, ?_, fun E K => ?run⟩
  case run =>
    simp only [cc1__kernel_eq_skeleton]; unfold cc1__kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R1Frame.lean ====
/-
  Kernel 1: what its accumulator and its output block hold after every grid point, the region's
  invariant (the accumulator at what the point before left), the pipeline's proof data and the body
  obligation at every point.
-/
import proofs.«144174_j32117765439601_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Step 0 stores nothing into the output block: a placeholder nothing consults. -/
def out1_A_2 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond1_0 i) (hc1 : ¬cond1_1 i)
    (x0 : Vec F S1024x1024 .f32) (x1 : Vec F S1024x2048 .f32) : Vec F S1024x2048 .f32 :=
  VO1_2.read (Elt F) (VO1_2.writes (Elt F) VO1_2.junk (kernelRun1_A c i arg2 harg2 arg3 harg3 arg4 harg4 arg5 harg5 hc0 hc1 x0 x1).1)

/-- Step 0's stores into the accumulator cover it. -/
theorem scover1_A_0 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond1_0 i) (hc1 : ¬cond1_1 i)
    (x0 : Vec F S1024x1024 .f32) (x1 : Vec F S1024x2048 .f32) (y : S1024x2048.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x2048.size (by sl_kernel_rfl) y

/-- What step 0 leaves in the accumulator. -/
def sout1_A_0 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond1_0 i) (hc1 : ¬cond1_1 i)
    (x0 : Vec F S1024x1024 .f32) (x1 : Vec F S1024x2048 .f32) : Vec F S1024x2048 .f32 :=
  VS1_0.read (Elt F) (VS1_0.writes (Elt F) VS1_0.junk (kernelRun1_A c i arg2 harg2 arg3 harg3 arg4 harg4 arg5 harg5 hc0 hc1 x0 x1).2.1)

/-- Step 1's store into the output block covers it. -/
theorem cover1_B_2 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) (y : S1024x2048.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x2048.size (by sl_kernel_rfl) y

/-- What step 1 leaves in the output block. -/
def out1_B_2 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) : Vec F S1024x2048 .f32 :=
  VO1_2.read (Elt F) (VO1_2.writes (Elt F) VO1_2.junk (kernelRun1_B c i arg2 harg2 arg3 harg3 arg4 harg4 arg5 harg5 hc0 hc1 x0 x1 xs0).1)

/-- Step 1's store into the accumulator covers it. -/
theorem scover1_B_0 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) (y : S1024x2048.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x2048.size (by sl_kernel_rfl) y

/-- What step 1 leaves in the accumulator. -/
def sout1_B_0 (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) : Vec F S1024x2048 .f32 :=
  VS1_0.read (Elt F) (VS1_0.writes (Elt F) VS1_0.junk (kernelRun1_B c i arg2 harg2 arg3 harg3 arg4 harg4 arg5 harg5 hc0 hc1 x0 x1 xs0).2.1)

/-! ## The accumulation, point by point -/

/-- After the body at position n: the output block's buffer and the accumulator.  An even position is step
    0 of its row-block (from the two input blocks alone), an odd one step 1 (over what position n - 1 left
    in the accumulator). -/
def outsAt1 (c : Dev nD) : (n : ℕ) → n < cfg1.N → Vec F S1024x2048 .f32 × Vec F S1024x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => by have := (hcond1_1 ⟨0, hn⟩).mp h; (try dsimp only at this); omega) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => by have := (hcond1_1 ⟨0, hn⟩).mp h; (try dsimp only at this); omega) (iblk1 V c 0 ⟨0, hn⟩) (iblk1 V c 1 ⟨0, hn⟩))
  | n + 1, hn =>
    if h0 : (n + 1) % 2 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => by have := (hcond1_1 ⟨n + 1, hn⟩).mp h; (try dsimp only at this); omega) (iblk1 V c 0 ⟨n + 1, hn⟩) (iblk1 V c 1 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => by have := (hcond1_1 ⟨n + 1, hn⟩).mp h; (try dsimp only at this); omega) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (outsAt1 c n (Nat.lt_of_succ_lt hn)).2)

/-- At a point of step 0. -/
theorem outsAt1_A (c : Dev nD) (t : Fin cfg1.N) (h0 : t.val % 2 = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => by have := (hcond1_1 t).mp h; (try dsimp only at this); omega) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (fun h => by have := (hcond1_1 t).mp h; (try dsimp only at this); omega) (iblk1 V c 0 t) (iblk1 V c 1 t)) := by
  obtain ⟨n, hn⟩ := t
  cases n with
  | zero => exact rfl
  | succ n => exact (dif_pos h0).trans rfl

/-- At a point of step 1: over what the point before left. -/
theorem outsAt1_B (c : Dev nD) (t : Fin cfg1.N) (h0 : ¬t.val % 2 = 0) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr (by (try dsimp only); omega)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr (by (try dsimp only); omega)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- The scoped buffers no window stages, with the accumulator taken out as a memory reference owned at some
    contents, beside the generator register: what the region is entered with. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-- Before position n: at the first point what the region is entered with; afterwards the accumulator at
    what the point before left, the other scoped buffers and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's arrays as it finds them; after the body at a point each input's buffer at its block and the
    output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The parity of the point says which case it is in; the inputs' buffers hold their
    blocks; the invariant hands the body the accumulator (at anything at the first point, else at what the
    point before left) and takes it back at this point's contents, since the case's stores cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2_A t hc0 hc1) (noFlush1_2_A t hc0 hc1)]
    rw [outsAt1_A V c t h0]
    unfold sout1_A_0; (try dsimp only)
    by_cases hz : t.val = 0
    · rw [PhiS1_castSucc V c t, PhiS1_zero V c _ _ hz, PhiA1_eq]
      iintro ⟨⟨⟨HS0, Hsr⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover1_A_0 c _ _ _ _ _ _ _ _ _ _ _ _ _)
          iexact Hsr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hsr⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover1_A_0 c _ _ _ _ _ _ _ _ _ _ _ _ _)
          iexact Hsr
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hc1 : cond1_1 (grid1.coords t) := (hcond1_1 t).mpr (by omega)
    rw [show (dat1 V c).leavesExact 2 t = owns (c : Thread nD τ) (ms1_2 t) fullShare ((dat1 V c).after 2 t) from by
      unfold Dat.leavesExact; rw [liveAt1_2_B t hc0 hc1], after1_2]
    rw [outsAt1_B V c t h0]
    unfold out1_B_2 sout1_B_0; (try dsimp only)
    have hz : t.val ≠ 0 := by omega
    rw [PhiS1_castSucc V c t, PhiS1_pos V c _ _ hz]
    iintro ⟨⟨⟨HS0, Hsr⟩, Hg⟩, Ho, ⟨%d0, H0⟩, ⟨%d1, H1⟩, ⟨%d2, H2⟩⟩
    iapply ((kernelRun1_B c (grid1.coords t) _ _ _ _ _ _ _ _ hc0 hc1 (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover1_B_0 c _ _ _ _ _ _ _ _ _ _ _ _ _ _)
        iexact Hsr
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Runs.lean ====
/-
  Kernel 2 of the program, one grid point at a time.  The grid is 2 x 2: point t has row-block t / 2 and
  contraction step t % 2.  At step 0 the body zeroes its accumulator and adds the first block product into
  it, storing nothing into the output block; at step 1 it adds the second block product and stores the
  output block.  Here: the two branch conditions in closed form over the grid, where the output window is
  idle, the memory references a point is called with, and the body's run in each of the two cases, ending
  with the accumulator (and at step 1 the output block) holding the stores the run made.
-/
import proofs.«144174_j32117765439601_2_alg».proof.Proof.Gen.KernelIdeal.Launch
import proofs.«144174_j32117765439601_2_alg».proof.Proof.Gen.KernelIdeal.Skeleton
import proofs.«144174_j32117765439601_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: a parameter
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, for any proof data over these arrays
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-! ## The two branch conditions -/

/-- The first conditional's test: the contraction step is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- The second conditional's test: the contraction step is the last one. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At step 0 the output window is idle and is not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- At step 1 it is live. -/
theorem liveAt2_2_B : ∀ t : Fin cfg2.N, ¬cond2_0 (grid2.coords t) → cond2_1 (grid2.coords t) → cfg2.idle 2 (grid2.coords t) = false := by decide +kernel

/-! ## The memory references at a point -/

abbrev VO2_2 : View sig .tc .vmem S1024x2048 .bf16 := (Memref.whole cc2_stg2_0 : Memref sig .tc .vmem S1024x2048 .bf16).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x2048 .bf16 := win2_2.stage (cfg2.slots t 2)
abbrev hs2_2 (t : Fin cfg2.N) : (ms2_2 t).IsWhole := hstage2_2 ((cfg2.slots t 2).cast nbuf2_2)
/-- The accumulator: a whole buffer of the kernel's own, kept from one point to the next. -/
abbrev scM2_0 : Memref sig .tc .vmem S1024x2048 .f32 := Memref.whole cc2_scratch0
abbrev VS2_0 : View sig .tc .vmem S1024x2048 .f32 := scM2_0.view

/-! ## The body's run, case by case -/

set_option maxHeartbeats 4000000 in
/-- Step 0: from the two input blocks, the output buffer at anything (handed back untouched) and the
    accumulator at anything, the body runs and leaves the accumulator with its stores written. -/
noncomputable def kernelRun2_A (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond2_0 i) (hc1 : ¬cond2_1 i)
    (x0 : Vec F S1024x1024 .f32) (x1 : Vec F S1024x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__kernel i arg2 harg2 arg3 harg3 arg4 harg4 arg5 harg5) K } := by
  refine ⟨[], ?_, fun xi2 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 1: from the two input blocks, the output buffer at anything and the accumulator at what the step
    before left, the body runs and leaves the accumulator and the output buffer with its stores written. -/
noncomputable def kernelRun2_B (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) :
    Σ' (L2 : List (View.Piece (Elt F) S1024x2048 .bf16)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__kernel i arg2 harg2 arg3 harg3 arg4 harg4 arg5 harg5) K } := by
  refine ⟨?_, ?_, fun E K => ?run⟩
  case run =>
    simp only [cc2__kernel_eq_skeleton]; unfold cc2__kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R2Frame.lean ====
/-
  Kernel 2: what its accumulator and its output block hold after every grid point, the region's
  invariant (the accumulator at what the point before left), the pipeline's proof data and the body
  obligation at every point.
-/
import proofs.«144174_j32117765439601_2_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Step 0 stores nothing into the output block: a placeholder nothing consults. -/
def out2_A_2 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond2_0 i) (hc1 : ¬cond2_1 i)
    (x0 : Vec F S1024x1024 .f32) (x1 : Vec F S1024x2048 .f32) : Vec F S1024x2048 .bf16 :=
  VO2_2.read (Elt F) (VO2_2.writes (Elt F) VO2_2.junk (kernelRun2_A c i arg2 harg2 arg3 harg3 arg4 harg4 arg5 harg5 hc0 hc1 x0 x1).1)

/-- Step 0's stores into the accumulator cover it. -/
theorem scover2_A_0 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond2_0 i) (hc1 : ¬cond2_1 i)
    (x0 : Vec F S1024x1024 .f32) (x1 : Vec F S1024x2048 .f32) (y : S1024x2048.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x2048.size (by sl_kernel_rfl) y

/-- What step 0 leaves in the accumulator. -/
def sout2_A_0 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond2_0 i) (hc1 : ¬cond2_1 i)
    (x0 : Vec F S1024x1024 .f32) (x1 : Vec F S1024x2048 .f32) : Vec F S1024x2048 .f32 :=
  VS2_0.read (Elt F) (VS2_0.writes (Elt F) VS2_0.junk (kernelRun2_A c i arg2 harg2 arg3 harg3 arg4 harg4 arg5 harg5 hc0 hc1 x0 x1).2.1)

/-- Step 1's store into the output block covers it. -/
theorem cover2_B_2 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) (y : S1024x2048.Idx) :
    ∃ pc ∈ (kernelRun2_B c i arg2 harg2 arg3 harg3 arg4 harg4 arg5 harg5 hc0 hc1 x0 x1 xs0).1, y ∈ pc.1.set :=
  View.cover_of_tiledL (kernelRun2_B c i arg2 harg2 arg3 harg3 arg4 harg4 arg5 harg5 hc0 hc1 x0 x1 xs0).1 S1024x2048.size (by sl_kernel_rfl) y

/-- What step 1 leaves in the output block. -/
def out2_B_2 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) : Vec F S1024x2048 .bf16 :=
  VO2_2.read (Elt F) (VO2_2.writes (Elt F) VO2_2.junk (kernelRun2_B c i arg2 harg2 arg3 harg3 arg4 harg4 arg5 harg5 hc0 hc1 x0 x1 xs0).1)

/-- Step 1's store into the accumulator covers it. -/
theorem scover2_B_0 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) (y : S1024x2048.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x2048.size (by sl_kernel_rfl) y

/-- What step 1 leaves in the accumulator. -/
def sout2_B_0 (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) : Vec F S1024x2048 .f32 :=
  VS2_0.read (Elt F) (VS2_0.writes (Elt F) VS2_0.junk (kernelRun2_B c i arg2 harg2 arg3 harg3 arg4 harg4 arg5 harg5 hc0 hc1 x0 x1 xs0).2.1)

/-! ## The accumulation, point by point -/

/-- After the body at position n: the output block's buffer and the accumulator.  An even position is step
    0 of its row-block (from the two input blocks alone), an odd one step 1 (over what position n - 1 left
    in the accumulator). -/
def outsAt2 (c : Dev nD) : (n : ℕ) → n < cfg2.N → Vec F S1024x2048 .bf16 × Vec F S1024x2048 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => by have := (hcond2_1 ⟨0, hn⟩).mp h; (try dsimp only at this); omega) (iblk2 V c 0 ⟨0, hn⟩) (iblk2 V c 1 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => by have := (hcond2_1 ⟨0, hn⟩).mp h; (try dsimp only at this); omega) (iblk2 V c 0 ⟨0, hn⟩) (iblk2 V c 1 ⟨0, hn⟩))
  | n + 1, hn =>
    if h0 : (n + 1) % 2 = 0 then
      (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => by have := (hcond2_1 ⟨n + 1, hn⟩).mp h; (try dsimp only at this); omega) (iblk2 V c 0 ⟨n + 1, hn⟩) (iblk2 V c 1 ⟨n + 1, hn⟩),
        sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => by have := (hcond2_1 ⟨n + 1, hn⟩).mp h; (try dsimp only at this); omega) (iblk2 V c 0 ⟨n + 1, hn⟩) (iblk2 V c 1 ⟨n + 1, hn⟩))
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr (by (try dsimp only); omega)) (iblk2 V c 0 ⟨n + 1, hn⟩) (iblk2 V c 1 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr (by (try dsimp only); omega)) (iblk2 V c 0 ⟨n + 1, hn⟩) (iblk2 V c 1 ⟨n + 1, hn⟩) (outsAt2 c n (Nat.lt_of_succ_lt hn)).2)

/-- At a point of step 0. -/
theorem outsAt2_A (c : Dev nD) (t : Fin cfg2.N) (h0 : t.val % 2 = 0) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => by have := (hcond2_1 t).mp h; (try dsimp only at this); omega) (iblk2 V c 0 t) (iblk2 V c 1 t),
      sout2_A_0 c (grid2.coords t) (ms2_0 t) (hs2_0 t) (ms2_1 t) (hs2_1 t) (ms2_2 t) (hs2_2 t) scM2_0 (Memref.isWhole_whole _) ((hcond2_0 t).mpr h0) (fun h => by have := (hcond2_1 t).mp h; (try dsimp only at this); omega) (iblk2 V c 0 t) (iblk2 V c 1 t)) := by
  obtain ⟨n, hn⟩ := t
  cases n with
  | zero => exact rfl
  | succ n => exact (dif_pos h0).trans rfl

/-- At a point of step 1: over what the point before left. -/
theorem outsAt2_B (c : Dev nD) (t : Fin cfg2.N) (h0 : ¬t.val % 2 = 0) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr (by (try dsimp only); omega)) (iblk2 V c 0 t) (iblk2 V c 1 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr (by (try dsimp only); omega)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- The scoped buffers no window stages, with the accumulator taken out as a memory reference owned at some
    contents, beside the generator register: what the region is entered with. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-- Before position n: at the first point what the region is entered with; afterwards the accumulator at
    what the point before left, the other scoped buffers and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The region's arrays as it finds them; after the body at a point each input's buffer at its block and the
    output's at the accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point.  The parity of the point says which case it is in; the inputs' buffers hold their
    blocks; the invariant hands the body the accumulator (at anything at the first point, else at what the
    point before left) and takes it back at this point's contents, since the case's stores cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 4 := lt_of_lt_of_eq t.isLt (show cfg2.N = 4 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2_A t hc0 hc1) (noFlush2_2_A t hc0 hc1)]
    rw [outsAt2_A V c t h0]
    unfold sout2_A_0; (try dsimp only)
    by_cases hz : t.val = 0
    · rw [PhiS2_castSucc V c t, PhiS2_zero V c _ _ hz, PhiA2_eq]
      iintro ⟨⟨⟨HS0, Hsr⟩, Hg⟩, Ho, ⟨%d0, H0⟩, ⟨%d1, H1⟩, ⟨%d2, H2⟩⟩
      iapply ((kernelRun2_A c (grid2.coords t) _ _ _ _ _ _ _ _ hc0 hc1 (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover2_A_0 c _ _ _ _ _ _ _ _ _ _ _ _ _)
          iexact Hsr
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, Hsr⟩, Hg⟩, Ho, ⟨%d0, H0⟩, ⟨%d1, H1⟩, ⟨%d2, H2⟩⟩
      iapply ((kernelRun2_A c (grid2.coords t) _ _ _ _ _ _ _ _ hc0 hc1 (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover2_A_0 c _ _ _ _ _ _ _ _ _ _ _ _ _)
          iexact Hsr
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hc1 : cond2_1 (grid2.coords t) := (hcond2_1 t).mpr (by omega)
    rw [show (dat2 V c).leavesExact 2 t = owns (c : Thread nD τ) (ms2_2 t) fullShare ((dat2 V c).after 2 t) from by
      unfold Dat.leavesExact; rw [liveAt2_2_B t hc0 hc1], after2_2]
    rw [outsAt2_B V c t h0]
    unfold out2_B_2 sout2_B_0; (try dsimp only)
    have hz : t.val ≠ 0 := by omega
    rw [PhiS2_castSucc V c t, PhiS2_pos V c _ _ hz]
    iintro ⟨⟨⟨HS0, Hsr⟩, Hg⟩, Ho, ⟨%d0, H0⟩, ⟨%d1, H1⟩, ⟨%d2, H2⟩⟩
    iapply ((kernelRun2_B c (grid2.coords t) _ _ _ _ _ _ _ _ hc0 hc1 (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover2_B_0 c _ _ _ _ _ _ _ _ _ _ _ _ _ _)
        iexact Hsr
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3Runs.lean ====
/-
  Kernel 3 of the program, one grid point at a time.  The grid is 2 x 2: point t has row-block t / 2 and
  contraction step t % 2.  At step 0 the body zeroes its accumulator and adds the first block product into
  it, storing nothing into the output block; at step 1 it adds the second block product and stores the
  output block.  Here: the two branch conditions in closed form over the grid, where the output window is
  idle, the memory references a point is called with, and the body's run in each of the two cases, ending
  with the accumulator (and at step 1 the output block) holding the stores the run made.
-/
import proofs.«144174_j32117765439601_2_alg».proof.Proof.Gen.KernelIdeal.Launch
import proofs.«144174_j32117765439601_2_alg».proof.Proof.Gen.KernelIdeal.Skeleton
import proofs.«144174_j32117765439601_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: a parameter
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, for any proof data over these arrays
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
end

/-! ## The two branch conditions -/

/-- The first conditional's test: the contraction step is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
/-- The second conditional's test: the contraction step is the last one. -/
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- At step 0 the output window is idle and is not written back. -/
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
/-- At step 1 it is live. -/
theorem liveAt3_2_B : ∀ t : Fin cfg3.N, ¬cond3_0 (grid3.coords t) → cond3_1 (grid3.coords t) → cfg3.idle 2 (grid3.coords t) = false := by decide +kernel

/-! ## The memory references at a point -/

abbrev VO3_2 : View sig .tc .vmem S1024x2048 .bf16 := (Memref.whole cc3_stg2_0 : Memref sig .tc .vmem S1024x2048 .bf16).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x2048 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x2048 .bf16 := win3_2.stage (cfg3.slots t 2)
abbrev hs3_2 (t : Fin cfg3.N) : (ms3_2 t).IsWhole := hstage3_2 ((cfg3.slots t 2).cast nbuf3_2)
/-- The accumulator: a whole buffer of the kernel's own, kept from one point to the next. -/
abbrev scM3_0 : Memref sig .tc .vmem S1024x2048 .f32 := Memref.whole cc3_scratch0
abbrev VS3_0 : View sig .tc .vmem S1024x2048 .f32 := scM3_0.view

/-! ## The body's run, case by case -/

set_option maxHeartbeats 4000000 in
/-- Step 0: from the two input blocks, the output buffer at anything (handed back untouched) and the
    accumulator at anything, the body runs and leaves the accumulator with its stores written. -/
noncomputable def kernelRun3_A (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond3_0 i) (hc1 : ¬cond3_1 i)
    (x0 : Vec F S1024x1024 .f32) (x1 : Vec F S1024x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__qk_softmax_kernel i arg2 harg2 arg3 harg3 arg4 harg4 arg5 harg5) K } := by
  refine ⟨[], ?_, fun xi2 E K => ?run⟩
  case run =>
    simp only [cc3__qk_softmax_kernel_eq_skeleton]; unfold cc3__qk_softmax_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 1: from the two input blocks, the output buffer at anything and the accumulator at what the step
    before left, the body runs and leaves the accumulator and the output buffer with its stores written. -/
noncomputable def kernelRun3_B (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) :
    Σ' (L2 : List (View.Piece (Elt F) S1024x2048 .bf16)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__qk_softmax_kernel i arg2 harg2 arg3 harg3 arg4 harg4 arg5 harg5) K } := by
  refine ⟨?_, ?_, fun E K => ?run⟩
  case run =>
    simp only [cc3__qk_softmax_kernel_eq_skeleton]; unfold cc3__qk_softmax_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R3Frame.lean ====
/-
  Kernel 3: what its accumulator and its output block hold after every grid point, the region's
  invariant (the accumulator at what the point before left), the pipeline's proof data and the body
  obligation at every point.
-/
import proofs.«144174_j32117765439601_2_alg».proof.Proof.KI.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Step 0 stores nothing into the output block: a placeholder nothing consults. -/
def out3_A_2 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond3_0 i) (hc1 : ¬cond3_1 i)
    (x0 : Vec F S1024x1024 .f32) (x1 : Vec F S1024x2048 .f32) : Vec F S1024x2048 .bf16 :=
  VO3_2.read (Elt F) (VO3_2.writes (Elt F) VO3_2.junk (kernelRun3_A c i arg2 harg2 arg3 harg3 arg4 harg4 arg5 harg5 hc0 hc1 x0 x1).1)

/-- Step 0's stores into the accumulator cover it. -/
theorem scover3_A_0 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond3_0 i) (hc1 : ¬cond3_1 i)
    (x0 : Vec F S1024x1024 .f32) (x1 : Vec F S1024x2048 .f32) (y : S1024x2048.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1024x2048.size (by sl_kernel_rfl) y

/-- What step 0 leaves in the accumulator. -/
def sout3_A_0 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond3_0 i) (hc1 : ¬cond3_1 i)
    (x0 : Vec F S1024x1024 .f32) (x1 : Vec F S1024x2048 .f32) : Vec F S1024x2048 .f32 :=
  VS3_0.read (Elt F) (VS3_0.writes (Elt F) VS3_0.junk (kernelRun3_A c i arg2 harg2 arg3 harg3 arg4 harg4 arg5 harg5 hc0 hc1 x0 x1).2.1)

/-- Step 1's store into the output block covers it. -/
theorem cover3_B_2 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) (y : S1024x2048.Idx) :
    ∃ pc ∈ (kernelRun3_B c i arg2 harg2 arg3 harg3 arg4 harg4 arg5 harg5 hc0 hc1 x0 x1 xs0).1, y ∈ pc.1.set :=
  View.cover_of_tiledL (kernelRun3_B c i arg2 harg2 arg3 harg3 arg4 harg4 arg5 harg5 hc0 hc1 x0 x1 xs0).1 S1024x2048.size (by sl_kernel_rfl) y

/-- What step 1 leaves in the output block. -/
def out3_B_2 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) : Vec F S1024x2048 .bf16 :=
  VO3_2.read (Elt F) (VO3_2.writes (Elt F) VO3_2.junk (kernelRun3_B c i arg2 harg2 arg3 harg3 arg4 harg4 arg5 harg5 hc0 hc1 x0 x1 xs0).1)

/-- Step 1's store into the accumulator covers it. -/
theorem scover3_B_0 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) (y : S1024x2048.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1024x2048.size (by sl_kernel_rfl) y

/-- What step 1 leaves in the accumulator. -/
def sout3_B_0 (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) : Vec F S1024x2048 .f32 :=
  VS3_0.read (Elt F) (VS3_0.writes (Elt F) VS3_0.junk (kernelRun3_B c i arg2 harg2 arg3 harg3 arg4 harg4 arg5 harg5 hc0 hc1 x0 x1 xs0).2.1)

/-! ## The accumulation, point by point -/

/-- After the body at position n: the output block's buffer and the accumulator.  An even position is step
    0 of its row-block (from the two input blocks alone), an odd one step 1 (over what position n - 1 left
    in the accumulator). -/
def outsAt3 (c : Dev nD) : (n : ℕ) → n < cfg3.N → Vec F S1024x2048 .bf16 × Vec F S1024x2048 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => by have := (hcond3_1 ⟨0, hn⟩).mp h; (try dsimp only at this); omega) (iblk3 V c 0 ⟨0, hn⟩) (iblk3 V c 1 ⟨0, hn⟩),
      sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => by have := (hcond3_1 ⟨0, hn⟩).mp h; (try dsimp only at this); omega) (iblk3 V c 0 ⟨0, hn⟩) (iblk3 V c 1 ⟨0, hn⟩))
  | n + 1, hn =>
    if h0 : (n + 1) % 2 = 0 then
      (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => by have := (hcond3_1 ⟨n + 1, hn⟩).mp h; (try dsimp only at this); omega) (iblk3 V c 0 ⟨n + 1, hn⟩) (iblk3 V c 1 ⟨n + 1, hn⟩),
        sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => by have := (hcond3_1 ⟨n + 1, hn⟩).mp h; (try dsimp only at this); omega) (iblk3 V c 0 ⟨n + 1, hn⟩) (iblk3 V c 1 ⟨n + 1, hn⟩))
    else
      (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr (by (try dsimp only); omega)) (iblk3 V c 0 ⟨n + 1, hn⟩) (iblk3 V c 1 ⟨n + 1, hn⟩) (outsAt3 c n (Nat.lt_of_succ_lt hn)).2,
        sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr (by (try dsimp only); omega)) (iblk3 V c 0 ⟨n + 1, hn⟩) (iblk3 V c 1 ⟨n + 1, hn⟩) (outsAt3 c n (Nat.lt_of_succ_lt hn)).2)

/-- At a point of step 0. -/
theorem outsAt3_A (c : Dev nD) (t : Fin cfg3.N) (h0 : t.val % 2 = 0) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => by have := (hcond3_1 t).mp h; (try dsimp only at this); omega) (iblk3 V c 0 t) (iblk3 V c 1 t),
      sout3_A_0 c (grid3.coords t) (ms3_0 t) (hs3_0 t) (ms3_1 t) (hs3_1 t) (ms3_2 t) (hs3_2 t) scM3_0 (Memref.isWhole_whole _) ((hcond3_0 t).mpr h0) (fun h => by have := (hcond3_1 t).mp h; (try dsimp only at this); omega) (iblk3 V c 0 t) (iblk3 V c 1 t)) := by
  obtain ⟨n, hn⟩ := t
  cases n with
  | zero => exact rfl
  | succ n => exact (dif_pos h0).trans rfl

/-- At a point of step 1: over what the point before left. -/
theorem outsAt3_B (c : Dev nD) (t : Fin cfg3.N) (h0 : ¬t.val % 2 = 0) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr (by (try dsimp only); omega)) (iblk3 V c 0 t) (iblk3 V c 1 t) (outsAt3 V c (t.val - 1) (Nat.lt_of_le_of_lt (Nat.sub_le _ _) t.isLt)).2,
      sout3_B_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr (by (try dsimp only); omega)) (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- The scoped buffers no window stages, with the accumulator taken out as a memory reference owned at some
    contents, beside the generator register: what the region is entered with. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-- Before position n: at the first point what the region is entered with; afterwards the accumulator at
    what the point before left, the other scoped buffers and the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The region's arrays as it finds them; after the body at a point each input's buffer at its block and the
    output's at the accumulation's first component; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point.  The parity of the point says which case it is in; the inputs' buffers hold their
    blocks; the invariant hands the body the accumulator (at anything at the first point, else at what the
    point before left) and takes it back at this point's contents, since the case's stores cover it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 4 := lt_of_lt_of_eq t.isLt (show cfg3.N = 4 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 2 = 0
  · have hc0 : cond3_0 (grid3.coords t) := (hcond3_0 t).mpr h0
    have hc1 : ¬cond3_1 (grid3.coords t) := fun h => by have := (hcond3_1 t).mp h; omega
    rw [Dat.leavesExact_idle (dat3 V c) 2 t (idleAt3_2_A t hc0 hc1) (noFlush3_2_A t hc0 hc1)]
    rw [outsAt3_A V c t h0]
    unfold sout3_A_0; (try dsimp only)
    by_cases hz : t.val = 0
    · rw [PhiS3_castSucc V c t, PhiS3_zero V c _ _ hz, PhiA3_eq]
      iintro ⟨⟨⟨HS0, Hsr⟩, Hg⟩, Ho, ⟨%d0, H0⟩, ⟨%d1, H1⟩, ⟨%d2, H2⟩⟩
      iapply ((kernelRun3_A c (grid3.coords t) _ _ _ _ _ _ _ _ hc0 hc1 (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover3_A_0 c _ _ _ _ _ _ _ _ _ _ _ _ _)
          iexact Hsr
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨HS0, Hsr⟩, Hg⟩, Ho, ⟨%d0, H0⟩, ⟨%d1, H1⟩, ⟨%d2, H2⟩⟩
      iapply ((kernelRun3_A c (grid3.coords t) _ _ _ _ _ _ _ _ hc0 hc1 (iblk3 V c 0 t) (iblk3 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover3_A_0 c _ _ _ _ _ _ _ _ _ _ _ _ _)
          iexact Hsr
        iexact Hg
      isplitl [Ho]; · iexact Ho
      isplitl [H0]; · iexact H0
      isplitl [H1]; · iexact H1
      iexists _; iexact H2
  · have hc0 : ¬cond3_0 (grid3.coords t) := fun h => h0 ((hcond3_0 t).mp h)
    have hc1 : cond3_1 (grid3.coords t) := (hcond3_1 t).mpr (by omega)
    rw [show (dat3 V c).leavesExact 2 t = owns (c : Thread nD τ) (ms3_2 t) fullShare ((dat3 V c).after 2 t) from by
      unfold Dat.leavesExact; rw [liveAt3_2_B t hc0 hc1], after3_2]
    rw [outsAt3_B V c t h0]
    unfold out3_B_2 sout3_B_0; (try dsimp only)
    have hz : t.val ≠ 0 := by omega
    rw [PhiS3_castSucc V c t, PhiS3_pos V c _ _ hz]
    iintro ⟨⟨⟨HS0, Hsr⟩, Hg⟩, Ho, ⟨%d0, H0⟩, ⟨%d1, H1⟩, ⟨%d2, H2⟩⟩
    iapply ((kernelRun3_B c (grid3.coords t) _ _ _ _ _ _ _ _ hc0 hc1 (iblk3 V c 0 t) (iblk3 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover3_B_0 c _ _ _ _ _ _ _ _ _ _ _ _ _ _)
        iexact Hsr
      iexact Hg
    isplitl [Ho]; · iexact Ho
    isplitl [H0]; · iexact H0
    isplitl [H1]; · iexact H1
    unfold owns; iexists _; isplitr
    swap; · iexact H2
    ipureintro; exact View.read_writes_of_cover _ _ _ _ _ (cover3_B_2 c _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4Runs.lean ====
/-
  Kernel 4 of the program, one grid point at a time.  The grid is 2 x 2: point t has row-block t / 2 and
  contraction step t % 2.  At step 0 the body zeroes its accumulator and adds the first block product into
  it, storing nothing into the output block; at step 1 it adds the second block product and stores the
  output block.  Here: the two branch conditions in closed form over the grid, where the output window is
  idle, the memory references a point is called with, and the body's run in each of the two cases, ending
  with the accumulator (and at step 1 the output block) holding the stores the run made.
-/
import proofs.«144174_j32117765439601_2_alg».proof.Proof.Gen.KernelIdeal.Launch
import proofs.«144174_j32117765439601_2_alg».proof.Proof.Gen.KernelIdeal.Skeleton
import proofs.«144174_j32117765439601_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: a parameter
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, for any proof data over these arrays
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
end

/-! ## The two branch conditions -/

/-- The first conditional's test: the contraction step is 0. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 2 = 0 :=
  (by decide +kernel : ∀ t : Fin grid4.N, cond4_0 (grid4.coords t) ↔ t.val % 2 = 0)
/-- The second conditional's test: the contraction step is the last one. -/
abbrev cond4_1 (i : grid4.Coords) : Prop := k4_cond2 i = 1#1
theorem hcond4_1 : ∀ t : Fin cfg4.N, cond4_1 (grid4.coords t) ↔ t.val % 2 = 1 :=
  (by decide +kernel : ∀ t : Fin grid4.N, cond4_1 (grid4.coords t) ↔ t.val % 2 = 1)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- At step 0 the output window is idle and is not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
/-- At step 1 it is live. -/
theorem liveAt4_2_B : ∀ t : Fin cfg4.N, ¬cond4_0 (grid4.coords t) → cond4_1 (grid4.coords t) → cfg4.idle 2 (grid4.coords t) = false := by decide +kernel

/-! ## The memory references at a point -/

abbrev VO4_2 : View sig .tc .vmem S1024x2048 .f32 := (Memref.whole cc4_stg2_0 : Memref sig .tc .vmem S1024x2048 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x2048 .f32 := win4_2.stage (cfg4.slots t 2)
abbrev hs4_2 (t : Fin cfg4.N) : (ms4_2 t).IsWhole := hstage4_2 ((cfg4.slots t 2).cast nbuf4_2)
/-- The accumulator: a whole buffer of the kernel's own, kept from one point to the next. -/
abbrev scM4_0 : Memref sig .tc .vmem S1024x2048 .f32 := Memref.whole cc4_scratch0
abbrev VS4_0 : View sig .tc .vmem S1024x2048 .f32 := scM4_0.view

/-! ## The body's run, case by case -/

set_option maxHeartbeats 4000000 in
/-- Step 0: from the two input blocks, the output buffer at anything (handed back untouched) and the
    accumulator at anything, the body runs and leaves the accumulator with its stores written. -/
noncomputable def kernelRun4_A (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : cond4_0 i) (hc1 : ¬cond4_1 i)
    (x0 : Vec F S1024x1024 .bf16) (x1 : Vec F S1024x2048 .bf16) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__kernel i arg2 harg2 arg3 harg3 arg4 harg4 arg5 harg5) K } := by
  refine ⟨[], ?_, fun xi2 E K => ?run⟩
  case run =>
    simp only [cc4__kernel_eq_skeleton]; unfold cc4__kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Step 1: from the two input blocks, the output buffer at anything and the accumulator at what the step
    before left, the body runs and leaves the accumulator and the output buffer with its stores written. -/
noncomputable def kernelRun4_B (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__kernel i arg2 harg2 arg3 harg3 arg4 harg4 arg5 harg5) K } := by
  refine ⟨?_, ?_, fun E K => ?run⟩
  case run =>
    simp only [cc4__kernel_eq_skeleton]; unfold cc4__kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R4Frame.lean ====
/-
  Kernel 4: what its accumulator and its output block hold after every grid point, the region's
  invariant (the accumulator at what the point before left), the pipeline's proof data and the body
  obligation at every point.
-/
import proofs.«144174_j32117765439601_2_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Step 0 stores nothing into the output block: a placeholder nothing consults. -/
def out4_A_2 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : cond4_0 i) (hc1 : ¬cond4_1 i)
    (x0 : Vec F S1024x1024 .bf16) (x1 : Vec F S1024x2048 .bf16) : Vec F S1024x2048 .f32 :=
  VO4_2.read (Elt F) (VO4_2.writes (Elt F) VO4_2.junk (kernelRun4_A c i arg2 harg2 arg3 harg3 arg4 harg4 arg5 harg5 hc0 hc1 x0 x1).1)

/-- Step 0's stores into the accumulator cover it. -/
theorem scover4_A_0 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : cond4_0 i) (hc1 : ¬cond4_1 i)
    (x0 : Vec F S1024x1024 .bf16) (x1 : Vec F S1024x2048 .bf16) (y : S1024x2048.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1024x2048.size (by sl_kernel_rfl) y

/-- What step 0 leaves in the accumulator. -/
def sout4_A_0 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : cond4_0 i) (hc1 : ¬cond4_1 i)
    (x0 : Vec F S1024x1024 .bf16) (x1 : Vec F S1024x2048 .bf16) : Vec F S1024x2048 .f32 :=
  VS4_0.read (Elt F) (VS4_0.writes (Elt F) VS4_0.junk (kernelRun4_A c i arg2 harg2 arg3 harg3 arg4 harg4 arg5 harg5 hc0 hc1 x0 x1).2.1)

/-- Step 1's store into the output block covers it. -/
theorem cover4_B_2 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) (y : S1024x2048.Idx) :
    ∃ pc ∈ (kernelRun4_B c i arg2 harg2 arg3 harg3 arg4 harg4 arg5 harg5 hc0 hc1 x0 x1 xs0).1, y ∈ pc.1.set :=
  View.cover_of_tiledL (kernelRun4_B c i arg2 harg2 arg3 harg3 arg4 harg4 arg5 harg5 hc0 hc1 x0 x1 xs0).1 S1024x2048.size (by sl_kernel_rfl) y

/-- What step 1 leaves in the output block. -/
def out4_B_2 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) : Vec F S1024x2048 .f32 :=
  VO4_2.read (Elt F) (VO4_2.writes (Elt F) VO4_2.junk (kernelRun4_B c i arg2 harg2 arg3 harg3 arg4 harg4 arg5 harg5 hc0 hc1 x0 x1 xs0).1)

/-- Step 1's store into the accumulator covers it. -/
theorem scover4_B_0 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) (y : S1024x2048.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1024x2048.size (by sl_kernel_rfl) y

/-- What step 1 leaves in the accumulator. -/
def sout4_B_0 (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) : Vec F S1024x2048 .f32 :=
  VS4_0.read (Elt F) (VS4_0.writes (Elt F) VS4_0.junk (kernelRun4_B c i arg2 harg2 arg3 harg3 arg4 harg4 arg5 harg5 hc0 hc1 x0 x1 xs0).2.1)

/-! ## The accumulation, point by point -/

/-- After the body at position n: the output block's buffer and the accumulator.  An even position is step
    0 of its row-block (from the two input blocks alone), an odd one step 1 (over what position n - 1 left
    in the accumulator). -/
def outsAt4 (c : Dev nD) : (n : ℕ) → n < cfg4.N → Vec F S1024x2048 .f32 × Vec F S1024x2048 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => by have := (hcond4_1 ⟨0, hn⟩).mp h; (try dsimp only at this); omega) (iblk4 V c 0 ⟨0, hn⟩) (iblk4 V c 1 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => by have := (hcond4_1 ⟨0, hn⟩).mp h; (try dsimp only at this); omega) (iblk4 V c 0 ⟨0, hn⟩) (iblk4 V c 1 ⟨0, hn⟩))
  | n + 1, hn =>
    if h0 : (n + 1) % 2 = 0 then
      (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => by have := (hcond4_1 ⟨n + 1, hn⟩).mp h; (try dsimp only at this); omega) (iblk4 V c 0 ⟨n + 1, hn⟩) (iblk4 V c 1 ⟨n + 1, hn⟩),
        sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => by have := (hcond4_1 ⟨n + 1, hn⟩).mp h; (try dsimp only at this); omega) (iblk4 V c 0 ⟨n + 1, hn⟩) (iblk4 V c 1 ⟨n + 1, hn⟩))
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr (by (try dsimp only); omega)) (iblk4 V c 0 ⟨n + 1, hn⟩) (iblk4 V c 1 ⟨n + 1, hn⟩) (outsAt4 c n (Nat.lt_of_succ_lt hn)).2,
        sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr (by (try dsimp only); omega)) (iblk4 V c 0 ⟨n + 1, hn⟩) (iblk4 V c 1 ⟨n + 1, hn⟩) (outsAt4 c n (Nat.lt_of_succ_lt hn)).2)

/-- At a point of step 0. -/
theorem outsAt4_A (c : Dev nD) (t : Fin cfg4.N) (h0 : t.val % 2 = 0) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => by have := (hcond4_1 t).mp h; (try dsimp only at this); omega) (iblk4 V c 0 t) (iblk4 V c 1 t),
      sout4_A_0 c (grid4.coords t) (ms4_0 t) (hs4_0 t) (ms4_1 t) (hs4_1 t) (ms4_2 t) (hs4_2 t) scM4_0 (Memref.isWhole_whole _) ((hcond4_0 t).mpr h0) (fun h => by have := (hcond4_1 t).mp h; (try dsimp only at this); omega) (iblk4 V c 0 t) (iblk4 V c 1 t)) := by
  obtain ⟨n, hn⟩ := t
  cases n with
  | zero => exact rfl
  | succ n => exact (dif_pos h0).trans rfl

/-- At a point of step 1: over what the point before left. -/
theorem outsAt4_B (c : Dev nD) (t : Fin cfg4.N) (h0 : ¬t.val % 2 = 0) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr (by (try dsimp only); omega)) (iblk4 V c 0 t) (iblk4 V c 1 t) (outsAt4 V c (t.val - 1) (Nat.lt_of_le_of_lt (Nat.sub_le _ _) t.isLt)).2,
      sout4_B_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr (by (try dsimp only); omega)) (iblk4 V c 0 t) (iblk4 V c 1 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- The scoped buffers no window stages, with the accumulator taken out as a memory reference owned at some
    contents, beside the generator register: what the region is entered with. -/
theorem PhiA4_eq (c : Dev nD) :
    (Pipeline.ΦA spec4 c : sProp 𝕄)
      = iprop(iprop((∃ d, owns (c : Thread nD τ) scM4_0 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-- Before position n: at the first point what the region is entered with; afterwards the accumulator at
    what the point before left, the other scoped buffers and the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The region's arrays as it finds them; after the body at a point each input's buffer at its block and the
    output's at the accumulation's first component; the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point.  The parity of the point says which case it is in; the inputs' buffers hold their
    blocks; the invariant hands the body the accumulator (at anything at the first point, else at what the
    point before left) and takes it back at this point's contents, since the case's stores cover it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 4 := lt_of_lt_of_eq t.isLt (show cfg4.N = 4 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 2 = 0
  · have hc0 : cond4_0 (grid4.coords t) := (hcond4_0 t).mpr h0
    have hc1 : ¬cond4_1 (grid4.coords t) := fun h => by have := (hcond4_1 t).mp h; omega
    rw [Dat.leavesExact_idle (dat4 V c) 2 t (idleAt4_2_A t hc0 hc1) (noFlush4_2_A t hc0 hc1)]
    rw [outsAt4_A V c t h0]
    unfold sout4_A_0; (try dsimp only)
    by_cases hz : t.val = 0
    · rw [PhiS4_castSucc V c t, PhiS4_zero V c _ _ hz, PhiA4_eq]
      iintro ⟨⟨⟨HS0, Hsr⟩, Hg⟩, Ho, ⟨%d0, H0⟩, ⟨%d1, H1⟩, ⟨%d2, H2⟩⟩
      iapply ((kernelRun4_A c (grid4.coords t) _ _ _ _ _ _ _ _ hc0 hc1 (iblk4 V c 0 t) (iblk4 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover4_A_0 c _ _ _ _ _ _ _ _ _ _ _ _ _)
          iexact Hsr
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, Hsr⟩, Hg⟩, Ho, ⟨%d0, H0⟩, ⟨%d1, H1⟩, ⟨%d2, H2⟩⟩
      iapply ((kernelRun4_A c (grid4.coords t) _ _ _ _ _ _ _ _ hc0 hc1 (iblk4 V c 0 t) (iblk4 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover4_A_0 c _ _ _ _ _ _ _ _ _ _ _ _ _)
          iexact Hsr
        iexact Hg
      isplitl [Ho]; · iexact Ho
      isplitl [H0]; · iexact H0
      isplitl [H1]; · iexact H1
      iexists _; iexact H2
  · have hc0 : ¬cond4_0 (grid4.coords t) := fun h => h0 ((hcond4_0 t).mp h)
    have hc1 : cond4_1 (grid4.coords t) := (hcond4_1 t).mpr (by omega)
    rw [show (dat4 V c).leavesExact 2 t = owns (c : Thread nD τ) (ms4_2 t) fullShare ((dat4 V c).after 2 t) from by
      unfold Dat.leavesExact; rw [liveAt4_2_B t hc0 hc1], after4_2]
    rw [outsAt4_B V c t h0]
    unfold out4_B_2 sout4_B_0; (try dsimp only)
    have hz : t.val ≠ 0 := by omega
    rw [PhiS4_castSucc V c t, PhiS4_pos V c _ _ hz]
    iintro ⟨⟨⟨HS0, Hsr⟩, Hg⟩, Ho, ⟨%d0, H0⟩, ⟨%d1, H1⟩, ⟨%d2, H2⟩⟩
    iapply ((kernelRun4_B c (grid4.coords t) _ _ _ _ _ _ _ _ hc0 hc1 (iblk4 V c 0 t) (iblk4 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover4_B_0 c _ _ _ _ _ _ _ _ _ _ _ _ _ _)
        iexact Hsr
      iexact Hg
    isplitl [Ho]; · iexact Ho
    isplitl [H0]; · iexact H0
    isplitl [H1]; · iexact H1
    unfold owns; iexists _; isplitr
    swap; · iexact H2
    ipureintro; exact View.read_writes_of_cover _ _ _ _ _ (cover4_B_2 c _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The whole program: five kernel regions, one after the other, with no host operation between them.  The
  buffers' contents at each boundary are a fold from the launch memory (after a region, its arrays at what
  its write-backs leave, every other buffer untouched); each region is a segment entered from the contents
  before it and left at the contents after it; the launch composes them.  At the end every unscoped buffer
  holds the last fold's contents: each argument array its launch contents, the result array what the last
  region's write-backs leave.
-/
import proofs.«144174_j32117765439601_2_alg».proof.Proof.KI.R0Frame
import proofs.«144174_j32117765439601_2_alg».proof.Proof.KI.R1Frame
import proofs.«144174_j32117765439601_2_alg».proof.Proof.KI.R2Frame
import proofs.«144174_j32117765439601_2_alg».proof.Proof.KI.R3Frame
import proofs.«144174_j32117765439601_2_alg».proof.Proof.KI.R4Frame
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- An input window's array is left as the region found it. -/
theorem W1_in0 (c : Dev nD) : W1 m ρ c (Proc.devRef .tc (Pipeline.arrRef spec0 0)) = W0 m ρ c (Proc.devRef .tc (Pipeline.arrRef spec0 0)) :=
  (W1_arr m ρ c 0).trans (((dat0 (V0 m ρ) c).arrAt_in 0 rfl _).trans (A_eq0 (V0 m ρ) c 0))
theorem W1_in1 (c : Dev nD) : W1 m ρ c (Proc.devRef .tc (Pipeline.arrRef spec0 1)) = W0 m ρ c (Proc.devRef .tc (Pipeline.arrRef spec0 1)) :=
  (W1_arr m ρ c 1).trans (((dat0 (V0 m ρ) c).arrAt_in 1 rfl _).trans (A_eq0 (V0 m ρ) c 1))
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the pipeline leaves, every other buffer as before. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- An input window's array is left as the region found it. -/
theorem W2_in0 (c : Dev nD) : W2 m ρ c (Proc.devRef .tc (Pipeline.arrRef spec1 0)) = W1 m ρ c (Proc.devRef .tc (Pipeline.arrRef spec1 0)) :=
  (W2_arr m ρ c 0).trans (((dat1 (V1 m ρ) c).arrAt_in 0 rfl _).trans (A_eq1 (V1 m ρ) c 0))
theorem W2_in1 (c : Dev nD) : W2 m ρ c (Proc.devRef .tc (Pipeline.arrRef spec1 1)) = W1 m ρ c (Proc.devRef .tc (Pipeline.arrRef spec1 1)) :=
  (W2_arr m ρ c 1).trans (((dat1 (V1 m ρ) c).arrAt_in 1 rfl _).trans (A_eq1 (V1 m ρ) c 1))
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what the pipeline leaves, every other buffer as before. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- An input window's array is left as the region found it. -/
theorem W3_in0 (c : Dev nD) : W3 m ρ c (Proc.devRef .tc (Pipeline.arrRef spec2 0)) = W2 m ρ c (Proc.devRef .tc (Pipeline.arrRef spec2 0)) :=
  (W3_arr m ρ c 0).trans (((dat2 (V2 m ρ) c).arrAt_in 0 rfl _).trans (A_eq2 (V2 m ρ) c 0))
theorem W3_in1 (c : Dev nD) : W3 m ρ c (Proc.devRef .tc (Pipeline.arrRef spec2 1)) = W2 m ρ c (Proc.devRef .tc (Pipeline.arrRef spec2 1)) :=
  (W3_arr m ρ c 1).trans (((dat2 (V2 m ρ) c).arrAt_in 1 rfl _).trans (A_eq2 (V2 m ρ) c 1))
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After region 3: its arrays at what the pipeline leaves, every other buffer as before. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- An input window's array is left as the region found it. -/
theorem W4_in0 (c : Dev nD) : W4 m ρ c (Proc.devRef .tc (Pipeline.arrRef spec3 0)) = W3 m ρ c (Proc.devRef .tc (Pipeline.arrRef spec3 0)) :=
  (W4_arr m ρ c 0).trans (((dat3 (V3 m ρ) c).arrAt_in 0 rfl _).trans (A_eq3 (V3 m ρ) c 0))
theorem W4_in1 (c : Dev nD) : W4 m ρ c (Proc.devRef .tc (Pipeline.arrRef spec3 1)) = W3 m ρ c (Proc.devRef .tc (Pipeline.arrRef spec3 1)) :=
  (W4_arr m ρ c 1).trans (((dat3 (V3 m ρ) c).arrAt_in 1 rfl _).trans (A_eq3 (V3 m ρ) c 1))
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-- After region 4: its arrays at what the pipeline leaves, every other buffer as before. -/
def W5 (c : Dev nD) : Valuation τ sig (Elt F) :=
  Pipeline.withArrays spec4 c (W4 m ρ c) fun w => (dat4 (V4 m ρ) c).arrAt w cfg4.N
theorem W5_arr (c : Dev nD) (w : Fin cfg4.W) :
    W5 m ρ c (Proc.devRef .tc (Pipeline.arrRef spec4 w)) = (dat4 (V4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
/-- An input window's array is left as the region found it. -/
theorem W5_in0 (c : Dev nD) : W5 m ρ c (Proc.devRef .tc (Pipeline.arrRef spec4 0)) = W4 m ρ c (Proc.devRef .tc (Pipeline.arrRef spec4 0)) :=
  (W5_arr m ρ c 0).trans (((dat4 (V4 m ρ) c).arrAt_in 0 rfl _).trans (A_eq4 (V4 m ρ) c 0))
theorem W5_in1 (c : Dev nD) : W5 m ρ c (Proc.devRef .tc (Pipeline.arrRef spec4 1)) = W4 m ρ c (Proc.devRef .tc (Pipeline.arrRef spec4 1)) :=
  (W5_arr m ρ c 1).trans (((dat4 (V4 m ρ) c).arrAt_in 1 rfl _).trans (A_eq4 (V4 m ρ) c 1))
abbrev V5 : (c : Dev nD) → (b : Ref sig .tc) → Buf (Elt F) ((c : Thread nD τ).loc b) := fun c b => W5 m ρ c b
theorem hF4 (c : Dev nD) (w : Fin cfg4.W) : (dat4 (V4 m ρ) c).arrAt w cfg4.N = V5 m ρ c (Pipeline.arrRef spec4 w) :=
  (W5_arr m ρ c w).symm
theorem hrest4 (c : Dev nD) : ∀ b, b ∉ Finset.univ.image (Pipeline.arrRef spec4) → V5 m ρ c b = V4 m ρ c b :=
  fun b hb => W5_of_ne m ρ c b fun w e => hb (Finset.mem_image.mpr ⟨w, Finset.mem_univ _, e⟩)

/-! ## No region writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_in0 m ρ c
    _ = W1 m ρ c (Proc.devRef .tc main_arg0) := W2_in0 m ρ c
    _ = W0 m ρ c (Proc.devRef .tc main_arg0) := W1_in0 m ρ c
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_in1 m ρ c
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_in1 m ρ c
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_in1 m ρ c
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered with every unscoped buffer at the contents before it, left with them at
    the contents after it.  Its arrays are split out of the unscoped buffers and put back at their final
    contents; the generator register goes into the invariant and comes back; the accumulator is among the
    scoped buffers the region is handed and hands back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none,
      show (pdats m ρ 0 c).Φ (Fin.last _) = PhiS0 (V0 m ρ) c (Fin.last cfg0.N).val (Nat.le_of_lt_succ (Fin.last cfg0.N).isLt) from rfl,
      PhiS0_pos (V0 m ρ) c _ _ (by rw [Fin.val_last]; have : cfg0.N = 4 := N_0; omega)]
    show _ ⊢ iprop((∃ r, prngReg c r) ∗ BI.emp ∗ Pipeline.scopedRest (Ix := Unit) (Name := ℕ) (U := UR sig nD τ) (Lvl := ℕ) (Val := Elt F) spec0 c)
    rw [scopedRest0_split]
    simp only [scM0_0, owns_whole]
    iintro ⟨⟨HS, Hsr⟩, Hp⟩
    isplitl [Hp]; · iexact Hp
    isplitr; · iempintro
    isplitl [HS]; · iexists _; iexact HS
    iexact Hsr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at
    the contents after it.  Its arrays are split out of the unscoped buffers and put back at their final
    contents; the generator register goes into the invariant and comes back; the accumulator is among the
    scoped buffers the region is handed and hands back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none,
      show (pdats m ρ 1 c).Φ (Fin.last _) = PhiS1 (V1 m ρ) c (Fin.last cfg1.N).val (Nat.le_of_lt_succ (Fin.last cfg1.N).isLt) from rfl,
      PhiS1_pos (V1 m ρ) c _ _ (by rw [Fin.val_last]; have : cfg1.N = 4 := N_1; omega)]
    show _ ⊢ iprop((∃ r, prngReg c r) ∗ BI.emp ∗ Pipeline.scopedRest (Ix := Unit) (Name := ℕ) (U := UR sig nD τ) (Lvl := ℕ) (Val := Elt F) spec1 c)
    rw [scopedRest1_split]
    simp only [scM1_0, owns_whole]
    iintro ⟨⟨HS, Hsr⟩, Hp⟩
    isplitl [Hp]; · iexact Hp
    isplitr; · iempintro
    isplitl [HS]; · iexists _; iexact HS
    iexact Hsr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at
    the contents after it.  Its arrays are split out of the unscoped buffers and put back at their final
    contents; the generator register goes into the invariant and comes back; the accumulator is among the
    scoped buffers the region is handed and hands back; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none,
      show (pdats m ρ 2 c).Φ (Fin.last _) = PhiS2 (V2 m ρ) c (Fin.last cfg2.N).val (Nat.le_of_lt_succ (Fin.last cfg2.N).isLt) from rfl,
      PhiS2_pos (V2 m ρ) c _ _ (by rw [Fin.val_last]; have : cfg2.N = 4 := N_2; omega)]
    show _ ⊢ iprop((∃ r, prngReg c r) ∗ BI.emp ∗ Pipeline.scopedRest (Ix := Unit) (Name := ℕ) (U := UR sig nD τ) (Lvl := ℕ) (Val := Elt F) spec2 c)
    rw [scopedRest2_split]
    simp only [scM2_0, owns_whole]
    iintro ⟨⟨HS, Hsr⟩, Hp⟩
    isplitl [Hp]; · iexact Hp
    isplitr; · iempintro
    isplitl [HS]; · iexists _; iexact HS
    iexact Hsr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with them at
    the contents after it.  Its arrays are split out of the unscoped buffers and put back at their final
    contents; the generator register goes into the invariant and comes back; the accumulator is among the
    scoped buffers the region is handed and hands back; nothing is owed; the kernel has no semaphore of
    its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none,
      show (pdats m ρ 3 c).Φ (Fin.last _) = PhiS3 (V3 m ρ) c (Fin.last cfg3.N).val (Nat.le_of_lt_succ (Fin.last cfg3.N).isLt) from rfl,
      PhiS3_pos (V3 m ρ) c _ _ (by rw [Fin.val_last]; have : cfg3.N = 4 := N_3; omega)]
    show _ ⊢ iprop((∃ r, prngReg c r) ∗ BI.emp ∗ Pipeline.scopedRest (Ix := Unit) (Name := ℕ) (U := UR sig nD τ) (Lvl := ℕ) (Val := Elt F) spec3 c)
    rw [scopedRest3_split]
    simp only [scM3_0, owns_whole]
    iintro ⟨⟨HS, Hsr⟩, Hp⟩
    isplitl [Hp]; · iexact Hp
    isplitr; · iempintro
    isplitl [HS]; · iexists _; iexact HS
    iexact Hsr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at the contents before it, left with them at
    the contents after it.  Its arrays are split out of the unscoped buffers and put back at their final
    contents; the generator register goes into the invariant and comes back; the accumulator is among the
    scoped buffers the region is handed and hands back; nothing is owed; the kernel has no semaphore of
    its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none,
      show (pdats m ρ 4 c).Φ (Fin.last _) = PhiS4 (V4 m ρ) c (Fin.last cfg4.N).val (Nat.le_of_lt_succ (Fin.last cfg4.N).isLt) from rfl,
      PhiS4_pos (V4 m ρ) c _ _ (by rw [Fin.val_last]; have : cfg4.N = 4 := N_4; omega)]
    show _ ⊢ iprop((∃ r, prngReg c r) ∗ BI.emp ∗ Pipeline.scopedRest (Ix := Unit) (Name := ℕ) (U := UR sig nD τ) (Lvl := ℕ) (Val := Elt F) spec4 c)
    rw [scopedRest4_split]
    simp only [scM4_0, owns_whole]
    iintro ⟨⟨HS, Hsr⟩, Hp⟩
    isplitl [Hp]; · iexact Hp
    isplitr; · iempintro
    isplitl [HS]; · iexists _; iexact HS
    iexact Hsr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V4 m ρ c) (V5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing
    faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.KI.R0Pieces.lean ====
/-
  Kernel 0: what each of the two steps leaves in the accumulator and in the output block, as terms of the
  step's two input blocks and of what the step before left; and, from these, the output block after an odd
  point: the zero block plus the block product of the point before plus the block product of the point.
-/
import proofs.«144174_j32117765439601_2_alg».proof.Proof.KI.R0Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each step leaves -/

theorem hz0 : (![0, 0] : Fin 2 → Nat) = fun _ => 0 := funext fun a => by fin_cases a <;> rfl

/-- Step 0 leaves in the accumulator the zero block plus the product of the two input blocks. -/
theorem soutA0_eq (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond0_0 i) (hc1 : ¬cond0_1 i)
    (x0 : Vec F S1024x1024 .f32) (x1 : Vec F S1024x2048 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero hz0]
  simp only [View.readAt_eq_ld, harg2.read_unread, harg3.read_unread, harg5.read_unread,
    View.ld_unit_zero (S := S1024x1024) hz0, View.ld_unit_zero (S := S1024x2048) hz0,
    View.readCov_unit_zero (S := S1024x2048) _ hz0]

/-- Step 1 leaves in the accumulator what the step before left plus the product of the two input blocks. -/
theorem soutB0_eq (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero hz0]
  simp only [View.readAt_eq_ld, harg2.read_unread, harg3.read_unread, harg5.read_unread,
    View.ld_unit_zero (S := S1024x1024) hz0, View.ld_unit_zero (S := S1024x2048) hz0,
    View.readCov_unit_zero (S := S1024x2048) _ hz0]

/-- Step 1 stores the accumulator's new contents into the output block. -/
theorem outB0_eq (c : Dev nD) (i : grid0.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x1024 .f32) (x1 : Vec F S1024x2048 .f32) (xs0 : Vec F S1024x2048 .f32) :
    out0_B_2 c i arg2 harg2 arg3 harg3 arg4 harg4 arg5 harg5 hc0 hc1 x0 x1 xs0 = k0_pay2 x0 x1 xs0 := by
  unfold out0_B_2
  rw [View.read_writes_eq_canon _ _ _ (cover0_B_2 c i arg2 harg2 arg3 harg3 arg4 harg4 arg5 harg5 hc0 hc1 x0 x1 xs0)]
  unfold kernelRun0_B
  dsimp only
  try sl_unfold_words
  rw [View.canon_unit_zero hz0]
  simp only [View.readAt_eq_ld, harg2.read_unread, harg3.read_unread, harg5.read_unread,
    View.ld_unit_zero (S := S1024x1024) hz0, View.ld_unit_zero (S := S1024x2048) hz0,
    View.readCov_unit_zero (S := S1024x2048) _ hz0]

/-! ## The accumulation over a row block's two points -/

section
variable (V : (c : Dev nD) → (b : Ref sig .tc) → Buf (Elt F) ((c : Thread nD τ).loc b))

/-- After an even point the accumulator holds the zero block plus the product of the point's two input blocks. -/
theorem sndAt0_even (c : Dev nD) (t : Fin cfg0.N) (h0 : t.val % 2 = 0) :
    (outsAt0 V c t.val t.isLt).2 = k0_pay2 (iblk0 V c 0 t) (iblk0 V c 1 t) (k0_pay1 (F := F)) := by
  rw [outsAt0_A V c t h0]
  dsimp only
  rw [soutA0_eq]

/-- After an odd point the output block holds the zero block plus the product of the two input blocks of the
    point before plus the product of the point's own two. -/
theorem after0_odd (c : Dev nD) (t : Fin cfg0.N) (h : t.val % 2 = 1) :
    (outsAt0 V c t.val t.isLt).1
      = k0_pay2 (iblk0 V c 0 t) (iblk0 V c 1 t)
          (k0_pay2 (iblk0 V c 0 ⟨t.val - 1, Nat.lt_of_le_of_lt (Nat.sub_le _ _) t.isLt⟩)
            (iblk0 V c 1 ⟨t.val - 1, Nat.lt_of_le_of_lt (Nat.sub_le _ _) t.isLt⟩) (k0_pay1 (F := F))) := by
  rw [outsAt0_B V c t (by omega)]
  dsimp only
  rw [outB0_eq]
  exact congrArg _ (sndAt0_even V c ⟨t.val - 1, Nat.lt_of_le_of_lt (Nat.sub_le _ _) t.isLt⟩
    (by show (t.val - 1) % 2 = 0; omega))

end

end Cert.KernelIdeal.Hand

end
-- ==== Proof.Spec.lean ====
/-
  The mathematics of the claim, free of any program.  Over 2048 x 2048 matrices of extended reals:
  the matrix product `mm`, the row softmax `sm` in the max-subtracted form (every entry of a row
  less the row's largest entry, exponentiated, divided by the row's sum of those exponentials), and
  the attention value `out x q k v = sm ((x q) (x k)) (x v)`.  Both programs compute `out`; the
  kernel tiles each product in two blocks along the contracted axis and adds them into a zero
  accumulator, which changes only the grouping of a finite sum.
-/
import Idealize.ShloMosaic.PureOps.Ideal
import Idealize.ShloMosaic.Lib.ValueIdx

noncomputable section

namespace Cert.Spec

open Idealize.ShloMosaic Idealize.ShloMosaic.ValueIdx
open scoped BigOperators

/-- A 2048 x 2048 matrix of extended reals, by row and column. -/
abbrev Mat : Type := Fin 2048 → Fin 2048 → EReal

/-- The shape of every array of the claim. -/
abbrev S : Shape := ⟨2, ![2048, 2048]⟩

/-- An array read as a matrix: entry (r, c) is the array at the index with coordinates r, c. -/
def toMat (X : S.Idx → EReal) : Mat := fun r c => X (ix2 r c)

/-- Two arrays that are the same matrix are the same array. -/
theorem toMat_inj {X Y : S.Idx → EReal} (h : toMat X = toMat Y) : X = Y := by
  funext j
  rw [eq_ix2 j]
  exact congrFun (congrFun h (j 0)) (j 1)

/-- The matrix product: entry (r, c) is the sum over l of A(r, l) B(l, c). -/
def mm (A B : Mat) : Mat := fun r c => ∑ l : Fin 2048, A r l * B l c

/-- The largest entry of row r, as the fold of `max` over the row from the bottom element. -/
def rowMax (T : Mat) (r : Fin 2048) : EReal := (Finset.univ : Finset (Fin 2048)).fold max (⊥ : EReal) (T r)

/-- The exponential of each entry less its row's largest entry. -/
def ex (T : Mat) : Mat := fun r c => Ideal.exp (T r c - rowMax T r)

/-- The row softmax: each shifted exponential over the sum of its row's shifted exponentials. -/
def sm (T : Mat) : Mat := fun r c => Ideal.div (ex T r c) (∑ c' : Fin 2048, ex T r c')

/-- The value both programs compute. -/
def out (x q k v : Mat) : Mat := mm (sm (mm (mm x q) (mm x k))) (mm x v)

end Cert.Spec

end
-- ==== Proof.KI.R0Blocks.lean ====
/-
  Kernel 0's blocks as parts of its arrays, over the extended reals.

  The grid is 2 x 2: point t has row block t / 2 and contraction step t % 2.  The first operand's block at point t is
  the 1024 x 1024 block (t / 2, t % 2) of its 2048 x 2048 array: entry (p, l) of the block is entry
  (1024 (t / 2) + p, 1024 (t % 2) + l) of the array.  The second operand's block is the 1024 x 2048 block (t % 2, 0):
  entry (l, q) is entry (1024 (t % 2) + l, q).  The result's block is the 1024 x 2048 block (t / 2, 0), written back at
  the odd points; the two odd points' blocks are the upper and the lower half of the result array, so if what each odd
  point writes back is rows 1024 (t / 2) ... of a matrix G, the array ends holding G: row r is written by the odd point
  2 (r / 1024) + 1.
-/
import proofs.«144174_j32117765439601_2_alg».proof.Proof.KI.R0Frame
import proofs.«144174_j32117765439601_2_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable (V : (c : Dev nD) → (b : Ref sig .tc) → Buf (Elt Ideal) ((c : Thread nD τ).loc b))

/-! ## The block indices over the grid -/

/-- The grid has four points. -/
theorem lt_four0 (t : Fin cfg0.N) : t.val < 4 := lt_of_lt_of_eq t.isLt (show cfg0.N = 4 from N_0)

/-- The first operand's block index at point t: (row block, contraction step). -/
theorem blockIdx0_0 : ∀ t : Fin cfg0.N, win0_0.index t (0 : Fin 2) = t.val / 2 ∧ win0_0.index t (1 : Fin 2) = t.val % 2 :=
  (by decide +kernel : ∀ t : Fin grid0.N, win0_0.index t (0 : Fin 2) = t.val / 2 ∧ win0_0.index t (1 : Fin 2) = t.val % 2)

/-- The second operand's block index at point t: (contraction step, 0). -/
theorem blockIdx0_1 : ∀ t : Fin cfg0.N, win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0)

/-- The result's block index at point t: (row block, 0). -/
theorem blockIdx0_2 : ∀ t : Fin cfg0.N, win0_2.index t (0 : Fin 2) = t.val / 2 ∧ win0_2.index t (1 : Fin 2) = 0 :=
  (by decide +kernel : ∀ t : Fin grid0.N, win0_2.index t (0 : Fin 2) = t.val / 2 ∧ win0_2.index t (1 : Fin 2) = 0)

/-! ## The input blocks read at an entry -/

/-- The first operand's block at point t, at an index x, is its array at the index k whose coordinates are the
    block's offsets plus x's. -/
theorem iblk0_0_at (c : Dev nD) (t : Fin cfg0.N) (x : S1024x1024.Idx) (k : S2048x2048.Idx)
    (hk0 : (k 0).val = 1024 * (t.val / 2) + (x 0).val) (hk1 : (k 1).val = 1024 * (t.val % 2) + (x 1).val) :
    (iblk0 V c 0 t : Vec Ideal S1024x1024 .f32) x = (V c main_arg0 : S2048x2048.Idx → Elt Ideal .f32) k := by
  obtain ⟨e0, e1⟩ := blockIdx0_0 t
  unfold iblk0
  rw [View.read_apply]
  show V c main_arg0 _ = V c main_arg0 _
  congr 1
  funext a
  apply Fin.ext
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

/-- The second operand's block at point t, at an index x, is its array at the index k whose coordinates are the
    block's offsets plus x's. -/
theorem iblk0_1_at (c : Dev nD) (t : Fin cfg0.N) (x : S1024x2048.Idx) (k : S2048x2048.Idx)
    (hk0 : (k 0).val = 1024 * (t.val % 2) + (x 0).val) (hk1 : (k 1).val = (x 1).val) :
    (iblk0 V c 1 t : Vec Ideal S1024x2048 .f32) x = (V c main_arg1 : S2048x2048.Idx → Elt Ideal .f32) k := by
  obtain ⟨e0, e1⟩ := blockIdx0_1 t
  unfold iblk0
  rw [View.read_apply]
  show V c main_arg1 _ = V c main_arg1 _
  congr 1
  funext a
  apply Fin.ext
  match a with
  | ⟨0, _⟩ => show win0_1.index t 0 * 1024 + 1 * (x 0).val = (k 0).val; rw [e0, hk0]; omega
  | ⟨1, _⟩ => show win0_1.index t 1 * 2048 + 1 * (x 1).val = (k 1).val; rw [e1, hk1]; omega

/-- Entry (p, l) of the first operand's block at point t is entry (1024 (t / 2) + p, 1024 (t % 2) + l) of its array. -/
theorem iblk0_0_apply (c : Dev nD) (t : Fin cfg0.N) (p l : Fin 1024) :
    (iblk0 V c 0 t : Vec Ideal S1024x1024 .f32) (ix2 p l)
      = Cert.Spec.toMat (V c main_arg0) ⟨1024 * (t.val / 2) + p.val, by have := lt_four0 t; omega⟩
          ⟨1024 * (t.val % 2) + l.val, by omega⟩ :=
  iblk0_0_at V c t (ix2 p l) (ix2 _ _) rfl rfl

/-- Entry (l, q) of the second operand's block at point t is entry (1024 (t % 2) + l, q) of its array. -/
theorem iblk0_1_apply (c : Dev nD) (t : Fin cfg0.N) (l : Fin 1024) (q : Fin 2048) :
    (iblk0 V c 1 t : Vec Ideal S1024x2048 .f32) (ix2 l q)
      = Cert.Spec.toMat (V c main_arg1) ⟨1024 * (t.val % 2) + l.val, by omega⟩ q :=
  iblk0_1_at V c t (ix2 l q) (ix2 _ _) rfl rfl

/-! ## From the result's blocks to the result array -/

/-- A matrix as contents of the result array. -/
def arrOf0 (G : Cert.Spec.Mat) : S2048x2048.Idx → Elt Ideal .f32 :=
  fun j => G ⟨(j 0).val, (j 0).isLt⟩ ⟨(j 1).val, (j 1).isLt⟩

/-- Read back as a matrix, it is the matrix. -/
theorem toMat_arrOf0 (G : Cert.Spec.Mat) : Cert.Spec.toMat (arrOf0 G) = G := rfl

/-- The result's block at point t sits at rows 1024 (t / 2) ... and all columns of the array. -/
theorem blk0_2_emb (t : Fin cfg0.N) (j : ((cfg0.win 2).xblock (grid0.coords t)).Idx) :
    ((((cfg0.win 2).blk t).view.emb j) 0).val = 1024 * (t.val / 2) + (j 0).val
      ∧ ((((cfg0.win 2).blk t).view.emb j) 1).val = (j 1).val := by
  obtain ⟨e0, e1⟩ := blockIdx0_2 t
  constructor
  · show win0_2.index t 0 * 1024 + 1 * (j 0).val = _
    rw [e0]; omega
  · show win0_2.index t 1 * 2048 + 1 * (j 1).val = _
    rw [e1]; omega

/-- What an odd point writes back is its block of the matrix G, when the body leaves there the rows of G of the
    point's row block. -/
theorem flushed0_2_eq (c : Dev nD) (G : Cert.Spec.Mat)
    (hout : ∀ (t : Fin cfg0.N), t.val % 2 = 1 → ∀ (p : Fin 1024) (q : Fin 2048),
      ((dat0 V c).after 2 t : Vec Ideal S1024x2048 .f32) (ix2 p q)
        = G ⟨1024 * (t.val / 2) + p.val, by have := lt_four0 t; omega⟩ q)
    (t : Fin cfg0.N) (hf : (cfg0.win 2).flush t = true) :
    (dat0 V c).flushed 2 t = ((cfg0.win 2).blk t).view.read (Elt Ideal) (arrOf0 G) := by
  have h1 : t.val % 2 = 1 := (flush0_2 t).mp hf
  show (cfg0.win 2).cut (grid0.coords t) ((dat0 V c).after 2 t) = _
  funext j
  have hj0 : (j 0).val < 1024 := (j 0).isLt
  have hj1 : (j 1).val < 2048 := (j 1).isLt
  obtain ⟨m0, m1⟩ := blk0_2_emb t j
  rw [View.read_apply]
  have hx : (cfg0.win 2).xinj (grid0.coords t) j = ix2 (⟨(j 0).val, hj0⟩ : Fin 1024) (⟨(j 1).val, hj1⟩ : Fin 2048) :=
    funext fun a => by match a with | ⟨0, _⟩ => rfl | ⟨1, _⟩ => rfl
  show ((dat0 V c).after 2 t : Vec Ideal S1024x2048 .f32) ((cfg0.win 2).xinj (grid0.coords t) j)
    = arrOf0 G (((cfg0.win 2).blk t).view.emb j)
  rw [hx, hout t h1]
  unfold arrOf0
  congr 1
  · exact Fin.ext m0.symm
  · exact Fin.ext m1.symm

/-- Every entry of the result array is in the block some odd point writes back: row r is in the block of point
    2 (r / 1024) + 1. -/
theorem cover0_2 (i : S2048x2048.Idx) :
    ∃ t : Fin cfg0.N, (cfg0.win 2).flush t = true ∧ i ∈ ((cfg0.win 2).blk t).view.set := by
  have h0 : (i 0 : Nat) < 2048 := (i 0).isLt
  have h1 : (i 1 : Nat) < 2048 := (i 1).isLt
  have hN : cfg0.N = 4 := N_0
  let t : Fin cfg0.N := ⟨2 * ((i 0 : Nat) / 1024) + 1, by rw [hN]; omega⟩
  have ht : t.val = 2 * ((i 0 : Nat) / 1024) + 1 := rfl
  obtain ⟨e0, e1⟩ := blockIdx0_2 t
  refine ⟨t, (flush0_2 t).mpr (by rw [ht]; omega), ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [e0, ht]; omega
  | ⟨1, _⟩ =>
    show win0_2.index t 1 * 2048 ≤ (i 1 : Nat) ∧ (i 1 : Nat) < win0_2.index t 1 * 2048 + 2048
    rw [e1]; omega

/-- So the result array ends holding G. -/
theorem value0_of (c : Dev nD) (G : Cert.Spec.Mat)
    (hout : ∀ (t : Fin cfg0.N), t.val % 2 = 1 → ∀ (p : Fin 1024) (q : Fin 2048),
      ((dat0 V c).after 2 t : Vec Ideal S1024x2048 .f32) (ix2 p q)
        = G ⟨1024 * (t.val / 2) + p.val, by have := lt_four0 t; omega⟩ q) :
    Cert.Spec.toMat ((dat0 V c).arrAt 2 cfg0.N) = G := by
  have hfin : (dat0 V c).arrAt 2 cfg0.N = arrOf0 G :=
    (dat0 V c).arrAt_eq_of_cover 2 (arrOf0 G) (flushed0_2_eq V c G hout) cover0_2
  rw [hfin]
  exact toMat_arrOf0 G

end Cert.KernelIdeal.Hand

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.BlockVals.lean ====
/-
  The values the kernels' blocks hold, over the extended reals.

  Each kernel computes one 2048 x 2048 product A B one row block at a time (rows 1024 i ... 1024 i + 1023) and in two
  steps along the contracted axis: the first step adds, to a zero block, the product of A's left half of those rows
  with B's upper half; the second adds the product of A's right half with B's lower half.  Entry (p, c) of the result
  is 0 + (sum over l < 1024 of A(r, l) B(l, c)) + (sum over l < 1024 of A(r, 1024 + l) B(1024 + l, c)) with
  r = 1024 i + p, which is the full sum over the 2048 contracted positions: a finite sum split at position 1024.
  Rounding to a narrower format and a shape cast to the same shape change no value here.
-/
import proofs.«144174_j32117765439601_2_alg».proof.Proof.Spec
import proofs.«144174_j32117765439601_2_alg».proof.Proof.Gen.KernelIdeal.Skeleton
import proofs.«144174_j32117765439601_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.KernelIdeal.BlockVals

open Cert.KernelIdeal Cert.KernelIdeal.Gen Cert.Spec Idealize.ShloMosaic Idealize.ShloMosaic.ValueIdx

/-- Row p of row block i, as a row of the whole matrix. -/
def grow (i : Fin 2) (p : Fin 1024) : Fin 2048 := ⟨1024 * i.val + p.val, by omega⟩

/-- Position l of the first half of the contracted axis. -/
def lo (l : Fin 1024) : Fin 2048 := ⟨l.val, by omega⟩

/-- Position l of the second half of the contracted axis. -/
def hi (l : Fin 1024) : Fin 2048 := ⟨1024 + l.val, by omega⟩

/-- A sum over 2048 positions is the sum over the first 1024 plus the sum over the last 1024. -/
theorem sum_split (f : Fin 2048 → EReal) :
    ∑ l : Fin 2048, f l = ∑ l : Fin 1024, f (lo l) + ∑ l : Fin 1024, f (hi l) :=
  Fin.sum_univ_add (a := 1024) (b := 1024) f

/-- The dimension numbers of the kernels' products are those of a plain 1024 x 1024 by 1024 x 2048 product. -/
theorem dot_eq_plain : dot_S1024x1024_S1024x2048_S1024x2048_1_0_0_1_n_n = DotDims.plain 1024 1024 2048 := rfl

/-- One step: the accumulator plus the block product, at entry (p, c). -/
theorem step_apply {φ₁ φ₂ : FTy} (a : FVec Ideal S1024x1024 φ₁) (b : FVec Ideal S1024x2048 φ₂)
    (acc : FVec Ideal S1024x2048 .f32) (p : Fin 1024) (c : Fin 2048) :
    addf acc (matmul dot_S1024x1024_S1024x2048_S1024x2048_1_0_0_1_n_n none a b
        (constant (F := Ideal) S1024x2048 .f32 0x00000000#32)) (ix2 p c)
      = acc (ix2 p c) + ∑ l : Fin 1024, a (ix2 p l) * b (ix2 l c) := by
  rw [addf_apply, dot_eq_plain]
  exact congrArg (acc (ix2 p c) + ·) (Cert.LibPlainDot.matmul_zero_apply none a b p c)

/-- The two steps together: zero, plus the sum over the first half, plus the sum over the second half, is the
    entry of the whole product. -/
theorem acc_sum (a0 a1 : S1024x1024.Idx → EReal) (b0 b1 : S1024x2048.Idx → EReal)
    (A B : Mat) (i : Fin 2)
    (ha0 : ∀ (p l : Fin 1024), a0 (ix2 p l) = A (grow i p) (lo l))
    (ha1 : ∀ (p l : Fin 1024), a1 (ix2 p l) = A (grow i p) (hi l))
    (hb0 : ∀ (l : Fin 1024) (c : Fin 2048), b0 (ix2 l c) = B (lo l) c)
    (hb1 : ∀ (l : Fin 1024) (c : Fin 2048), b1 (ix2 l c) = B (hi l) c)
    (p : Fin 1024) (c : Fin 2048) :
    ((0 : EReal) + ∑ l : Fin 1024, a0 (ix2 p l) * b0 (ix2 l c)) + ∑ l : Fin 1024, a1 (ix2 p l) * b1 (ix2 l c)
      = mm A B (grow i p) c := by
  have h0 : ∑ l : Fin 1024, a0 (ix2 p l) * b0 (ix2 l c) = ∑ l : Fin 1024, A (grow i p) (lo l) * B (lo l) c :=
    Finset.sum_congr rfl fun l _ => by rw [ha0, hb0]
  have h1 : ∑ l : Fin 1024, a1 (ix2 p l) * b1 (ix2 l c) = ∑ l : Fin 1024, A (grow i p) (hi l) * B (hi l) c :=
    Finset.sum_congr rfl fun l _ => by rw [ha1, hb1]
  rw [zero_add, h0, h1]
  exact (sum_split fun l => A (grow i p) l * B l c).symm

/-! ## Kernel 0 -/

/-- The zero block. -/
theorem k0_pay1_apply (j : S1024x2048.Idx) : k0_pay1 (F := Ideal) j = 0 := by
  unfold k0_pay1
  rw [shapeCast_self]
  exact Ideal.ofBits_zero_f32

/-- One accumulation step at entry (p, c). -/
theorem k0_pay2_apply (a : Vec Ideal S1024x1024 .f32) (b : Vec Ideal S1024x2048 .f32) (acc : Vec Ideal S1024x2048 .f32)
    (p : Fin 1024) (c : Fin 2048) :
    k0_pay2 (F := Ideal) a b acc (ix2 p c) = acc (ix2 p c) + ∑ l : Fin 1024, a (ix2 p l) * b (ix2 l c) := by
  unfold k0_pay2
  rw [shapeCast_self]
  exact step_apply a b acc p c

/-- The block after both steps holds the product's rows of block i. -/
theorem acc0_apply (a0 a1 : Vec Ideal S1024x1024 .f32) (b0 b1 : Vec Ideal S1024x2048 .f32) (A B : Mat) (i : Fin 2)
    (ha0 : ∀ (p l : Fin 1024), a0 (ix2 p l) = A (grow i p) (lo l))
    (ha1 : ∀ (p l : Fin 1024), a1 (ix2 p l) = A (grow i p) (hi l))
    (hb0 : ∀ (l : Fin 1024) (c : Fin 2048), b0 (ix2 l c) = B (lo l) c)
    (hb1 : ∀ (l : Fin 1024) (c : Fin 2048), b1 (ix2 l c) = B (hi l) c)
    (p : Fin 1024) (c : Fin 2048) :
    k0_pay2 (F := Ideal) a1 b1 (k0_pay2 (F := Ideal) a0 b0 (k0_pay1 (F := Ideal))) (ix2 p c)
      = Cert.Spec.mm A B (grow i p) c := by
  rw [k0_pay2_apply, k0_pay2_apply, k0_pay1_apply]
  exact acc_sum a0 a1 b0 b1 A B i ha0 ha1 hb0 hb1 p c

/-! ## Kernel 1 -/

/-- The zero block. -/
theorem k1_pay1_apply (j : S1024x2048.Idx) : k1_pay1 (F := Ideal) j = 0 := by
  unfold k1_pay1
  rw [shapeCast_self]
  exact Ideal.ofBits_zero_f32

/-- One accumulation step at entry (p, c). -/
theorem k1_pay2_apply (a : Vec Ideal S1024x1024 .f32) (b : Vec Ideal S1024x2048 .f32) (acc : Vec Ideal S1024x2048 .f32)
    (p : Fin 1024) (c : Fin 2048) :
    k1_pay2 (F := Ideal) a b acc (ix2 p c) = acc (ix2 p c) + ∑ l : Fin 1024, a (ix2 p l) * b (ix2 l c) := by
  unfold k1_pay2
  rw [shapeCast_self]
  exact step_apply a b acc p c

/-- The block after both steps holds the product's rows of block i. -/
theorem acc1_apply (a0 a1 : Vec Ideal S1024x1024 .f32) (b0 b1 : Vec Ideal S1024x2048 .f32) (A B : Mat) (i : Fin 2)
    (ha0 : ∀ (p l : Fin 1024), a0 (ix2 p l) = A (grow i p) (lo l))
    (ha1 : ∀ (p l : Fin 1024), a1 (ix2 p l) = A (grow i p) (hi l))
    (hb0 : ∀ (l : Fin 1024) (c : Fin 2048), b0 (ix2 l c) = B (lo l) c)
    (hb1 : ∀ (l : Fin 1024) (c : Fin 2048), b1 (ix2 l c) = B (hi l) c)
    (p : Fin 1024) (c : Fin 2048) :
    k1_pay2 (F := Ideal) a1 b1 (k1_pay2 (F := Ideal) a0 b0 (k1_pay1 (F := Ideal))) (ix2 p c)
      = Cert.Spec.mm A B (grow i p) c := by
  rw [k1_pay2_apply, k1_pay2_apply, k1_pay1_apply]
  exact acc_sum a0 a1 b0 b1 A B i ha0 ha1 hb0 hb1 p c

/-! ## Kernel 2 -/

/-- The zero block. -/
theorem k2_pay1_apply (j : S1024x2048.Idx) : k2_pay1 (F := Ideal) j = 0 := by
  unfold k2_pay1
  rw [shapeCast_self]
  exact Ideal.ofBits_zero_f32

/-- One accumulation step at entry (p, c). -/
theorem k2_pay2_apply (a : Vec Ideal S1024x1024 .f32) (b : Vec Ideal S1024x2048 .f32) (acc : Vec Ideal S1024x2048 .f32)
    (p : Fin 1024) (c : Fin 2048) :
    k2_pay2 (F := Ideal) a b acc (ix2 p c) = acc (ix2 p c) + ∑ l : Fin 1024, a (ix2 p l) * b (ix2 l c) := by
  unfold k2_pay2
  rw [shapeCast_self]
  exact step_apply (truncf .bf16 a bitsLt_bf16_f32) (truncf .bf16 b bitsLt_bf16_f32) acc p c

/-- The block after both steps holds the product's rows of block i. -/
theorem acc2_apply (a0 a1 : Vec Ideal S1024x1024 .f32) (b0 b1 : Vec Ideal S1024x2048 .f32) (A B : Mat) (i : Fin 2)
    (ha0 : ∀ (p l : Fin 1024), a0 (ix2 p l) = A (grow i p) (lo l))
    (ha1 : ∀ (p l : Fin 1024), a1 (ix2 p l) = A (grow i p) (hi l))
    (hb0 : ∀ (l : Fin 1024) (c : Fin 2048), b0 (ix2 l c) = B (lo l) c)
    (hb1 : ∀ (l : Fin 1024) (c : Fin 2048), b1 (ix2 l c) = B (hi l) c)
    (p : Fin 1024) (c : Fin 2048) :
    k2_pay2 (F := Ideal) a1 b1 (k2_pay2 (F := Ideal) a0 b0 (k2_pay1 (F := Ideal))) (ix2 p c)
      = Cert.Spec.mm A B (grow i p) c := by
  rw [k2_pay2_apply, k2_pay2_apply, k2_pay1_apply]
  exact acc_sum a0 a1 b0 b1 A B i ha0 ha1 hb0 hb1 p c

/-- Rounding the finished block to the narrower format changes no value. -/
theorem k2_pay3_apply (v : Vec Ideal S1024x2048 .f32) (j : S1024x2048.Idx) : k2_pay3 (F := Ideal) v j = v j := rfl

/-- The rounded block after both steps holds the product's rows of block i. -/
theorem out2_apply (a0 a1 : Vec Ideal S1024x1024 .f32) (b0 b1 : Vec Ideal S1024x2048 .f32) (A B : Mat) (i : Fin 2)
    (ha0 : ∀ (p l : Fin 1024), a0 (ix2 p l) = A (grow i p) (lo l))
    (ha1 : ∀ (p l : Fin 1024), a1 (ix2 p l) = A (grow i p) (hi l))
    (hb0 : ∀ (l : Fin 1024) (c : Fin 2048), b0 (ix2 l c) = B (lo l) c)
    (hb1 : ∀ (l : Fin 1024) (c : Fin 2048), b1 (ix2 l c) = B (hi l) c)
    (p : Fin 1024) (c : Fin 2048) :
    k2_pay3 (F := Ideal) (k2_pay2 (F := Ideal) a1 b1 (k2_pay2 (F := Ideal) a0 b0 (k2_pay1 (F := Ideal)))) (ix2 p c)
      = Cert.Spec.mm A B (grow i p) c :=
  (k2_pay3_apply _ _).trans (acc2_apply a0 a1 b0 b1 A B i ha0 ha1 hb0 hb1 p c)

/-! ## Kernel 3 -/

/-- The zero block. -/
theorem k3_pay1_apply (j : S1024x2048.Idx) : k3_pay1 (F := Ideal) j = 0 := by
  unfold k3_pay1
  rw [shapeCast_self]
  exact Ideal.ofBits_zero_f32

/-- One accumulation step at entry (p, c). -/
theorem k3_pay2_apply (a : Vec Ideal S1024x1024 .f32) (b : Vec Ideal S1024x2048 .f32) (acc : Vec Ideal S1024x2048 .f32)
    (p : Fin 1024) (c : Fin 2048) :
    k3_pay2 (F := Ideal) a b acc (ix2 p c) = acc (ix2 p c) + ∑ l : Fin 1024, a (ix2 p l) * b (ix2 l c) := by
  unfold k3_pay2
  rw [shapeCast_self, shapeCast_self, shapeCast_self]
  exact step_apply a b acc p c

/-- The block after both steps holds the product's rows of block i. -/
theorem acc3_apply (a0 a1 : Vec Ideal S1024x1024 .f32) (b0 b1 : Vec Ideal S1024x2048 .f32) (A B : Mat) (i : Fin 2)
    (ha0 : ∀ (p l : Fin 1024), a0 (ix2 p l) = A (grow i p) (lo l))
    (ha1 : ∀ (p l : Fin 1024), a1 (ix2 p l) = A (grow i p) (hi l))
    (hb0 : ∀ (l : Fin 1024) (c : Fin 2048), b0 (ix2 l c) = B (lo l) c)
    (hb1 : ∀ (l : Fin 1024) (c : Fin 2048), b1 (ix2 l c) = B (hi l) c)
    (p : Fin 1024) (c : Fin 2048) :
    k3_pay2 (F := Ideal) a1 b1 (k3_pay2 (F := Ideal) a0 b0 (k3_pay1 (F := Ideal))) (ix2 p c)
      = Cert.Spec.mm A B (grow i p) c := by
  rw [k3_pay2_apply, k3_pay2_apply, k3_pay1_apply]
  exact acc_sum a0 a1 b0 b1 A B i ha0 ha1 hb0 hb1 p c

/-! ## Kernel 4 -/

/-- The zero block. -/
theorem k4_pay1_apply (j : S1024x2048.Idx) : k4_pay1 (F := Ideal) j = 0 := by
  unfold k4_pay1
  rw [shapeCast_self]
  exact Ideal.ofBits_zero_f32

/-- One accumulation step at entry (p, c). -/
theorem k4_pay2_apply (a : Vec Ideal S1024x1024 .bf16) (b : Vec Ideal S1024x2048 .bf16) (acc : Vec Ideal S1024x2048 .f32)
    (p : Fin 1024) (c : Fin 2048) :
    k4_pay2 (F := Ideal) a b acc (ix2 p c) = acc (ix2 p c) + ∑ l : Fin 1024, a (ix2 p l) * b (ix2 l c) := by
  unfold k4_pay2
  rw [shapeCast_self, shapeCast_self, shapeCast_self]
  exact step_apply a b acc p c

/-- The block after both steps holds the product's rows of block i. -/
theorem acc4_apply (a0 a1 : Vec Ideal S1024x1024 .bf16) (b0 b1 : Vec Ideal S1024x2048 .bf16) (A B : Mat) (i : Fin 2)
    (ha0 : ∀ (p l : Fin 1024), a0 (ix2 p l) = A (grow i p) (lo l))
    (ha1 : ∀ (p l : Fin 1024), a1 (ix2 p l) = A (grow i p) (hi l))
    (hb0 : ∀ (l : Fin 1024) (c : Fin 2048), b0 (ix2 l c) = B (lo l) c)
    (hb1 : ∀ (l : Fin 1024) (c : Fin 2048), b1 (ix2 l c) = B (hi l) c)
    (p : Fin 1024) (c : Fin 2048) :
    k4_pay2 (F := Ideal) a1 b1 (k4_pay2 (F := Ideal) a0 b0 (k4_pay1 (F := Ideal))) (ix2 p c)
      = Cert.Spec.mm A B (grow i p) c := by
  rw [k4_pay2_apply, k4_pay2_apply, k4_pay1_apply]
  exact acc_sum a0 a1 b0 b1 A B i ha0 ha1 hb0 hb1 p c

end Cert.KernelIdeal.BlockVals

end
-- ==== Proof.LibHostSoftmax.lean ====
/-
  A row softmax on the extended reals, and the host operations that compute it over a stack of matrices, read at an index.

  For a row T of n extended reals the row maximum is the running maximum from −∞, and the softmax entry at q is
  exp (T q − max) divided by the sum over the row of those exponentials.

  Layouts: a scalar spread over any shape; a [G, a] array given a trailing unit axis and spread over b columns reads
  (g, p) at (g, p, q); an [a, b] matrix given a leading unit axis and spread over G members reads (p, q) at (g, p, q).
  Reductions along the last axis of a [G, a, b] stack at (g, p): the maximum is the running maximum of the row from the
  initial value, the sum is the initial value plus the row's sum. And the row softmax of a stack assembled from these:
  the host takes the row maximum from −∞ (and once more against −∞), spreads it, subtracts, exponentiates, sums the row
  from 0, spreads the sum and divides; at (g, p, q) that is the softmax of row (g, p) at q.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Attn

open Idealize.ShloMosaic

/-- The pattern of −∞ denotes the bottom element. -/
theorem ofBits_negInf : Ideal.ofBits .f32 0xFF800000#32 = (⊥ : EReal) := by
  simp [Ideal.ofBits, Ideal.ieee]

/-- Taking the maximum with −∞ changes nothing. -/
theorem max_negInf (y : EReal) : max (Ideal.ofBits .f32 0xFF800000#32) y = y := by
  rw [ofBits_negInf]; exact max_eq_right bot_le

/-- The running maximum of a row from −∞. -/
def rowMax {n : ℕ} (T : Fin n → EReal) : EReal :=
  (Finset.univ : Finset (Fin n)).fold max (Ideal.ofBits .f32 0xFF800000#32) T

/-- The softmax of a row, at q. -/
def sm {n : ℕ} (T : Fin n → EReal) (q : Fin n) : EReal :=
  Ideal.div (Ideal.exp (T q - rowMax T)) (∑ q' : Fin n, Ideal.exp (T q' - rowMax T))

end Cert.Attn

namespace Cert.HSoft

open Idealize.ShloMosaic Idealize.ShloMosaic.ValueIdx

/-- A coordinate is 0 when its axis has extent 1. -/
theorem val_ite {n : ℕ} (i : Fin n) : i.val = if n = 1 then 0 else i.val := by
  split
  · have := i.isLt; omega
  · rfl

variable {α : Type}

/-- A scalar spread over a shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A [G, a] array given a trailing unit axis and spread over b columns reads, at (g, p, q), the entry (g, p). -/
theorem bcast_col_apply {G a b : ℕ} (v : (⟨2, ![G, a]⟩ : Shape).Idx → α)
    (h1 : (⟨2, ![G, a]⟩ : Shape).BroadcastsInDim ⟨3, ![G, a, 1]⟩ (![0, 1] : Fin 2 → Fin 3))
    (h2 : (⟨3, ![G, a, 1]⟩ : Shape).BroadcastsInDim ⟨3, ![G, a, b]⟩ (![0, 1, 2] : Fin 3 → Fin 3))
    (g : Fin G) (p : Fin a) (q : Fin b) :
    broadcastInDim ⟨3, ![G, a, b]⟩ ![0, 1, 2] h2 (broadcastInDim ⟨3, ![G, a, 1]⟩ ![0, 1] h1 v) (ix3 g p q) = v (ix2 g p) :=
  (broadcastInDim_apply _ h2 _ (ix3 g p q) (ix3 g p (0 : Fin 1)) fun ax => by
      match ax with
      | ⟨0, _⟩ => exact val_ite g
      | ⟨1, _⟩ => exact val_ite p
      | ⟨2, _⟩ => rfl).trans
    (broadcastInDim_apply _ h1 _ (ix3 g p (0 : Fin 1)) (ix2 g p) fun ax => by
      match ax with
      | ⟨0, _⟩ => exact val_ite g
      | ⟨1, _⟩ => exact val_ite p)

/-- An [a, b] matrix given a leading unit axis and spread over G members reads, at (g, p, q), the entry (p, q). -/
theorem bcast_mat_apply {G a b : ℕ} (v : (⟨2, ![a, b]⟩ : Shape).Idx → α)
    (h1 : (⟨2, ![a, b]⟩ : Shape).BroadcastsInDim ⟨3, ![1, a, b]⟩ (![1, 2] : Fin 2 → Fin 3))
    (h2 : (⟨3, ![1, a, b]⟩ : Shape).BroadcastsInDim ⟨3, ![G, a, b]⟩ (![0, 1, 2] : Fin 3 → Fin 3))
    (g : Fin G) (p : Fin a) (q : Fin b) :
    broadcastInDim ⟨3, ![G, a, b]⟩ ![0, 1, 2] h2 (broadcastInDim ⟨3, ![1, a, b]⟩ ![1, 2] h1 v) (ix3 g p q) = v (ix2 p q) :=
  (broadcastInDim_apply _ h2 _ (ix3 g p q) (ix3 (0 : Fin 1) p q) fun ax => by
      match ax with
      | ⟨0, _⟩ => rfl
      | ⟨1, _⟩ => exact val_ite p
      | ⟨2, _⟩ => exact val_ite q).trans
    (broadcastInDim_apply _ h1 _ (ix3 (0 : Fin 1) p q) (ix2 p q) fun ax => by
      match ax with
      | ⟨0, _⟩ => exact val_ite p
      | ⟨1, _⟩ => exact val_ite q)

/-- The index (g, p) of the reduced stack with the last coordinate put back. -/
theorem lift_last {G a b : ℕ} (h : (⟨3, ![G, a, b]⟩ : Shape).Reduces [2] ⟨2, ![G, a]⟩) (g : Fin G) (p : Fin a)
    (k : Fin ((⟨3, ![G, a, b]⟩ : Shape).size 2)) : h.lift (ix2 g p) k = ix3 g p (⟨k.val, k.isLt⟩ : Fin b) := by
  funext ax; apply Fin.ext
  match ax with
  | ⟨0, _⟩ => rfl
  | ⟨1, _⟩ => rfl
  | ⟨2, _⟩ => rfl

/-- The host's maximum along the last axis of a stack, at (g, p): the running maximum of the row from the initial value. -/
theorem reduce_max_last_apply {G a b : ℕ} (A : FVec Ideal ⟨3, ![G, a, b]⟩ .f32) (init : (⟨0, ![]⟩ : Shape).Idx → Ideal .f32)
    (h' : (⟨3, ![G, a, b]⟩ : Shape).ReducesTo [2] ⟨2, ![G, a]⟩) (h : (⟨3, ![G, a, b]⟩ : Shape).Reduces [2] ⟨2, ![G, a]⟩)
    (hu : 0 < (⟨0, ![]⟩ : Shape).numel) (g : Fin G) (p : Fin a) :
    Host.reduce FloatOps.maximumf A init h' hu (ix2 g p)
      = (Finset.univ : Finset (Fin b)).fold max (init ix0) (fun q => A (ix3 g p q)) := by
  rw [Host.reduce_eq_fold_single FloatOps.maximumf A init h' h hu]
  have hf : (A ∘ h.lift (ix2 g p)) = fun q : Fin b => A (ix3 g p q) := funext fun k => congrArg A (lift_last h g p k)
  have hi : init (Shape.Idx.first hu) = init ix0 := congrArg init (funext fun ax => ax.elim0)
  rw [hi]
  exact congrArg (fun f => Finset.fold max (init ix0) f (Finset.univ : Finset (Fin b))) hf

/-- The host's sum along the last axis of a stack, at (g, p): the initial value plus the row's sum. -/
theorem reduce_add_last_apply {G a b : ℕ} (A : FVec Ideal ⟨3, ![G, a, b]⟩ .f32) (init : (⟨0, ![]⟩ : Shape).Idx → Ideal .f32)
    (h' : (⟨3, ![G, a, b]⟩ : Shape).ReducesTo [2] ⟨2, ![G, a]⟩) (h : (⟨3, ![G, a, b]⟩ : Shape).Reduces [2] ⟨2, ![G, a]⟩)
    (hu : 0 < (⟨0, ![]⟩ : Shape).numel) (g : Fin G) (p : Fin a) :
    Host.reduceAdd A init h' hu (ix2 g p) = init ix0 + ∑ q : Fin b, A (ix3 g p q) := by
  show Ideal.hostReduceAdd h' A (init (Shape.Idx.first hu)) (ix2 g p) = _
  rw [Ideal.hostReduceAdd_single h' h]
  have hi : init (Shape.Idx.first hu) = init ix0 := congrArg init (funext fun ax => ax.elim0)
  rw [hi]
  exact congrArg (init ix0 + ·) (Finset.sum_congr rfl fun k _ => congrArg A (lift_last h g p k))

/-- The host's exponential of a vector, at an index. -/
theorem hexp_apply {s : Shape} (v : FVec Ideal s .f32) (i : s.Idx) : Host.exp v i = Ideal.exp (v i) := rfl

/-- The host's quotient of two vectors, at an index. -/
theorem hdivf_apply {s : Shape} (u v : FVec Ideal s .f32) (i : s.Idx) : Host.divf u v i = Ideal.div (u i) (v i) := rfl

/-- The row softmax of a stack as the host computes it — row maximum from −∞ (and once more against −∞), spread, subtract,
    exponentiate, row sum from 0, spread, divide — at (g, p, q). -/
theorem softmax_apply {G a b : ℕ} (A : FVec Ideal ⟨3, ![G, a, b]⟩ .f32)
    (h' : (⟨3, ![G, a, b]⟩ : Shape).ReducesTo [2] ⟨2, ![G, a]⟩) (h : (⟨3, ![G, a, b]⟩ : Shape).Reduces [2] ⟨2, ![G, a]⟩)
    (hu : 0 < (⟨0, ![]⟩ : Shape).numel)
    (h0 : (⟨0, ![]⟩ : Shape).BroadcastsInDim ⟨2, ![G, a]⟩ (![] : Fin 0 → Fin 2))
    (h1 : (⟨2, ![G, a]⟩ : Shape).BroadcastsInDim ⟨3, ![G, a, 1]⟩ (![0, 1] : Fin 2 → Fin 3))
    (h2 : (⟨3, ![G, a, 1]⟩ : Shape).BroadcastsInDim ⟨3, ![G, a, b]⟩ (![0, 1, 2] : Fin 3 → Fin 3))
    (g : Fin G) (p : Fin a) (q : Fin b) :
    Host.divf (Host.exp (subf A (broadcastInDim ⟨3, ![G, a, b]⟩ ![0, 1, 2] h2 (broadcastInDim ⟨3, ![G, a, 1]⟩ ![0, 1] h1
        (maximumf (broadcastInDim ⟨2, ![G, a]⟩ ![] h0 (constant (F := Ideal) ⟨0, ![]⟩ .f32 0xFF800000#32))
          (Host.reduce FloatOps.maximumf A (constant (F := Ideal) ⟨0, ![]⟩ .f32 0xFF800000#32) h' hu))))))
      (broadcastInDim ⟨3, ![G, a, b]⟩ ![0, 1, 2] h2 (broadcastInDim ⟨3, ![G, a, 1]⟩ ![0, 1] h1
        (Host.reduceAdd (Host.exp (subf A (broadcastInDim ⟨3, ![G, a, b]⟩ ![0, 1, 2] h2 (broadcastInDim ⟨3, ![G, a, 1]⟩ ![0, 1] h1
          (maximumf (broadcastInDim ⟨2, ![G, a]⟩ ![] h0 (constant (F := Ideal) ⟨0, ![]⟩ .f32 0xFF800000#32))
            (Host.reduce FloatOps.maximumf A (constant (F := Ideal) ⟨0, ![]⟩ .f32 0xFF800000#32) h' hu))))))
          (constant (F := Ideal) ⟨0, ![]⟩ .f32 0x00000000#32) h' hu))) (ix3 g p q)
    = Cert.Attn.sm (fun q' => A (ix3 g p q')) q := by
  have hM : ∀ q' : Fin b, (broadcastInDim ⟨3, ![G, a, b]⟩ ![0, 1, 2] h2 (broadcastInDim ⟨3, ![G, a, 1]⟩ ![0, 1] h1
        (maximumf (broadcastInDim ⟨2, ![G, a]⟩ ![] h0 (constant (F := Ideal) ⟨0, ![]⟩ .f32 0xFF800000#32))
          (Host.reduce FloatOps.maximumf A (constant (F := Ideal) ⟨0, ![]⟩ .f32 0xFF800000#32) h' hu)))) (ix3 g p q')
        = Cert.Attn.rowMax (fun q'' => A (ix3 g p q'')) := by
    intro q'
    rw [bcast_col_apply, maximumf_apply, bcast_scalar_apply, reduce_max_last_apply A _ h' h hu]
    exact Cert.Attn.max_negInf _
  rw [hdivf_apply, hexp_apply, subf_apply, hM, bcast_col_apply, reduce_add_last_apply _ _ h' h hu]
  unfold Cert.Attn.sm
  refine congrArg (Ideal.div _) ?_
  show Ideal.ofBits .f32 0x00000000#32 + _ = _
  rw [Ideal.ofBits_zero_f32, zero_add]
  refine Finset.sum_congr rfl fun q' _ => ?_
  rw [hexp_apply, subf_apply, hM]

end Cert.HSoft

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibMaxCols.lean ====
/-
  A matrix's maximum along its rows' entries, read at a coordinate, at the exact (extended-real) reading of the floats.

  For an a × b matrix M the maximum over the columns (axis 1) at row r is the running maximum of M[r, ·] from the
  accumulator's value: the fold of max over the b entries of row r. This is the library's one-axis maximum law with the
  inserted index written by coordinates, stated for any extents a and b — the companion, for axis 1, of the axis-0 form.
  A softmax's row maximum is read this way.
-/
import Idealize.ShloMosaic.PureOps.Ideal.Laws
import Idealize.ShloMosaic.Lib.ValueIdx

noncomputable section

namespace Cert.LibMaxCols

open Idealize.ShloMosaic Idealize.ShloMosaic.ValueIdx

/-- Maximum over the columns of an a × b matrix, at row r: the running maximum of the row from the accumulator's
    value. -/
theorem max_cols_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (Finset.fold_congr fun c _ => congrArg src
      (funext fun ax => Fin.ext (by match ax with | ⟨0, _⟩ => rfl | ⟨1, _⟩ => rfl)))

end Cert.LibMaxCols

end
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.LibKernelSoftmax.lean ====
/-
  The row softmax a kernel body computes on an a × b matrix of extended reals, read at an entry.

  The body takes the maximum of each row (from −∞), views the a maxima as a column, spreads the column over the b
  columns, subtracts, exponentiates, sums each row, spreads the sums the same way and divides. At entry (p, q) this is
  exp (A[p, q] − max_row p) / Σ_q' exp (A[p, q'] − max_row p).
-/
import proofs.«144174_j32117765439601_2_alg».proof.Proof.LibHostSoftmax
import proofs.«144174_j32117765439601_2_alg».proof.Proof.LibColumn
import proofs.«144174_j32117765439601_2_alg».proof.Proof.LibMaxCols
import proofs.«144174_j32117765439601_2_alg».proof.Proof.LibAxisReduce
import Idealize.ShloMosaic.Lib.ValueIdx

noncomputable section

open scoped BigOperators

namespace Cert.KSoft

open Idealize.ShloMosaic Idealize.ShloMosaic.ValueIdx

/-- The exponential of a vector, at an index. -/
theorem exp_apply {s : Shape} {φ : FTy} (v : FVec Ideal s φ) (i : s.Idx) : exp v i = Ideal.exp (v i) := rfl

/-- A vector of a entries viewed as a column and spread over b columns reads, at (p, q), the entry p. -/
theorem col_spread_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  rw [Cert.LibColumn.broadcastTo_a1_ab_apply, Cert.LibColumn.shapeCast_a_a1_apply]

/-- The body's row softmax at entry (p, q). -/
theorem softmax_apply {a b : ℕ} (A : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hm : (0xFF800000#32 : BitVec FTy.f32.bits) = FKind.maximumf.neutral .f32 hφ)
    (hφ' : FKind.Formats .f32) (hs : (0x00000000#32 : BitVec FTy.f32.bits) = FKind.add.neutral .f32 hφ')
    (p : Fin a) (q : Fin b) :
    divf (exp (subf A (broadcastTo ⟨2, ![a, b]⟩ (shapeCast ⟨2, ![a, 1]⟩ (multiReduction .maximumf [1] ⟨1, ![a]⟩ A 0xFF800000#32 hr hφ hm) hc) hb)))
      (broadcastTo ⟨2, ![a, b]⟩ (shapeCast ⟨2, ![a, 1]⟩ (multiReduction .add [1] ⟨1, ![a]⟩
        (exp (subf A (broadcastTo ⟨2, ![a, b]⟩ (shapeCast ⟨2, ![a, 1]⟩ (multiReduction .maximumf [1] ⟨1, ![a]⟩ A 0xFF800000#32 hr hφ hm) hc) hb)))
        0x00000000#32 hr hφ' hs) hc) hb) (ix2 p q)
    = Cert.Attn.sm (fun q' => A (ix2 p q')) q := by
  rw [divf_apply, exp_apply, subf_apply, col_spread_apply, col_spread_apply, Cert.LibMaxCols.max_cols_apply,
    Cert.LibAxisReduce.add_cols_apply]
  unfold Cert.Attn.sm Cert.Attn.rowMax
  refine congrArg (Ideal.div _) (Finset.sum_congr rfl fun q' _ => ?_)
  rw [exp_apply, subf_apply, col_spread_apply, Cert.LibMaxCols.max_cols_apply]

end Cert.KSoft

end
-- ==== Proof.BlockSoftmax.lean ====
/-
  The row softmax the fourth kernel applies to its finished block, over the extended reals.

  The block holds 1024 whole rows (all 2048 columns) of a matrix T.  The kernel takes each row's largest entry as the
  running maximum from minus infinity, spreads it along the row, subtracts, exponentiates, sums each row from zero,
  spreads the sum, divides, and rounds to a narrower format (no change of value here).  Since a row of the block is a
  whole row of T, entry (p, c) is the row softmax of T at row 1024 i + p and column c: the exponential of the entry
  less the row's largest entry, over the sum of those exponentials along the row.
-/
import proofs.«144174_j32117765439601_2_alg».proof.Proof.BlockVals
import proofs.«144174_j32117765439601_2_alg».proof.Proof.LibKernelSoftmax

noncomputable section

open scoped BigOperators

namespace Cert.KernelIdeal.BlockVals

open Cert.KernelIdeal Cert.KernelIdeal.Gen Cert.Spec Idealize.ShloMosaic Idealize.ShloMosaic.ValueIdx

/-- The running maximum of a row from the pattern of minus infinity is the running maximum from the bottom element. -/
theorem attn_rowMax_eq (T : Mat) (r : Fin 2048) : Cert.Attn.rowMax (T r) = Cert.Spec.rowMax T r := by
  unfold Cert.Attn.rowMax Cert.Spec.rowMax
  rw [Cert.Attn.ofBits_negInf]

/-- The softmax of one row of T is the row softmax of T at that row. -/
theorem attn_sm_eq (T : Mat) (r c : Fin 2048) : Cert.Attn.sm (T r) c = Cert.Spec.sm T r c := by
  unfold Cert.Attn.sm Cert.Spec.sm Cert.Spec.ex
  rw [attn_rowMax_eq]

/-- The kernel's softmax of a block that holds the rows of block i of T, at entry (p, c). -/
theorem k3_pay3_apply (v : Vec Ideal S1024x2048 .f32) (T : Mat) (i : Fin 2)
    (hv : ∀ (p : Fin 1024) (c : Fin 2048), v (ix2 p c) = T (grow i p) c) (p : Fin 1024) (c : Fin 2048) :
    k3_pay3 (F := Ideal) v (ix2 p c) = Cert.Spec.sm T (grow i p) c := by
  unfold k3_pay3
  rw [truncf_apply]
  refine (Cert.KSoft.softmax_apply v _ _ _ _ _ _ _ p c).trans ?_
  have hrow : (fun q' : Fin 2048 => v (ix2 p q')) = T (grow i p) := funext fun q' => hv p q'
  rw [hrow]
  exact attn_sm_eq T (grow i p) c

/-- The softmaxed block after both accumulation steps holds the row softmax of the product, rows of block i. -/
theorem out3_apply (a0 a1 : Vec Ideal S1024x1024 .f32) (b0 b1 : Vec Ideal S1024x2048 .f32) (A B : Mat) (i : Fin 2)
    (ha0 : ∀ (p l : Fin 1024), a0 (ix2 p l) = A (grow i p) (lo l))
    (ha1 : ∀ (p l : Fin 1024), a1 (ix2 p l) = A (grow i p) (hi l))
    (hb0 : ∀ (l : Fin 1024) (c : Fin 2048), b0 (ix2 l c) = B (lo l) c)
    (hb1 : ∀ (l : Fin 1024) (c : Fin 2048), b1 (ix2 l c) = B (hi l) c)
    (p : Fin 1024) (c : Fin 2048) :
    k3_pay3 (F := Ideal) (k3_pay2 (F := Ideal) a1 b1 (k3_pay2 (F := Ideal) a0 b0 (k3_pay1 (F := Ideal)))) (ix2 p c)
      = Cert.Spec.sm (Cert.Spec.mm A B) (grow i p) c :=
  k3_pay3_apply _ (Cert.Spec.mm A B) i (fun p c => acc3_apply a0 a1 b0 b1 A B i ha0 ha1 hb0 hb1 p c) p c

end Cert.KernelIdeal.BlockVals

end
-- ==== Proof.KI.R0Value.lean ====
/-
  Kernel 0: the value of its output array after the region is the matrix product of its two argument
  matrices.  Row block i of the output is stored at the odd point of the block's two points; there it holds
  zero plus the product over the first half of the contracted axis plus the product over the second half.
-/
import proofs.«144174_j32117765439601_2_alg».proof.Proof.KI.R0Pieces
import proofs.«144174_j32117765439601_2_alg».proof.Proof.KI.R0Blocks
import proofs.«144174_j32117765439601_2_alg».proof.Proof.Spec
import proofs.«144174_j32117765439601_2_alg».proof.Proof.BlockVals
import proofs.«144174_j32117765439601_2_alg».proof.Proof.BlockSoftmax
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.Spec Cert.KernelIdeal.BlockVals

variable (V : (c : Dev nD) → (b : Ref sig .tc) → Buf (Elt Ideal) ((c : Thread nD τ).loc b))

/-- The output array, read as a matrix, is the product of the two argument matrices: at the odd point of row
    block i the output block holds the two half products added, with the first point's input blocks the first
    half of the contracted axis and the second point's the second half. -/
theorem value0 (c : Dev nD) :
    toMat ((dat0 V c).arrAt 2 cfg0.N) = mm (toMat (V c main_arg0)) (toMat (V c main_arg1)) := by
  refine value0_of V c _ fun t ht p q => ?_
  have hN : t.val < 4 := lt_four0 t
  rw [after0_2, after0_odd V c t ht]
  refine (acc0_apply _ _ _ _ (toMat (V c main_arg0)) (toMat (V c main_arg1)) ⟨t.val / 2, by omega⟩ ?_ ?_ ?_ ?_ p q).trans ?_
  · intro p l
    rw [iblk0_0_apply]
    exact congrArg₂ _ (Fin.ext (by show 1024 * ((t.val - 1) / 2) + p.val = 1024 * (t.val / 2) + p.val; omega))
      (Fin.ext (by show 1024 * ((t.val - 1) % 2) + l.val = l.val; omega))
  · intro p l
    rw [iblk0_0_apply]
    exact congrArg₂ _ (Fin.ext (by show 1024 * (t.val / 2) + p.val = 1024 * (t.val / 2) + p.val; rfl))
      (Fin.ext (by show 1024 * (t.val % 2) + l.val = 1024 + l.val; omega))
  · intro l q
    rw [iblk0_1_apply]
    exact congrArg (fun r => toMat (V c main_arg1) r q)
      (Fin.ext (by show 1024 * ((t.val - 1) % 2) + l.val = l.val; omega))
  · intro l q
    rw [iblk0_1_apply]
    exact congrArg (fun r => toMat (V c main_arg1) r q)
      (Fin.ext (by show 1024 * (t.val % 2) + l.val = 1024 + l.val; omega))
  · rfl

end Cert.KernelIdeal.Hand

end
-- ==== Proof.KI.R1Pieces.lean ====
/-
  Kernel 1: what each of the two steps leaves in the accumulator and in the output block, as terms of the
  step's two input blocks and of what the step before left; and, from these, the output block after an odd
  point: the zero block plus the block product of the point before plus the block product of the point.
-/
import proofs.«144174_j32117765439601_2_alg».proof.Proof.KI.R1Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each step leaves -/

theorem hz1 : (![0, 0] : Fin 2 → Nat) = fun _ => 0 := funext fun a => by fin_cases a <;> rfl

/-- Step 0 leaves in the accumulator the zero block plus the product of the two input blocks. -/
theorem soutA1_eq (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : cond1_0 i) (hc1 : ¬cond1_1 i)
    (x0 : Vec F S1024x1024 .f32) (x1 : Vec F S1024x2048 .f32) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  try sl_unfold_words
  rw [View.canon_cons_unit_zero hz1]
  simp only [View.readAt_eq_ld, harg2.read_unread, harg3.read_unread, harg5.read_unread,
    View.ld_unit_zero (S := S1024x1024) hz1, View.ld_unit_zero (S := S1024x2048) hz1,
    View.readCov_unit_zero (S := S1024x2048) _ hz1]

/-- Step 1 leaves in the accumulator what the step before left plus the product of the two input blocks. -/
theorem soutB1_eq (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  try sl_unfold_words
  rw [View.canon_unit_zero hz1]
  simp only [View.readAt_eq_ld, harg2.read_unread, harg3.read_unread, harg5.read_unread,
    View.ld_unit_zero (S := S1024x1024) hz1, View.ld_unit_zero (S := S1024x2048) hz1,
    View.readCov_unit_zero (S := S1024x2048) _ hz1]

/-- Step 1 stores the accumulator's new contents into the output block. -/
theorem outB1_eq (c : Dev nD) (i : grid1.Coords) (arg2 : Memref sig .tc .vmem S1024x1024 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond1_0 i) (hc1 : cond1_1 i)
    (x0 : Vec F S1024x1024 .f32) (x1 : Vec F S1024x2048 .f32) (xs0 : Vec F S1024x2048 .f32) :
    out1_B_2 c i arg2 harg2 arg3 harg3 arg4 harg4 arg5 harg5 hc0 hc1 x0 x1 xs0 = k1_pay2 x0 x1 xs0 := by
  unfold out1_B_2
  rw [View.read_writes_eq_canon _ _ _ (cover1_B_2 c i arg2 harg2 arg3 harg3 arg4 harg4 arg5 harg5 hc0 hc1 x0 x1 xs0)]
  unfold kernelRun1_B
  dsimp only
  try sl_unfold_words
  rw [View.canon_unit_zero hz1]
  simp only [View.readAt_eq_ld, harg2.read_unread, harg3.read_unread, harg5.read_unread,
    View.ld_unit_zero (S := S1024x1024) hz1, View.ld_unit_zero (S := S1024x2048) hz1,
    View.readCov_unit_zero (S := S1024x2048) _ hz1]

/-! ## The accumulation over a row block's two points -/

section
variable (V : (c : Dev nD) → (b : Ref sig .tc) → Buf (Elt F) ((c : Thread nD τ).loc b))

/-- After an even point the accumulator holds the zero block plus the product of the point's two input blocks. -/
theorem sndAt1_even (c : Dev nD) (t : Fin cfg1.N) (h0 : t.val % 2 = 0) :
    (outsAt1 V c t.val t.isLt).2 = k1_pay2 (iblk1 V c 0 t) (iblk1 V c 1 t) (k1_pay1 (F := F)) := by
  rw [outsAt1_A V c t h0]
  dsimp only
  rw [soutA1_eq]

/-- After an odd point the output block holds the zero block plus the product of the two input blocks of the
    point before plus the product of the point's own two. -/
theorem after1_odd (c : Dev nD) (t : Fin cfg1.N) (h : t.val % 2 = 1) :
    (outsAt1 V c t.val t.isLt).1
      = k1_pay2 (iblk1 V c 0 t) (iblk1 V c 1 t)
          (k1_pay2 (iblk1 V c 0 ⟨t.val - 1, Nat.lt_of_le_of_lt (Nat.sub_le _ _) t.isLt⟩)
            (iblk1 V c 1 ⟨t.val - 1, Nat.lt_of_le_of_lt (Nat.sub_le _ _) t.isLt⟩) (k1_pay1 (F := F))) := by
  rw [outsAt1_B V c t (by omega)]
  dsimp only
  rw [outB1_eq]
  exact congrArg (fun acc => k1_pay2 (iblk1 V c 0 t) (iblk1 V c 1 t) acc) (sndAt1_even V c ⟨t.val - 1, Nat.lt_of_le_of_lt (Nat.sub_le _ _) t.isLt⟩
    (by show (t.val - 1) % 2 = 0; omega))

end

end Cert.KernelIdeal.Hand

end
-- ==== Proof.KI.R1Blocks.lean ====
/-
  Kernel 1's blocks as parts of its arrays, over the extended reals.

  The grid is 2 x 2: point t has row block t / 2 and contraction step t % 2.  The first operand's block at point t is
  the 1024 x 1024 block (t / 2, t % 2) of its 2048 x 2048 array: entry (p, l) of the block is entry
  (1024 (t / 2) + p, 1024 (t % 2) + l) of the array.  The second operand's block is the 1024 x 2048 block (t % 2, 0):
  entry (l, q) is entry (1024 (t % 2) + l, q).  The result's block is the 1024 x 2048 block (t / 2, 0), written back at
  the odd points; the two odd points' blocks are the upper and the lower half of the result array, so if what each odd
  point writes back is rows 1024 (t / 2) ... of a matrix G, the array ends holding G: row r is written by the odd point
  2 (r / 1024) + 1.
-/
import proofs.«144174_j32117765439601_2_alg».proof.Proof.KI.R1Frame
import proofs.«144174_j32117765439601_2_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable (V : (c : Dev nD) → (b : Ref sig .tc) → Buf (Elt Ideal) ((c : Thread nD τ).loc b))

/-! ## The block indices over the grid -/

/-- The grid has four points. -/
theorem lt_four1 (t : Fin cfg1.N) : t.val < 4 := lt_of_lt_of_eq t.isLt (show cfg1.N = 4 from N_1)

/-- The first operand's block index at point t: (row block, contraction step). -/
theorem blockIdx1_0 : ∀ t : Fin cfg1.N, win1_0.index t (0 : Fin 2) = t.val / 2 ∧ win1_0.index t (1 : Fin 2) = t.val % 2 :=
  (by decide +kernel : ∀ t : Fin grid1.N, win1_0.index t (0 : Fin 2) = t.val / 2 ∧ win1_0.index t (1 : Fin 2) = t.val % 2)

/-- The second operand's block index at point t: (contraction step, 0). -/
theorem blockIdx1_1 : ∀ t : Fin cfg1.N, win1_1.index t (0 : Fin 2) = t.val % 2 ∧ win1_1.index t (1 : Fin 2) = 0 :=
  (by decide +kernel : ∀ t : Fin grid1.N, win1_1.index t (0 : Fin 2) = t.val % 2 ∧ win1_1.index t (1 : Fin 2) = 0)

/-- The result's block index at point t: (row block, 0). -/
theorem blockIdx1_2 : ∀ t : Fin cfg1.N, win1_2.index t (0 : Fin 2) = t.val / 2 ∧ win1_2.index t (1 : Fin 2) = 0 :=
  (by decide +kernel : ∀ t : Fin grid1.N, win1_2.index t (0 : Fin 2) = t.val / 2 ∧ win1_2.index t (1 : Fin 2) = 0)

/-! ## The input blocks read at an entry -/

/-- The first operand's block at point t, at an index x, is its array at the index k whose coordinates are the
    block's offsets plus x's. -/
theorem iblk1_0_at (c : Dev nD) (t : Fin cfg1.N) (x : S1024x1024.Idx) (k : S2048x2048.Idx)
    (hk0 : (k 0).val = 1024 * (t.val / 2) + (x 0).val) (hk1 : (k 1).val = 1024 * (t.val % 2) + (x 1).val) :
    (iblk1 V c 0 t : Vec Ideal S1024x1024 .f32) x = (V c main_arg0 : S2048x2048.Idx → Elt Ideal .f32) k := by
  obtain ⟨e0, e1⟩ := blockIdx1_0 t
  unfold iblk1
  rw [View.read_apply]
  show V c main_arg0 _ = V c main_arg0 _
  congr 1
  funext a
  apply Fin.ext
  match a with
  | ⟨0, _⟩ => show win1_0.index t 0 * 1024 + 1 * (x 0).val = (k 0).val; rw [e0, hk0]; omega
  | ⟨1, _⟩ => show win1_0.index t 1 * 1024 + 1 * (x 1).val = (k 1).val; rw [e1, hk1]; omega

/-- The second operand's block at point t, at an index x, is its array at the index k whose coordinates are the
    block's offsets plus x's. -/
theorem iblk1_1_at (c : Dev nD) (t : Fin cfg1.N) (x : S1024x2048.Idx) (k : S2048x2048.Idx)
    (hk0 : (k 0).val = 1024 * (t.val % 2) + (x 0).val) (hk1 : (k 1).val = (x 1).val) :
    (iblk1 V c 1 t : Vec Ideal S1024x2048 .f32) x = (V c main_arg2 : S2048x2048.Idx → Elt Ideal .f32) k := by
  obtain ⟨e0, e1⟩ := blockIdx1_1 t
  unfold iblk1
  rw [View.read_apply]
  show V c main_arg2 _ = V c main_arg2 _
  congr 1
  funext a
  apply Fin.ext
  match a with
  | ⟨0, _⟩ => show win1_1.index t 0 * 1024 + 1 * (x 0).val = (k 0).val; rw [e0, hk0]; omega
  | ⟨1, _⟩ => show win1_1.index t 1 * 2048 + 1 * (x 1).val = (k 1).val; rw [e1, hk1]; omega

/-- Entry (p, l) of the first operand's block at point t is entry (1024 (t / 2) + p, 1024 (t % 2) + l) of its array. -/
theorem iblk1_0_apply (c : Dev nD) (t : Fin cfg1.N) (p l : Fin 1024) :
    (iblk1 V c 0 t : Vec Ideal S1024x1024 .f32) (ix2 p l)
      = Cert.Spec.toMat (V c main_arg0) ⟨1024 * (t.val / 2) + p.val, by have := lt_four1 t; omega⟩
          ⟨1024 * (t.val % 2) + l.val, by omega⟩ :=
  iblk1_0_at V c t (ix2 p l) (ix2 _ _) rfl rfl

/-- Entry (l, q) of the second operand's block at point t is entry (1024 (t % 2) + l, q) of its array. -/
theorem iblk1_1_apply (c : Dev nD) (t : Fin cfg1.N) (l : Fin 1024) (q : Fin 2048) :
    (iblk1 V c 1 t : Vec Ideal S1024x2048 .f32) (ix2 l q)
      = Cert.Spec.toMat (V c main_arg2) ⟨1024 * (t.val % 2) + l.val, by omega⟩ q :=
  iblk1_1_at V c t (ix2 l q) (ix2 _ _) rfl rfl

/-! ## From the result's blocks to the result array -/

/-- A matrix as contents of the result array. -/
def arrOf1 (G : Cert.Spec.Mat) : S2048x2048.Idx → Elt Ideal .f32 :=
  fun j => G ⟨(j 0).val, (j 0).isLt⟩ ⟨(j 1).val, (j 1).isLt⟩

/-- Read back as a matrix, it is the matrix. -/
theorem toMat_arrOf1 (G : Cert.Spec.Mat) : Cert.Spec.toMat (arrOf1 G) = G := rfl

/-- The result's block at point t sits at rows 1024 (t / 2) ... and all columns of the array. -/
theorem blk1_2_emb (t : Fin cfg1.N) (j : ((cfg1.win 2).xblock (grid1.coords t)).Idx) :
    ((((cfg1.win 2).blk t).view.emb j) 0).val = 1024 * (t.val / 2) + (j 0).val
      ∧ ((((cfg1.win 2).blk t).view.emb j) 1).val = (j 1).val := by
  obtain ⟨e0, e1⟩ := blockIdx1_2 t
  constructor
  · show win1_2.index t 0 * 1024 + 1 * (j 0).val = _
    rw [e0]; omega
  · show win1_2.index t 1 * 2048 + 1 * (j 1).val = _
    rw [e1]; omega

/-- What an odd point writes back is its block of the matrix G, when the body leaves there the rows of G of the
    point's row block. -/
theorem flushed1_2_eq (c : Dev nD) (G : Cert.Spec.Mat)
    (hout : ∀ (t : Fin cfg1.N), t.val % 2 = 1 → ∀ (p : Fin 1024) (q : Fin 2048),
      ((dat1 V c).after 2 t : Vec Ideal S1024x2048 .f32) (ix2 p q)
        = G ⟨1024 * (t.val / 2) + p.val, by have := lt_four1 t; omega⟩ q)
    (t : Fin cfg1.N) (hf : (cfg1.win 2).flush t = true) :
    (dat1 V c).flushed 2 t = ((cfg1.win 2).blk t).view.read (Elt Ideal) (arrOf1 G) := by
  have h1 : t.val % 2 = 1 := (flush1_2 t).mp hf
  show (cfg1.win 2).cut (grid1.coords t) ((dat1 V c).after 2 t) = _
  funext j
  have hj0 : (j 0).val < 1024 := (j 0).isLt
  have hj1 : (j 1).val < 2048 := (j 1).isLt
  obtain ⟨m0, m1⟩ := blk1_2_emb t j
  rw [View.read_apply]
  have hx : (cfg1.win 2).xinj (grid1.coords t) j = ix2 (⟨(j 0).val, hj0⟩ : Fin 1024) (⟨(j 1).val, hj1⟩ : Fin 2048) :=
    funext fun a => by match a with | ⟨0, _⟩ => rfl | ⟨1, _⟩ => rfl
  show ((dat1 V c).after 2 t : Vec Ideal S1024x2048 .f32) ((cfg1.win 2).xinj (grid1.coords t) j)
    = arrOf1 G (((cfg1.win 2).blk t).view.emb j)
  rw [hx, hout t h1]
  unfold arrOf1
  congr 1
  · exact Fin.ext m0.symm
  · exact Fin.ext m1.symm

/-- Every entry of the result array is in the block some odd point writes back: row r is in the block of point
    2 (r / 1024) + 1. -/
theorem cover1_2 (i : S2048x2048.Idx) :
    ∃ t : Fin cfg1.N, (cfg1.win 2).flush t = true ∧ i ∈ ((cfg1.win 2).blk t).view.set := by
  have h0 : (i 0 : Nat) < 2048 := (i 0).isLt
  have h1 : (i 1 : Nat) < 2048 := (i 1).isLt
  have hN : cfg1.N = 4 := N_1
  let t : Fin cfg1.N := ⟨2 * ((i 0 : Nat) / 1024) + 1, by rw [hN]; omega⟩
  have ht : t.val = 2 * ((i 0 : Nat) / 1024) + 1 := rfl
  obtain ⟨e0, e1⟩ := blockIdx1_2 t
  refine ⟨t, (flush1_2 t).mpr (by rw [ht]; omega), ?_⟩
  show i ∈ ((View.whole main_v1).slice (win1_2.rect t)).set
  rw [View.set_slice_whole, Rect.mem_set_unit]
  intro a
  match a with
  | ⟨0, _⟩ =>
    show win1_2.index t 0 * 1024 ≤ (i 0 : Nat) ∧ (i 0 : Nat) < win1_2.index t 0 * 1024 + 1024
    rw [e0, ht]; omega
  | ⟨1, _⟩ =>
    show win1_2.index t 1 * 2048 ≤ (i 1 : Nat) ∧ (i 1 : Nat) < win1_2.index t 1 * 2048 + 2048
    rw [e1]; omega

/-- So the result array ends holding G. -/
theorem value1_of (c : Dev nD) (G : Cert.Spec.Mat)
    (hout : ∀ (t : Fin cfg1.N), t.val % 2 = 1 → ∀ (p : Fin 1024) (q : Fin 2048),
      ((dat1 V c).after 2 t : Vec Ideal S1024x2048 .f32) (ix2 p q)
        = G ⟨1024 * (t.val / 2) + p.val, by have := lt_four1 t; omega⟩ q) :
    Cert.Spec.toMat ((dat1 V c).arrAt 2 cfg1.N) = G := by
  have hfin : (dat1 V c).arrAt 2 cfg1.N = arrOf1 G :=
    (dat1 V c).arrAt_eq_of_cover 2 (arrOf1 G) (flushed1_2_eq V c G hout) cover1_2
  rw [hfin]
  exact toMat_arrOf1 G

end Cert.KernelIdeal.Hand

end
-- ==== Proof.KI.R1Value.lean ====
/-
  Kernel 1: the value of its output array after the region is the matrix product of its two argument
  matrices.  Row block i of the output is stored at the odd point of the block's two points; there it holds
  zero plus the product over the first half of the contracted axis plus the product over the second half.
-/
import proofs.«144174_j32117765439601_2_alg».proof.Proof.KI.R1Pieces
import proofs.«144174_j32117765439601_2_alg».proof.Proof.KI.R1Blocks
import proofs.«144174_j32117765439601_2_alg».proof.Proof.Spec
import proofs.«144174_j32117765439601_2_alg».proof.Proof.BlockVals
import proofs.«144174_j32117765439601_2_alg».proof.Proof.BlockSoftmax
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.Spec Cert.KernelIdeal.BlockVals

variable (V : (c : Dev nD) → (b : Ref sig .tc) → Buf (Elt Ideal) ((c : Thread nD τ).loc b))

/-- The output array, read as a matrix, is the product of the two argument matrices: at the odd point of row
    block i the output block holds the two half products added, with the first point's input blocks the first
    half of the contracted axis and the second point's the second half. -/
theorem value1 (c : Dev nD) :
    toMat ((dat1 V c).arrAt 2 cfg1.N) = mm (toMat (V c main_arg0)) (toMat (V c main_arg2)) := by
  refine value1_of V c _ fun t ht p q => ?_
  have hN : t.val < 4 := lt_four1 t
  rw [after1_2, after1_odd V c t ht]
  refine (acc1_apply _ _ _ _ (toMat (V c main_arg0)) (toMat (V c main_arg2)) ⟨t.val / 2, by omega⟩ ?_ ?_ ?_ ?_ p q).trans ?_
  · intro p l
    rw [iblk1_0_apply]
    exact congrArg₂ _ (Fin.ext (by show 1024 * ((t.val - 1) / 2) + p.val = 1024 * (t.val / 2) + p.val; omega))
      (Fin.ext (by show 1024 * ((t.val - 1) % 2) + l.val = l.val; omega))
  · intro p l
    rw [iblk1_0_apply]
    exact congrArg₂ _ (Fin.ext (by show 1024 * (t.val / 2) + p.val = 1024 * (t.val / 2) + p.val; rfl))
      (Fin.ext (by show 1024 * (t.val % 2) + l.val = 1024 + l.val; omega))
  · intro l q
    rw [iblk1_1_apply]
    exact congrArg (fun r => toMat (V c main_arg2) r q)
      (Fin.ext (by show 1024 * ((t.val - 1) % 2) + l.val = l.val; omega))
  · intro l q
    rw [iblk1_1_apply]
    exact congrArg (fun r => toMat (V c main_arg2) r q)
      (Fin.ext (by show 1024 * (t.val % 2) + l.val = 1024 + l.val; omega))
  · rfl

end Cert.KernelIdeal.Hand

end
-- ==== Proof.KI.R2Pieces.lean ====
/-
  Kernel 2: what each of the two steps leaves in the accumulator and in the output block, as terms of the
  step's two input blocks and of what the step before left; and, from these, the output block after an odd
  point: the zero block plus the block product of the point before plus the block product of the point.
-/
import proofs.«144174_j32117765439601_2_alg».proof.Proof.KI.R2Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each step leaves -/

theorem hz2 : (![0, 0] : Fin 2 → Nat) = fun _ => 0 := funext fun a => by fin_cases a <;> rfl

/-- Step 0 leaves in the accumulator the zero block plus the product of the two input blocks. -/
theorem soutA2_eq (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond2_0 i) (hc1 : ¬cond2_1 i)
    (x0 : Vec F S1024x1024 .f32) (x1 : Vec F S1024x2048 .f32) :
    sout2_A_0 c i arg2 harg2 arg3 harg3 arg4 harg4 arg5 harg5 hc0 hc1 x0 x1 = k2_pay2 x0 x1 (k2_pay1 (F := F)) := by
  unfold sout2_A_0
  rw [View.read_writes_eq_canon _ _ _ (scover2_A_0 c i arg2 harg2 arg3 harg3 arg4 harg4 arg5 harg5 hc0 hc1 x0 x1)]
  unfold kernelRun2_A
  dsimp only
  try sl_unfold_words
  rw [View.canon_cons_unit_zero hz2]
  simp only [View.readAt_eq_ld, harg2.read_unread, harg3.read_unread, harg5.read_unread,
    View.ld_unit_zero (S := S1024x1024) hz2, View.ld_unit_zero (S := S1024x2048) hz2,
    View.readCov_unit_zero (S := S1024x2048) _ hz2]

/-- Step 1 leaves in the accumulator what the step before left plus the product of the two input blocks. -/
theorem soutB2_eq (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) :
    sout2_B_0 c i arg2 harg2 arg3 harg3 arg4 harg4 arg5 harg5 hc0 hc1 x0 x1 xs0 = k2_pay2 x0 x1 xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  try sl_unfold_words
  rw [View.canon_unit_zero hz2]
  simp only [View.readAt_eq_ld, harg2.read_unread, harg3.read_unread, harg5.read_unread,
    View.ld_unit_zero (S := S1024x1024) hz2, View.ld_unit_zero (S := S1024x2048) hz2,
    View.readCov_unit_zero (S := S1024x2048) _ hz2]

/-- Step 1 stores the accumulator's new contents, converted to the output's format, into the output block. -/
theorem outB2_eq (c : Dev nD) (i : grid2.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond2_0 i) (hc1 : cond2_1 i)
    (x0 : Vec F S1024x1024 .f32) (x1 : Vec F S1024x2048 .f32) (xs0 : Vec F S1024x2048 .f32) :
    out2_B_2 c i arg2 harg2 arg3 harg3 arg4 harg4 arg5 harg5 hc0 hc1 x0 x1 xs0 = k2_pay3 (k2_pay2 x0 x1 xs0) := by
  unfold out2_B_2
  rw [View.read_writes_eq_canon _ _ _ (cover2_B_2 c i arg2 harg2 arg3 harg3 arg4 harg4 arg5 harg5 hc0 hc1 x0 x1 xs0)]
  unfold kernelRun2_B
  dsimp only
  try sl_unfold_words
  rw [View.canon_unit_zero hz2]
  simp only [View.readAt_eq_ld, harg2.read_unread, harg3.read_unread, harg5.read_unread,
    View.ld_unit_zero (S := S1024x1024) hz2, View.ld_unit_zero (S := S1024x2048) hz2,
    View.readCov_unit_zero (S := S1024x2048) _ hz2]

/-! ## The accumulation over a row block's two points -/

section
variable (V : (c : Dev nD) → (b : Ref sig .tc) → Buf (Elt F) ((c : Thread nD τ).loc b))

/-- After an even point the accumulator holds the zero block plus the product of the point's two input blocks. -/
theorem sndAt2_even (c : Dev nD) (t : Fin cfg2.N) (h0 : t.val % 2 = 0) :
    (outsAt2 V c t.val t.isLt).2 = k2_pay2 (iblk2 V c 0 t) (iblk2 V c 1 t) (k2_pay1 (F := F)) := by
  rw [outsAt2_A V c t h0]
  dsimp only
  rw [soutA2_eq]

/-- After an odd point the output block holds, converted to the output's format, the zero block plus the product
    of the two input blocks of the point before plus the product of the point's own two. -/
theorem after2_odd (c : Dev nD) (t : Fin cfg2.N) (h : t.val % 2 = 1) :
    (outsAt2 V c t.val t.isLt).1
      = k2_pay3 (k2_pay2 (iblk2 V c 0 t) (iblk2 V c 1 t)
          (k2_pay2 (iblk2 V c 0 ⟨t.val - 1, Nat.lt_of_le_of_lt (Nat.sub_le _ _) t.isLt⟩)
            (iblk2 V c 1 ⟨t.val - 1, Nat.lt_of_le_of_lt (Nat.sub_le _ _) t.isLt⟩) (k2_pay1 (F := F)))) := by
  rw [outsAt2_B V c t (by omega)]
  dsimp only
  rw [outB2_eq]
  exact congrArg (fun acc => k2_pay3 (k2_pay2 (iblk2 V c 0 t) (iblk2 V c 1 t) acc)) (sndAt2_even V c ⟨t.val - 1, Nat.lt_of_le_of_lt (Nat.sub_le _ _) t.isLt⟩
    (by show (t.val - 1) % 2 = 0; omega))

end

end Cert.KernelIdeal.Hand

end
-- ==== Proof.KI.R2Blocks.lean ====
/-
  Kernel 2's blocks as parts of its arrays, over the extended reals.

  The grid is 2 x 2: point t has row block t / 2 and contraction step t % 2.  The first operand's block at point t is
  the 1024 x 1024 block (t / 2, t % 2) of its 2048 x 2048 array: entry (p, l) of the block is entry
  (1024 (t / 2) + p, 1024 (t % 2) + l) of the array.  The second operand's block is the 1024 x 2048 block (t % 2, 0):
  entry (l, q) is entry (1024 (t % 2) + l, q).  The result's block is the 1024 x 2048 block (t / 2, 0), written back at
  the odd points; the two odd points' blocks are the upper and the lower half of the result array, so if what each odd
  point writes back is rows 1024 (t / 2) ... of a matrix G, the array ends holding G: row r is written by the odd point
  2 (r / 1024) + 1.
-/
import proofs.«144174_j32117765439601_2_alg».proof.Proof.KI.R2Frame
import proofs.«144174_j32117765439601_2_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable (V : (c : Dev nD) → (b : Ref sig .tc) → Buf (Elt Ideal) ((c : Thread nD τ).loc b))

/-! ## The block indices over the grid -/

/-- The grid has four points. -/
theorem lt_four2 (t : Fin cfg2.N) : t.val < 4 := lt_of_lt_of_eq t.isLt (show cfg2.N = 4 from N_2)

/-- The first operand's block index at point t: (row block, contraction step). -/
theorem blockIdx2_0 : ∀ t : Fin cfg2.N, win2_0.index t (0 : Fin 2) = t.val / 2 ∧ win2_0.index t (1 : Fin 2) = t.val % 2 :=
  (by decide +kernel : ∀ t : Fin grid2.N, win2_0.index t (0 : Fin 2) = t.val / 2 ∧ win2_0.index t (1 : Fin 2) = t.val % 2)

/-- The second operand's block index at point t: (contraction step, 0). -/
theorem blockIdx2_1 : ∀ t : Fin cfg2.N, win2_1.index t (0 : Fin 2) = t.val % 2 ∧ win2_1.index t (1 : Fin 2) = 0 :=
  (by decide +kernel : ∀ t : Fin grid2.N, win2_1.index t (0 : Fin 2) = t.val % 2 ∧ win2_1.index t (1 : Fin 2) = 0)

/-- The result's block index at point t: (row block, 0). -/
theorem blockIdx2_2 : ∀ t : Fin cfg2.N, win2_2.index t (0 : Fin 2) = t.val / 2 ∧ win2_2.index t (1 : Fin 2) = 0 :=
  (by decide +kernel : ∀ t : Fin grid2.N, win2_2.index t (0 : Fin 2) = t.val / 2 ∧ win2_2.index t (1 : Fin 2) = 0)

/-! ## The input blocks read at an entry -/

/-- The first operand's block at point t, at an index x, is its array at the index k whose coordinates are the
    block's offsets plus x's. -/
theorem iblk2_0_at (c : Dev nD) (t : Fin cfg2.N) (x : S1024x1024.Idx) (k : S2048x2048.Idx)
    (hk0 : (k 0).val = 1024 * (t.val / 2) + (x 0).val) (hk1 : (k 1).val = 1024 * (t.val % 2) + (x 1).val) :
    (iblk2 V c 0 t : Vec Ideal S1024x1024 .f32) x = (V c main_arg0 : S2048x2048.Idx → Elt Ideal .f32) k := by
  obtain ⟨e0, e1⟩ := blockIdx2_0 t
  unfold iblk2
  rw [View.read_apply]
  show V c main_arg0 _ = V c main_arg0 _
  congr 1
  funext a
  apply Fin.ext
  match a with
  | ⟨0, _⟩ => show win2_0.index t 0 * 1024 + 1 * (x 0).val = (k 0).val; rw [e0, hk0]; omega
  | ⟨1, _⟩ => show win2_0.index t 1 * 1024 + 1 * (x 1).val = (k 1).val; rw [e1, hk1]; omega

/-- The second operand's block at point t, at an index x, is its array at the index k whose coordinates are the
    block's offsets plus x's. -/
theorem iblk2_1_at (c : Dev nD) (t : Fin cfg2.N) (x : S1024x2048.Idx) (k : S2048x2048.Idx)
    (hk0 : (k 0).val = 1024 * (t.val % 2) + (x 0).val) (hk1 : (k 1).val = (x 1).val) :
    (iblk2 V c 1 t : Vec Ideal S1024x2048 .f32) x = (V c main_arg3 : S2048x2048.Idx → Elt Ideal .f32) k := by
  obtain ⟨e0, e1⟩ := blockIdx2_1 t
  unfold iblk2
  rw [View.read_apply]
  show V c main_arg3 _ = V c main_arg3 _
  congr 1
  funext a
  apply Fin.ext
  match a with
  | ⟨0, _⟩ => show win2_1.index t 0 * 1024 + 1 * (x 0).val = (k 0).val; rw [e0, hk0]; omega
  | ⟨1, _⟩ => show win2_1.index t 1 * 2048 + 1 * (x 1).val = (k 1).val; rw [e1, hk1]; omega

/-- Entry (p, l) of the first operand's block at point t is entry (1024 (t / 2) + p, 1024 (t % 2) + l) of its array. -/
theorem iblk2_0_apply (c : Dev nD) (t : Fin cfg2.N) (p l : Fin 1024) :
    (iblk2 V c 0 t : Vec Ideal S1024x1024 .f32) (ix2 p l)
      = Cert.Spec.toMat (V c main_arg0) ⟨1024 * (t.val / 2) + p.val, by have := lt_four2 t; omega⟩
          ⟨1024 * (t.val % 2) + l.val, by omega⟩ :=
  iblk2_0_at V c t (ix2 p l) (ix2 _ _) rfl rfl

/-- Entry (l, q) of the second operand's block at point t is entry (1024 (t % 2) + l, q) of its array. -/
theorem iblk2_1_apply (c : Dev nD) (t : Fin cfg2.N) (l : Fin 1024) (q : Fin 2048) :
    (iblk2 V c 1 t : Vec Ideal S1024x2048 .f32) (ix2 l q)
      = Cert.Spec.toMat (V c main_arg3) ⟨1024 * (t.val % 2) + l.val, by omega⟩ q :=
  iblk2_1_at V c t (ix2 l q) (ix2 _ _) rfl rfl

/-! ## From the result's blocks to the result array -/

/-- A matrix as contents of the result array. -/
def arrOf2 (G : Cert.Spec.Mat) : S2048x2048.Idx → Elt Ideal .bf16 :=
  fun j => G ⟨(j 0).val, (j 0).isLt⟩ ⟨(j 1).val, (j 1).isLt⟩

/-- Read back as a matrix, it is the matrix. -/
theorem toMat_arrOf2 (G : Cert.Spec.Mat) : Cert.Spec.toMat (arrOf2 G) = G := rfl

/-- The result's block at point t sits at rows 1024 (t / 2) ... and all columns of the array. -/
theorem blk2_2_emb (t : Fin cfg2.N) (j : ((cfg2.win 2).xblock (grid2.coords t)).Idx) :
    ((((cfg2.win 2).blk t).view.emb j) 0).val = 1024 * (t.val / 2) + (j 0).val
      ∧ ((((cfg2.win 2).blk t).view.emb j) 1).val = (j 1).val := by
  obtain ⟨e0, e1⟩ := blockIdx2_2 t
  constructor
  · show win2_2.index t 0 * 1024 + 1 * (j 0).val = _
    rw [e0]; omega
  · show win2_2.index t 1 * 2048 + 1 * (j 1).val = _
    rw [e1]; omega

/-- What an odd point writes back is its block of the matrix G, when the body leaves there the rows of G of the
    point's row block. -/
theorem flushed2_2_eq (c : Dev nD) (G : Cert.Spec.Mat)
    (hout : ∀ (t : Fin cfg2.N), t.val % 2 = 1 → ∀ (p : Fin 1024) (q : Fin 2048),
      ((dat2 V c).after 2 t : Vec Ideal S1024x2048 .bf16) (ix2 p q)
        = G ⟨1024 * (t.val / 2) + p.val, by have := lt_four2 t; omega⟩ q)
    (t : Fin cfg2.N) (hf : (cfg2.win 2).flush t = true) :
    (dat2 V c).flushed 2 t = ((cfg2.win 2).blk t).view.read (Elt Ideal) (arrOf2 G) := by
  have h1 : t.val % 2 = 1 := (flush2_2 t).mp hf
  show (cfg2.win 2).cut (grid2.coords t) ((dat2 V c).after 2 t) = _
  funext j
  have hj0 : (j 0).val < 1024 := (j 0).isLt
  have hj1 : (j 1).val < 2048 := (j 1).isLt
  obtain ⟨m0, m1⟩ := blk2_2_emb t j
  rw [View.read_apply]
  have hx : (cfg2.win 2).xinj (grid2.coords t) j = ix2 (⟨(j 0).val, hj0⟩ : Fin 1024) (⟨(j 1).val, hj1⟩ : Fin 2048) :=
    funext fun a => by match a with | ⟨0, _⟩ => rfl | ⟨1, _⟩ => rfl
  show ((dat2 V c).after 2 t : Vec Ideal S1024x2048 .bf16) ((cfg2.win 2).xinj (grid2.coords t) j)
    = arrOf2 G (((cfg2.win 2).blk t).view.emb j)
  rw [hx, hout t h1]
  unfold arrOf2
  congr 1
  · exact Fin.ext m0.symm
  · exact Fin.ext m1.symm

/-- Every entry of the result array is in the block some odd point writes back: row r is in the block of point
    2 (r / 1024) + 1. -/
theorem cover2_2 (i : S2048x2048.Idx) :
    ∃ t : Fin cfg2.N, (cfg2.win 2).flush t = true ∧ i ∈ ((cfg2.win 2).blk t).view.set := by
  have h0 : (i 0 : Nat) < 2048 := (i 0).isLt
  have h1 : (i 1 : Nat) < 2048 := (i 1).isLt
  have hN : cfg2.N = 4 := N_2
  let t : Fin cfg2.N := ⟨2 * ((i 0 : Nat) / 1024) + 1, by rw [hN]; omega⟩
  have ht : t.val = 2 * ((i 0 : Nat) / 1024) + 1 := rfl
  obtain ⟨e0, e1⟩ := blockIdx2_2 t
  refine ⟨t, (flush2_2 t).mpr (by rw [ht]; omega), ?_⟩
  show i ∈ ((View.whole main_v2).slice (win2_2.rect t)).set
  rw [View.set_slice_whole, Rect.mem_set_unit]
  intro a
  match a with
  | ⟨0, _⟩ =>
    show win2_2.index t 0 * 1024 ≤ (i 0 : Nat) ∧ (i 0 : Nat) < win2_2.index t 0 * 1024 + 1024
    rw [e0, ht]; omega
  | ⟨1, _⟩ =>
    show win2_2.index t 1 * 2048 ≤ (i 1 : Nat) ∧ (i 1 : Nat) < win2_2.index t 1 * 2048 + 2048
    rw [e1]; omega

/-- So the result array ends holding G. -/
theorem value2_of (c : Dev nD) (G : Cert.Spec.Mat)
    (hout : ∀ (t : Fin cfg2.N), t.val % 2 = 1 → ∀ (p : Fin 1024) (q : Fin 2048),
      ((dat2 V c).after 2 t : Vec Ideal S1024x2048 .bf16) (ix2 p q)
        = G ⟨1024 * (t.val / 2) + p.val, by have := lt_four2 t; omega⟩ q) :
    Cert.Spec.toMat ((dat2 V c).arrAt 2 cfg2.N) = G := by
  have hfin : (dat2 V c).arrAt 2 cfg2.N = arrOf2 G :=
    (dat2 V c).arrAt_eq_of_cover 2 (arrOf2 G) (flushed2_2_eq V c G hout) cover2_2
  rw [hfin]
  exact toMat_arrOf2 G

end Cert.KernelIdeal.Hand

end
-- ==== Proof.KI.R2Value.lean ====
/-
  Kernel 2: the value of its output array after the region is the matrix product of its two argument
  matrices.  Row block i of the output is stored at the odd point of the block's two points; there it holds
  zero plus the product over the first half of the contracted axis plus the product over the second half.
-/
import proofs.«144174_j32117765439601_2_alg».proof.Proof.KI.R2Pieces
import proofs.«144174_j32117765439601_2_alg».proof.Proof.KI.R2Blocks
import proofs.«144174_j32117765439601_2_alg».proof.Proof.Spec
import proofs.«144174_j32117765439601_2_alg».proof.Proof.BlockVals
import proofs.«144174_j32117765439601_2_alg».proof.Proof.BlockSoftmax
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.Spec Cert.KernelIdeal.BlockVals

variable (V : (c : Dev nD) → (b : Ref sig .tc) → Buf (Elt Ideal) ((c : Thread nD τ).loc b))

/-- The output array, read as a matrix, is the product of the two argument matrices: at the odd point of row
    block i the output block holds the two half products added, with the first point's input blocks the first
    half of the contracted axis and the second point's the second half. -/
theorem value2 (c : Dev nD) :
    toMat ((dat2 V c).arrAt 2 cfg2.N) = mm (toMat (V c main_arg0)) (toMat (V c main_arg3)) := by
  refine value2_of V c _ fun t ht p q => ?_
  have hN : t.val < 4 := lt_four2 t
  rw [after2_2, after2_odd V c t ht]
  refine (out2_apply _ _ _ _ (toMat (V c main_arg0)) (toMat (V c main_arg3)) ⟨t.val / 2, by omega⟩ ?_ ?_ ?_ ?_ p q).trans ?_
  · intro p l
    rw [iblk2_0_apply]
    exact congrArg₂ _ (Fin.ext (by show 1024 * ((t.val - 1) / 2) + p.val = 1024 * (t.val / 2) + p.val; omega))
      (Fin.ext (by show 1024 * ((t.val - 1) % 2) + l.val = l.val; omega))
  · intro p l
    rw [iblk2_0_apply]
    exact congrArg₂ _ (Fin.ext (by show 1024 * (t.val / 2) + p.val = 1024 * (t.val / 2) + p.val; rfl))
      (Fin.ext (by show 1024 * (t.val % 2) + l.val = 1024 + l.val; omega))
  · intro l q
    rw [iblk2_1_apply]
    exact congrArg (fun r => toMat (V c main_arg3) r q)
      (Fin.ext (by show 1024 * ((t.val - 1) % 2) + l.val = l.val; omega))
  · intro l q
    rw [iblk2_1_apply]
    exact congrArg (fun r => toMat (V c main_arg3) r q)
      (Fin.ext (by show 1024 * (t.val % 2) + l.val = 1024 + l.val; omega))
  · rfl

end Cert.KernelIdeal.Hand

end
-- ==== Proof.KI.R3Pieces.lean ====
/-
  Kernel 3: what each of the two steps leaves in the accumulator and in the output block, as terms of the
  step's two input blocks and of what the step before left; and, from these, the output block after an odd
  point: the zero block plus the block product of the point before plus the block product of the point.
-/
import proofs.«144174_j32117765439601_2_alg».proof.Proof.KI.R3Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each step leaves -/

theorem hz3 : (![0, 0] : Fin 2 → Nat) = fun _ => 0 := funext fun a => by fin_cases a <;> rfl

/-- Step 0 leaves in the accumulator the zero block plus the product of the two input blocks. -/
theorem soutA3_eq (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : cond3_0 i) (hc1 : ¬cond3_1 i)
    (x0 : Vec F S1024x1024 .f32) (x1 : Vec F S1024x2048 .f32) :
    sout3_A_0 c i arg2 harg2 arg3 harg3 arg4 harg4 arg5 harg5 hc0 hc1 x0 x1 = k3_pay2 x0 x1 (k3_pay1 (F := F)) := by
  unfold sout3_A_0
  rw [View.read_writes_eq_canon _ _ _ (scover3_A_0 c i arg2 harg2 arg3 harg3 arg4 harg4 arg5 harg5 hc0 hc1 x0 x1)]
  unfold kernelRun3_A
  dsimp only
  try sl_unfold_words
  rw [View.canon_cons_unit_zero hz3]
  simp only [View.readAt_eq_ld, harg2.read_unread, harg3.read_unread, harg5.read_unread,
    View.ld_unit_zero (S := S1024x1024) hz3, View.ld_unit_zero (S := S1024x2048) hz3,
    View.readCov_unit_zero (S := S1024x2048) _ hz3]

/-- Step 1 leaves in the accumulator what the step before left plus the product of the two input blocks. -/
theorem soutB3_eq (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) :
    sout3_B_0 c i arg2 harg2 arg3 harg3 arg4 harg4 arg5 harg5 hc0 hc1 x0 x1 xs0 = k3_pay2 x0 x1 xs0 := by
  unfold sout3_B_0
  rw [View.read_writes_eq_canon _ _ _ (scover3_B_0 c i arg2 harg2 arg3 harg3 arg4 harg4 arg5 harg5 hc0 hc1 x0 x1 xs0)]
  unfold kernelRun3_B
  dsimp only
  try sl_unfold_words
  rw [View.canon_unit_zero hz3]
  simp only [View.readAt_eq_ld, harg2.read_unread, harg3.read_unread, harg5.read_unread,
    View.ld_unit_zero (S := S1024x1024) hz3, View.ld_unit_zero (S := S1024x2048) hz3,
    View.readCov_unit_zero (S := S1024x2048) _ hz3]

/-- Step 1 stores the accumulator's new contents, converted to the output's format, into the output block. -/
theorem outB3_eq (c : Dev nD) (i : grid3.Coords) (arg2 : Memref sig .tc .vmem S1024x1024 .f32) (harg2 : arg2.IsWhole) (arg3 : Memref sig .tc .vmem S1024x2048 .f32) (harg3 : arg3.IsWhole) (arg4 : Memref sig .tc .vmem S1024x2048 .bf16) (harg4 : arg4.IsWhole) (arg5 : Memref sig .tc .vmem S1024x2048 .f32) (harg5 : arg5.IsWhole) (hc0 : ¬cond3_0 i) (hc1 : cond3_1 i)
    (x0 : Vec F S1024x1024 .f32) (x1 : Vec F S1024x2048 .f32) (xs0 : Vec F S1024x2048 .f32) :
    out3_B_2 c i arg2 harg2 arg3 harg3 arg4 harg4 arg5 harg5 hc0 hc1 x0 x1 xs0 = k3_pay3 (k3_pay2 x0 x1 xs0) := by
  unfold out3_B_2
  rw [View.read_writes_eq_canon _ _ _ (cover3_B_2 c i arg2 harg2 arg3 harg3 arg4 harg4 arg5 harg5 hc0 hc1 x0 x1 xs0)]
  unfold kernelRun3_B
  dsimp only
  try sl_unfold_words
  rw [View.canon_unit_zero hz3]
  simp only [View.readAt_eq_ld, harg2.read_unread, harg3.read_unread, harg5.read_unread,
    View.ld_unit_zero (S := S1024x1024) hz3, View.ld_unit_zero (S := S1024x2048) hz3,
    View.readCov_unit_zero (S := S1024x2048) _ hz3]

/-! ## The accumulation over a row block's two points -/

section
variable (V : (c : Dev nD) → (b : Ref sig .tc) → Buf (Elt F) ((c : Thread nD τ).loc b))

/-- After an even point the accumulator holds the zero block plus the product of the point's two input blocks. -/
theorem sndAt3_even (c : Dev nD) (t : Fin cfg3.N) (h0 : t.val % 2 = 0) :
    (outsAt3 V c t.val t.isLt).2 = k3_pay2 (iblk3 V c 0 t) (iblk3 V c 1 t) (k3_pay1 (F := F)) := by
  rw [outsAt3_A V c t h0]
  dsimp only
  rw [soutA3_eq]

/-- After an odd point the output block holds, converted to the output's format, the zero block plus the product
    of the two input blocks of the point before plus the product of the point's own two. -/
theorem after3_odd (c : Dev nD) (t : Fin cfg3.N) (h : t.val % 2 = 1) :
    (outsAt3 V c t.val t.isLt).1
      = k3_pay3 (k3_pay2 (iblk3 V c 0 t) (iblk3 V c 1 t)
          (k3_pay2 (iblk3 V c 0 ⟨t.val - 1, Nat.lt_of_le_of_lt (Nat.sub_le _ _) t.isLt⟩)
            (iblk3 V c 1 ⟨t.val - 1, Nat.lt_of_le_of_lt (Nat.sub_le _ _) t.isLt⟩) (k3_pay1 (F := F)))) := by
  rw [outsAt3_B V c t (by omega)]
  dsimp only
  rw [outB3_eq]
  exact congrArg (fun acc => k3_pay3 (k3_pay2 (iblk3 V c 0 t) (iblk3 V c 1 t) acc)) (sndAt3_even V c ⟨t.val - 1, Nat.lt_of_le_of_lt (Nat.sub_le _ _) t.isLt⟩
    (by show (t.val - 1) % 2 = 0; omega))

end

end Cert.KernelIdeal.Hand

end
-- ==== Proof.KI.R3Blocks.lean ====
/-
  Kernel 3's blocks as parts of its arrays, over the extended reals.

  The grid is 2 x 2: point t has row block t / 2 and contraction step t % 2.  The first operand's block at point t is
  the 1024 x 1024 block (t / 2, t % 2) of its 2048 x 2048 array: entry (p, l) of the block is entry
  (1024 (t / 2) + p, 1024 (t % 2) + l) of the array.  The second operand's block is the 1024 x 2048 block (t % 2, 0):
  entry (l, q) is entry (1024 (t % 2) + l, q).  The result's block is the 1024 x 2048 block (t / 2, 0), written back at
  the odd points; the two odd points' blocks are the upper and the lower half of the result array, so if what each odd
  point writes back is rows 1024 (t / 2) ... of a matrix G, the array ends holding G: row r is written by the odd point
  2 (r / 1024) + 1.
-/
import proofs.«144174_j32117765439601_2_alg».proof.Proof.KI.R3Frame
import proofs.«144174_j32117765439601_2_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable (V : (c : Dev nD) → (b : Ref sig .tc) → Buf (Elt Ideal) ((c : Thread nD τ).loc b))

/-! ## The block indices over the grid -/

/-- The grid has four points. -/
theorem lt_four3 (t : Fin cfg3.N) : t.val < 4 := lt_of_lt_of_eq t.isLt (show cfg3.N = 4 from N_3)

/-- The first operand's block index at point t: (row block, contraction step). -/
theorem blockIdx3_0 : ∀ t : Fin cfg3.N, win3_0.index t (0 : Fin 2) = t.val / 2 ∧ win3_0.index t (1 : Fin 2) = t.val % 2 :=
  (by decide +kernel : ∀ t : Fin grid3.N, win3_0.index t (0 : Fin 2) = t.val / 2 ∧ win3_0.index t (1 : Fin 2) = t.val % 2)

/-- The second operand's block index at point t: (contraction step, 0). -/
theorem blockIdx3_1 : ∀ t : Fin cfg3.N, win3_1.index t (0 : Fin 2) = t.val % 2 ∧ win3_1.index t (1 : Fin 2) = 0 :=
  (by decide +kernel : ∀ t : Fin grid3.N, win3_1.index t (0 : Fin 2) = t.val % 2 ∧ win3_1.index t (1 : Fin 2) = 0)

/-- The result's block index at point t: (row block, 0). -/
theorem blockIdx3_2 : ∀ t : Fin cfg3.N, win3_2.index t (0 : Fin 2) = t.val / 2 ∧ win3_2.index t (1 : Fin 2) = 0 :=
  (by decide +kernel : ∀ t : Fin grid3.N, win3_2.index t (0 : Fin 2) = t.val / 2 ∧ win3_2.index t (1 : Fin 2) = 0)

/-! ## The input blocks read at an entry -/

/-- The first operand's block at point t, at an index x, is its array at the index k whose coordinates are the
    block's offsets plus x's. -/
theorem iblk3_0_at (c : Dev nD) (t : Fin cfg3.N) (x : S1024x1024.Idx) (k : S2048x2048.Idx)
    (hk0 : (k 0).val = 1024 * (t.val / 2) + (x 0).val) (hk1 : (k 1).val = 1024 * (t.val % 2) + (x 1).val) :
    (iblk3 V c 0 t : Vec Ideal S1024x1024 .f32) x = (V c main_v0 : S2048x2048.Idx → Elt Ideal .f32) k := by
  obtain ⟨e0, e1⟩ := blockIdx3_0 t
  unfold iblk3
  rw [View.read_apply]
  show V c main_v0 _ = V c main_v0 _
  congr 1
  funext a
  apply Fin.ext
  match a with
  | ⟨0, _⟩ => show win3_0.index t 0 * 1024 + 1 * (x 0).val = (k 0).val; rw [e0, hk0]; omega
  | ⟨1, _⟩ => show win3_0.index t 1 * 1024 + 1 * (x 1).val = (k 1).val; rw [e1, hk1]; omega

/-- The second operand's block at point t, at an index x, is its array at the index k whose coordinates are the
    block's offsets plus x's. -/
theorem iblk3_1_at (c : Dev nD) (t : Fin cfg3.N) (x : S1024x2048.Idx) (k : S2048x2048.Idx)
    (hk0 : (k 0).val = 1024 * (t.val % 2) + (x 0).val) (hk1 : (k 1).val = (x 1).val) :
    (iblk3 V c 1 t : Vec Ideal S1024x2048 .f32) x = (V c main_v1 : S2048x2048.Idx → Elt Ideal .f32) k := by
  obtain ⟨e0, e1⟩ := blockIdx3_1 t
  unfold iblk3
  rw [View.read_apply]
  show V c main_v1 _ = V c main_v1 _
  congr 1
  funext a
  apply Fin.ext
  match a with
  | ⟨0, _⟩ => show win3_1.index t 0 * 1024 + 1 * (x 0).val = (k 0).val; rw [e0, hk0]; omega
  | ⟨1, _⟩ => show win3_1.index t 1 * 2048 + 1 * (x 1).val = (k 1).val; rw [e1, hk1]; omega

/-- Entry (p, l) of the first operand's block at point t is entry (1024 (t / 2) + p, 1024 (t % 2) + l) of its array. -/
theorem iblk3_0_apply (c : Dev nD) (t : Fin cfg3.N) (p l : Fin 1024) :
    (iblk3 V c 0 t : Vec Ideal S1024x1024 .f32) (ix2 p l)
      = Cert.Spec.toMat (V c main_v0) ⟨1024 * (t.val / 2) + p.val, by have := lt_four3 t; omega⟩
          ⟨1024 * (t.val % 2) + l.val, by omega⟩ :=
  iblk3_0_at V c t (ix2 p l) (ix2 _ _) rfl rfl

/-- Entry (l, q) of the second operand's block at point t is entry (1024 (t % 2) + l, q) of its array. -/
theorem iblk3_1_apply (c : Dev nD) (t : Fin cfg3.N) (l : Fin 1024) (q : Fin 2048) :
    (iblk3 V c 1 t : Vec Ideal S1024x2048 .f32) (ix2 l q)
      = Cert.Spec.toMat (V c main_v1) ⟨1024 * (t.val % 2) + l.val, by omega⟩ q :=
  iblk3_1_at V c t (ix2 l q) (ix2 _ _) rfl rfl

/-! ## From the result's blocks to the result array -/

/-- A matrix as contents of the result array. -/
def arrOf3 (G : Cert.Spec.Mat) : S2048x2048.Idx → Elt Ideal .bf16 :=
  fun j => G ⟨(j 0).val, (j 0).isLt⟩ ⟨(j 1).val, (j 1).isLt⟩

/-- Read back as a matrix, it is the matrix. -/
theorem toMat_arrOf3 (G : Cert.Spec.Mat) : Cert.Spec.toMat (arrOf3 G) = G := rfl

/-- The result's block at point t sits at rows 1024 (t / 2) ... and all columns of the array. -/
theorem blk3_2_emb (t : Fin cfg3.N) (j : ((cfg3.win 2).xblock (grid3.coords t)).Idx) :
    ((((cfg3.win 2).blk t).view.emb j) 0).val = 1024 * (t.val / 2) + (j 0).val
      ∧ ((((cfg3.win 2).blk t).view.emb j) 1).val = (j 1).val := by
  obtain ⟨e0, e1⟩ := blockIdx3_2 t
  constructor
  · show win3_2.index t 0 * 1024 + 1 * (j 0).val = _
    rw [e0]; omega
  · show win3_2.index t 1 * 2048 + 1 * (j 1).val = _
    rw [e1]; omega

/-- What an odd point writes back is its block of the matrix G, when the body leaves there the rows of G of the
    point's row block. -/
theorem flushed3_2_eq (c : Dev nD) (G : Cert.Spec.Mat)
    (hout : ∀ (t : Fin cfg3.N), t.val % 2 = 1 → ∀ (p : Fin 1024) (q : Fin 2048),
      ((dat3 V c).after 2 t : Vec Ideal S1024x2048 .bf16) (ix2 p q)
        = G ⟨1024 * (t.val / 2) + p.val, by have := lt_four3 t; omega⟩ q)
    (t : Fin cfg3.N) (hf : (cfg3.win 2).flush t = true) :
    (dat3 V c).flushed 2 t = ((cfg3.win 2).blk t).view.read (Elt Ideal) (arrOf3 G) := by
  have h1 : t.val % 2 = 1 := (flush3_2 t).mp hf
  show (cfg3.win 2).cut (grid3.coords t) ((dat3 V c).after 2 t) = _
  funext j
  have hj0 : (j 0).val < 1024 := (j 0).isLt
  have hj1 : (j 1).val < 2048 := (j 1).isLt
  obtain ⟨m0, m1⟩ := blk3_2_emb t j
  rw [View.read_apply]
  have hx : (cfg3.win 2).xinj (grid3.coords t) j = ix2 (⟨(j 0).val, hj0⟩ : Fin 1024) (⟨(j 1).val, hj1⟩ : Fin 2048) :=
    funext fun a => by match a with | ⟨0, _⟩ => rfl | ⟨1, _⟩ => rfl
  show ((dat3 V c).after 2 t : Vec Ideal S1024x2048 .bf16) ((cfg3.win 2).xinj (grid3.coords t) j)
    = arrOf3 G (((cfg3.win 2).blk t).view.emb j)
  rw [hx, hout t h1]
  unfold arrOf3
  congr 1
  · exact Fin.ext m0.symm
  · exact Fin.ext m1.symm

/-- Every entry of the result array is in the block some odd point writes back: row r is in the block of point
    2 (r / 1024) + 1. -/
theorem cover3_2 (i : S2048x2048.Idx) :
    ∃ t : Fin cfg3.N, (cfg3.win 2).flush t = true ∧ i ∈ ((cfg3.win 2).blk t).view.set := by
  have h0 : (i 0 : Nat) < 2048 := (i 0).isLt
  have h1 : (i 1 : Nat) < 2048 := (i 1).isLt
  have hN : cfg3.N = 4 := N_3
  let t : Fin cfg3.N := ⟨2 * ((i 0 : Nat) / 1024) + 1, by rw [hN]; omega⟩
  have ht : t.val = 2 * ((i 0 : Nat) / 1024) + 1 := rfl
  obtain ⟨e0, e1⟩ := blockIdx3_2 t
  refine ⟨t, (flush3_2 t).mpr (by rw [ht]; omega), ?_⟩
  show i ∈ ((View.whole main_v3).slice (win3_2.rect t)).set
  rw [View.set_slice_whole, Rect.mem_set_unit]
  intro a
  match a with
  | ⟨0, _⟩ =>
    show win3_2.index t 0 * 1024 ≤ (i 0 : Nat) ∧ (i 0 : Nat) < win3_2.index t 0 * 1024 + 1024
    rw [e0, ht]; omega
  | ⟨1, _⟩ =>
    show win3_2.index t 1 * 2048 ≤ (i 1 : Nat) ∧ (i 1 : Nat) < win3_2.index t 1 * 2048 + 2048
    rw [e1]; omega

/-- So the result array ends holding G. -/
theorem value3_of (c : Dev nD) (G : Cert.Spec.Mat)
    (hout : ∀ (t : Fin cfg3.N), t.val % 2 = 1 → ∀ (p : Fin 1024) (q : Fin 2048),
      ((dat3 V c).after 2 t : Vec Ideal S1024x2048 .bf16) (ix2 p q)
        = G ⟨1024 * (t.val / 2) + p.val, by have := lt_four3 t; omega⟩ q) :
    Cert.Spec.toMat ((dat3 V c).arrAt 2 cfg3.N) = G := by
  have hfin : (dat3 V c).arrAt 2 cfg3.N = arrOf3 G :=
    (dat3 V c).arrAt_eq_of_cover 2 (arrOf3 G) (flushed3_2_eq V c G hout) cover3_2
  rw [hfin]
  exact toMat_arrOf3 G

end Cert.KernelIdeal.Hand

end
-- ==== Proof.KI.R3Value.lean ====
/-
  Kernel 3: the value of its output array after the region is the row softmax of the matrix product of its two
  argument matrices.  Row block i of the output is stored at the odd point of the block's two points; there it
  holds the row softmax of zero plus the product over the first half of the contracted axis plus the product over
  the second half, and a row of the block is a whole row of the product.
-/
import proofs.«144174_j32117765439601_2_alg».proof.Proof.KI.R3Pieces
import proofs.«144174_j32117765439601_2_alg».proof.Proof.KI.R3Blocks
import proofs.«144174_j32117765439601_2_alg».proof.Proof.Spec
import proofs.«144174_j32117765439601_2_alg».proof.Proof.BlockVals
import proofs.«144174_j32117765439601_2_alg».proof.Proof.BlockSoftmax
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.Spec Cert.KernelIdeal.BlockVals

variable (V : (c : Dev nD) → (b : Ref sig .tc) → Buf (Elt Ideal) ((c : Thread nD τ).loc b))

/-- The output array, read as a matrix, is the row softmax of the product of the two argument matrices: at the odd
    point of row block i the output block holds the row softmax of the two half products added, with the first
    point's input blocks the first half of the contracted axis and the second point's the second half. -/
theorem value3 (c : Dev nD) :
    toMat ((dat3 V c).arrAt 2 cfg3.N) = sm (mm (toMat (V c main_v0)) (toMat (V c main_v1))) := by
  refine value3_of V c _ fun t ht p q => ?_
  have hN : t.val < 4 := lt_four3 t
  rw [after3_2, after3_odd V c t ht]
  refine (out3_apply _ _ _ _ (toMat (V c main_v0)) (toMat (V c main_v1)) ⟨t.val / 2, by omega⟩ ?_ ?_ ?_ ?_ p q).trans ?_
  · intro p l
    rw [iblk3_0_apply]
    exact congrArg₂ _ (Fin.ext (by show 1024 * ((t.val - 1) / 2) + p.val = 1024 * (t.val / 2) + p.val; omega))
      (Fin.ext (by show 1024 * ((t.val - 1) % 2) + l.val = l.val; omega))
  · intro p l
    rw [iblk3_0_apply]
    exact congrArg₂ _ (Fin.ext (by show 1024 * (t.val / 2) + p.val = 1024 * (t.val / 2) + p.val; rfl))
      (Fin.ext (by show 1024 * (t.val % 2) + l.val = 1024 + l.val; omega))
  · intro l q
    rw [iblk3_1_apply]
    exact congrArg (fun r => toMat (V c main_v1) r q)
      (Fin.ext (by show 1024 * ((t.val - 1) % 2) + l.val = l.val; omega))
  · intro l q
    rw [iblk3_1_apply]
    exact congrArg (fun r => toMat (V c main_v1) r q)
      (Fin.ext (by show 1024 * (t.val % 2) + l.val = 1024 + l.val; omega))
  · rfl

end Cert.KernelIdeal.Hand

end
-- ==== Proof.KI.R4Pieces.lean ====
/-
  Kernel 4: what each of the two steps leaves in the accumulator and in the output block, as terms of the
  step's two input blocks and of what the step before left; and, from these, the output block after an odd
  point: the zero block plus the block product of the point before plus the block product of the point.
-/
import proofs.«144174_j32117765439601_2_alg».proof.Proof.KI.R4Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each step leaves -/

theorem hz4 : (![0, 0] : Fin 2 → Nat) = fun _ => 0 := funext fun a => by fin_cases a <;> rfl

/-- Step 0 leaves in the accumulator the zero block plus the product of the two input blocks. -/
theorem soutA4_eq (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : cond4_0 i) (hc1 : ¬cond4_1 i)
    (x0 : Vec F S1024x1024 .bf16) (x1 : Vec F S1024x2048 .bf16) :
    sout4_A_0 c i arg2 harg2 arg3 harg3 arg4 harg4 arg5 harg5 hc0 hc1 x0 x1 = k4_pay2 x0 x1 (k4_pay1 (F := F)) := by
  unfold sout4_A_0
  rw [View.read_writes_eq_canon _ _ _ (scover4_A_0 c i arg2 harg2 arg3 harg3 arg4 harg4 arg5 harg5 hc0 hc1 x0 x1)]
  unfold kernelRun4_A
  dsimp only
  try sl_unfold_words
  rw [View.canon_cons_unit_zero hz4]
  simp only [View.readAt_eq_ld, harg2.read_unread, harg3.read_unread, harg5.read_unread,
    View.ld_unit_zero (S := S1024x1024) hz4, View.ld_unit_zero (S := S1024x2048) hz4,
    View.readCov_unit_zero (S := S1024x2048) _ hz4]

/-- Step 1 leaves in the accumulator what the step before left plus the product of the two input blocks. -/
theorem soutB4_eq (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) :
    sout4_B_0 c i arg2 harg2 arg3 harg3 arg4 harg4 arg5 harg5 hc0 hc1 x0 x1 xs0 = k4_pay2 x0 x1 xs0 := by
  unfold sout4_B_0
  rw [View.read_writes_eq_canon _ _ _ (scover4_B_0 c i arg2 harg2 arg3 harg3 arg4 harg4 arg5 harg5 hc0 hc1 x0 x1 xs0)]
  unfold kernelRun4_B
  dsimp only
  try sl_unfold_words
  rw [View.canon_unit_zero hz4]
  simp only [View.readAt_eq_ld, harg2.read_unread, harg3.read_unread, harg5.read_unread,
    View.ld_unit_zero (S := S1024x1024) hz4, View.ld_unit_zero (S := S1024x2048) hz4,
    View.readCov_unit_zero (S := S1024x2048) _ hz4]

/-- Step 1 stores the accumulator's new contents into the output block. -/
theorem outB4_eq (c : Dev nD) (i : grid4.Coords) (arg2 : Memref sig .tc .vmem S1024x1024 .bf16) (harg2 : arg2.IsWhole) (arg3 : Memref sig .tc .vmem S1024x2048 .bf16) (harg3 : arg3.IsWhole) (arg4 : Memref sig .tc .vmem S1024x2048 .f32) (harg4 : arg4.IsWhole) (arg5 : Memref sig .tc .vmem S1024x2048 .f32) (harg5 : arg5.IsWhole) (hc0 : ¬cond4_0 i) (hc1 : cond4_1 i)
    (x0 : Vec F S1024x1024 .bf16) (x1 : Vec F S1024x2048 .bf16) (xs0 : Vec F S1024x2048 .f32) :
    out4_B_2 c i arg2 harg2 arg3 harg3 arg4 harg4 arg5 harg5 hc0 hc1 x0 x1 xs0 = k4_pay2 x0 x1 xs0 := by
  unfold out4_B_2
  rw [View.read_writes_eq_canon _ _ _ (cover4_B_2 c i arg2 harg2 arg3 harg3 arg4 harg4 arg5 harg5 hc0 hc1 x0 x1 xs0)]
  unfold kernelRun4_B
  dsimp only
  try sl_unfold_words
  rw [View.canon_unit_zero hz4]
  simp only [View.readAt_eq_ld, harg2.read_unread, harg3.read_unread, harg5.read_unread,
    View.ld_unit_zero (S := S1024x1024) hz4, View.ld_unit_zero (S := S1024x2048) hz4,
    View.readCov_unit_zero (S := S1024x2048) _ hz4]

/-! ## The accumulation over a row block's two points -/

section
variable (V : (c : Dev nD) → (b : Ref sig .tc) → Buf (Elt F) ((c : Thread nD τ).loc b))

/-- After an even point the accumulator holds the zero block plus the product of the point's two input blocks. -/
theorem sndAt4_even (c : Dev nD) (t : Fin cfg4.N) (h0 : t.val % 2 = 0) :
    (outsAt4 V c t.val t.isLt).2 = k4_pay2 (iblk4 V c 0 t) (iblk4 V c 1 t) (k4_pay1 (F := F)) := by
  rw [outsAt4_A V c t h0]
  dsimp only
  rw [soutA4_eq]

/-- After an odd point the output block holds the zero block plus the product of the two input blocks of the
    point before plus the product of the point's own two. -/
theorem after4_odd (c : Dev nD) (t : Fin cfg4.N) (h : t.val % 2 = 1) :
    (outsAt4 V c t.val t.isLt).1
      = k4_pay2 (iblk4 V c 0 t) (iblk4 V c 1 t)
          (k4_pay2 (iblk4 V c 0 ⟨t.val - 1, Nat.lt_of_le_of_lt (Nat.sub_le _ _) t.isLt⟩)
            (iblk4 V c 1 ⟨t.val - 1, Nat.lt_of_le_of_lt (Nat.sub_le _ _) t.isLt⟩) (k4_pay1 (F := F))) := by
  rw [outsAt4_B V c t (by omega)]
  dsimp only
  rw [outB4_eq]
  exact congrArg (fun acc => k4_pay2 (iblk4 V c 0 t) (iblk4 V c 1 t) acc) (sndAt4_even V c ⟨t.val - 1, Nat.lt_of_le_of_lt (Nat.sub_le _ _) t.isLt⟩
    (by show (t.val - 1) % 2 = 0; omega))

end

end Cert.KernelIdeal.Hand

end
-- ==== Proof.KI.R4Blocks.lean ====
/-
  Kernel 4's blocks as parts of its arrays, over the extended reals.

  The grid is 2 x 2: point t has row block t / 2 and contraction step t % 2.  The first operand's block at point t is
  the 1024 x 1024 block (t / 2, t % 2) of its 2048 x 2048 array: entry (p, l) of the block is entry
  (1024 (t / 2) + p, 1024 (t % 2) + l) of the array.  The second operand's block is the 1024 x 2048 block (t % 2, 0):
  entry (l, q) is entry (1024 (t % 2) + l, q).  The result's block is the 1024 x 2048 block (t / 2, 0), written back at
  the odd points; the two odd points' blocks are the upper and the lower half of the result array, so if what each odd
  point writes back is rows 1024 (t / 2) ... of a matrix G, the array ends holding G: row r is written by the odd point
  2 (r / 1024) + 1.
-/
import proofs.«144174_j32117765439601_2_alg».proof.Proof.KI.R4Frame
import proofs.«144174_j32117765439601_2_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable (V : (c : Dev nD) → (b : Ref sig .tc) → Buf (Elt Ideal) ((c : Thread nD τ).loc b))

/-! ## The block indices over the grid -/

/-- The grid has four points. -/
theorem lt_four4 (t : Fin cfg4.N) : t.val < 4 := lt_of_lt_of_eq t.isLt (show cfg4.N = 4 from N_4)

/-- The first operand's block index at point t: (row block, contraction step). -/
theorem blockIdx4_0 : ∀ t : Fin cfg4.N, win4_0.index t (0 : Fin 2) = t.val / 2 ∧ win4_0.index t (1 : Fin 2) = t.val % 2 :=
  (by decide +kernel : ∀ t : Fin grid4.N, win4_0.index t (0 : Fin 2) = t.val / 2 ∧ win4_0.index t (1 : Fin 2) = t.val % 2)

/-- The second operand's block index at point t: (contraction step, 0). -/
theorem blockIdx4_1 : ∀ t : Fin cfg4.N, win4_1.index t (0 : Fin 2) = t.val % 2 ∧ win4_1.index t (1 : Fin 2) = 0 :=
  (by decide +kernel : ∀ t : Fin grid4.N, win4_1.index t (0 : Fin 2) = t.val % 2 ∧ win4_1.index t (1 : Fin 2) = 0)

/-- The result's block index at point t: (row block, 0). -/
theorem blockIdx4_2 : ∀ t : Fin cfg4.N, win4_2.index t (0 : Fin 2) = t.val / 2 ∧ win4_2.index t (1 : Fin 2) = 0 :=
  (by decide +kernel : ∀ t : Fin grid4.N, win4_2.index t (0 : Fin 2) = t.val / 2 ∧ win4_2.index t (1 : Fin 2) = 0)

/-! ## The input blocks read at an entry -/

/-- The first operand's block at point t, at an index x, is its array at the index k whose coordinates are the
    block's offsets plus x's. -/
theorem iblk4_0_at (c : Dev nD) (t : Fin cfg4.N) (x : S1024x1024.Idx) (k : S2048x2048.Idx)
    (hk0 : (k 0).val = 1024 * (t.val / 2) + (x 0).val) (hk1 : (k 1).val = 1024 * (t.val % 2) + (x 1).val) :
    (iblk4 V c 0 t : Vec Ideal S1024x1024 .bf16) x = (V c main_v3 : S2048x2048.Idx → Elt Ideal .bf16) k := by
  obtain ⟨e0, e1⟩ := blockIdx4_0 t
  unfold iblk4
  rw [View.read_apply]
  show V c main_v3 _ = V c main_v3 _
  congr 1
  funext a
  apply Fin.ext
  match a with
  | ⟨0, _⟩ => show win4_0.index t 0 * 1024 + 1 * (x 0).val = (k 0).val; rw [e0, hk0]; omega
  | ⟨1, _⟩ => show win4_0.index t 1 * 1024 + 1 * (x 1).val = (k 1).val; rw [e1, hk1]; omega

/-- The second operand's block at point t, at an index x, is its array at the index k whose coordinates are the
    block's offsets plus x's. -/
theorem iblk4_1_at (c : Dev nD) (t : Fin cfg4.N) (x : S1024x2048.Idx) (k : S2048x2048.Idx)
    (hk0 : (k 0).val = 1024 * (t.val % 2) + (x 0).val) (hk1 : (k 1).val = (x 1).val) :
    (iblk4 V c 1 t : Vec Ideal S1024x2048 .bf16) x = (V c main_v2 : S2048x2048.Idx → Elt Ideal .bf16) k := by
  obtain ⟨e0, e1⟩ := blockIdx4_1 t
  unfold iblk4
  rw [View.read_apply]
  show V c main_v2 _ = V c main_v2 _
  congr 1
  funext a
  apply Fin.ext
  match a with
  | ⟨0, _⟩ => show win4_1.index t 0 * 1024 + 1 * (x 0).val = (k 0).val; rw [e0, hk0]; omega
  | ⟨1, _⟩ => show win4_1.index t 1 * 2048 + 1 * (x 1).val = (k 1).val; rw [e1, hk1]; omega

/-- Entry (p, l) of the first operand's block at point t is entry (1024 (t / 2) + p, 1024 (t % 2) + l) of its array. -/
theorem iblk4_0_apply (c : Dev nD) (t : Fin cfg4.N) (p l : Fin 1024) :
    (iblk4 V c 0 t : Vec Ideal S1024x1024 .bf16) (ix2 p l)
      = Cert.Spec.toMat (V c main_v3) ⟨1024 * (t.val / 2) + p.val, by have := lt_four4 t; omega⟩
          ⟨1024 * (t.val % 2) + l.val, by omega⟩ :=
  iblk4_0_at V c t (ix2 p l) (ix2 _ _) rfl rfl

/-- Entry (l, q) of the second operand's block at point t is entry (1024 (t % 2) + l, q) of its array. -/
theorem iblk4_1_apply (c : Dev nD) (t : Fin cfg4.N) (l : Fin 1024) (q : Fin 2048) :
    (iblk4 V c 1 t : Vec Ideal S1024x2048 .bf16) (ix2 l q)
      = Cert.Spec.toMat (V c main_v2) ⟨1024 * (t.val % 2) + l.val, by omega⟩ q :=
  iblk4_1_at V c t (ix2 l q) (ix2 _ _) rfl rfl

/-! ## From the result's blocks to the result array -/

/-- A matrix as contents of the result array. -/
def arrOf4 (G : Cert.Spec.Mat) : S2048x2048.Idx → Elt Ideal .f32 :=
  fun j => G ⟨(j 0).val, (j 0).isLt⟩ ⟨(j 1).val, (j 1).isLt⟩

/-- Read back as a matrix, it is the matrix. -/
theorem toMat_arrOf4 (G : Cert.Spec.Mat) : Cert.Spec.toMat (arrOf4 G) = G := rfl

/-- The result's block at point t sits at rows 1024 (t / 2) ... and all columns of the array. -/
theorem blk4_2_emb (t : Fin cfg4.N) (j : ((cfg4.win 2).xblock (grid4.coords t)).Idx) :
    ((((cfg4.win 2).blk t).view.emb j) 0).val = 1024 * (t.val / 2) + (j 0).val
      ∧ ((((cfg4.win 2).blk t).view.emb j) 1).val = (j 1).val := by
  obtain ⟨e0, e1⟩ := blockIdx4_2 t
  constructor
  · show win4_2.index t 0 * 1024 + 1 * (j 0).val = _
    rw [e0]; omega
  · show win4_2.index t 1 * 2048 + 1 * (j 1).val = _
    rw [e1]; omega

/-- What an odd point writes back is its block of the matrix G, when the body leaves there the rows of G of the
    point's row block. -/
theorem flushed4_2_eq (c : Dev nD) (G : Cert.Spec.Mat)
    (hout : ∀ (t : Fin cfg4.N), t.val % 2 = 1 → ∀ (p : Fin 1024) (q : Fin 2048),
      ((dat4 V c).after 2 t : Vec Ideal S1024x2048 .f32) (ix2 p q)
        = G ⟨1024 * (t.val / 2) + p.val, by have := lt_four4 t; omega⟩ q)
    (t : Fin cfg4.N) (hf : (cfg4.win 2).flush t = true) :
    (dat4 V c).flushed 2 t = ((cfg4.win 2).blk t).view.read (Elt Ideal) (arrOf4 G) := by
  have h1 : t.val % 2 = 1 := (flush4_2 t).mp hf
  show (cfg4.win 2).cut (grid4.coords t) ((dat4 V c).after 2 t) = _
  funext j
  have hj0 : (j 0).val < 1024 := (j 0).isLt
  have hj1 : (j 1).val < 2048 := (j 1).isLt
  obtain ⟨m0, m1⟩ := blk4_2_emb t j
  rw [View.read_apply]
  have hx : (cfg4.win 2).xinj (grid4.coords t) j = ix2 (⟨(j 0).val, hj0⟩ : Fin 1024) (⟨(j 1).val, hj1⟩ : Fin 2048) :=
    funext fun a => by match a with | ⟨0, _⟩ => rfl | ⟨1, _⟩ => rfl
  show ((dat4 V c).after 2 t : Vec Ideal S1024x2048 .f32) ((cfg4.win 2).xinj (grid4.coords t) j)
    = arrOf4 G (((cfg4.win 2).blk t).view.emb j)
  rw [hx, hout t h1]
  unfold arrOf4
  congr 1
  · exact Fin.ext m0.symm
  · exact Fin.ext m1.symm

/-- Every entry of the result array is in the block some odd point writes back: row r is in the block of point
    2 (r / 1024) + 1. -/
theorem cover4_2 (i : S2048x2048.Idx) :
    ∃ t : Fin cfg4.N, (cfg4.win 2).flush t = true ∧ i ∈ ((cfg4.win 2).blk t).view.set := by
  have h0 : (i 0 : Nat) < 2048 := (i 0).isLt
  have h1 : (i 1 : Nat) < 2048 := (i 1).isLt
  have hN : cfg4.N = 4 := N_4
  let t : Fin cfg4.N := ⟨2 * ((i 0 : Nat) / 1024) + 1, by rw [hN]; omega⟩
  have ht : t.val = 2 * ((i 0 : Nat) / 1024) + 1 := rfl
  obtain ⟨e0, e1⟩ := blockIdx4_2 t
  refine ⟨t, (flush4_2 t).mpr (by rw [ht]; omega), ?_⟩
  show i ∈ ((View.whole main_v4).slice (win4_2.rect t)).set
  rw [View.set_slice_whole, Rect.mem_set_unit]
  intro a
  match a with
  | ⟨0, _⟩ =>
    show win4_2.index t 0 * 1024 ≤ (i 0 : Nat) ∧ (i 0 : Nat) < win4_2.index t 0 * 1024 + 1024
    rw [e0, ht]; omega
  | ⟨1, _⟩ =>
    show win4_2.index t 1 * 2048 ≤ (i 1 : Nat) ∧ (i 1 : Nat) < win4_2.index t 1 * 2048 + 2048
    rw [e1]; omega

/-- So the result array ends holding G. -/
theorem value4_of (c : Dev nD) (G : Cert.Spec.Mat)
    (hout : ∀ (t : Fin cfg4.N), t.val % 2 = 1 → ∀ (p : Fin 1024) (q : Fin 2048),
      ((dat4 V c).after 2 t : Vec Ideal S1024x2048 .f32) (ix2 p q)
        = G ⟨1024 * (t.val / 2) + p.val, by have := lt_four4 t; omega⟩ q) :
    Cert.Spec.toMat ((dat4 V c).arrAt 2 cfg4.N) = G := by
  have hfin : (dat4 V c).arrAt 2 cfg4.N = arrOf4 G :=
    (dat4 V c).arrAt_eq_of_cover 2 (arrOf4 G) (flushed4_2_eq V c G hout) cover4_2
  rw [hfin]
  exact toMat_arrOf4 G

end Cert.KernelIdeal.Hand

end
-- ==== Proof.KI.R4Value.lean ====
/-
  Kernel 4: the value of its output array after the region is the matrix product of its two argument
  matrices.  Row block i of the output is stored at the odd point of the block's two points; there it holds
  zero plus the product over the first half of the contracted axis plus the product over the second half.
-/
import proofs.«144174_j32117765439601_2_alg».proof.Proof.KI.R4Pieces
import proofs.«144174_j32117765439601_2_alg».proof.Proof.KI.R4Blocks
import proofs.«144174_j32117765439601_2_alg».proof.Proof.Spec
import proofs.«144174_j32117765439601_2_alg».proof.Proof.BlockVals
import proofs.«144174_j32117765439601_2_alg».proof.Proof.BlockSoftmax
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.Spec Cert.KernelIdeal.BlockVals

variable (V : (c : Dev nD) → (b : Ref sig .tc) → Buf (Elt Ideal) ((c : Thread nD τ).loc b))

/-- The output array, read as a matrix, is the product of the two argument matrices: at the odd point of row
    block i the output block holds the two half products added, with the first point's input blocks the first
    half of the contracted axis and the second point's the second half. -/
theorem value4 (c : Dev nD) :
    toMat ((dat4 V c).arrAt 2 cfg4.N) = mm (toMat (V c main_v3)) (toMat (V c main_v2)) := by
  refine value4_of V c _ fun t ht p q => ?_
  have hN : t.val < 4 := lt_four4 t
  rw [after4_2, after4_odd V c t ht]
  refine (acc4_apply _ _ _ _ (toMat (V c main_v3)) (toMat (V c main_v2)) ⟨t.val / 2, by omega⟩ ?_ ?_ ?_ ?_ p q).trans ?_
  · intro p l
    rw [iblk4_0_apply]
    exact congrArg₂ _ (Fin.ext (by show 1024 * ((t.val - 1) / 2) + p.val = 1024 * (t.val / 2) + p.val; omega))
      (Fin.ext (by show 1024 * ((t.val - 1) % 2) + l.val = l.val; omega))
  · intro p l
    rw [iblk4_0_apply]
    exact congrArg₂ _ (Fin.ext (by show 1024 * (t.val / 2) + p.val = 1024 * (t.val / 2) + p.val; rfl))
      (Fin.ext (by show 1024 * (t.val % 2) + l.val = 1024 + l.val; omega))
  · intro l q
    rw [iblk4_1_apply]
    exact congrArg (fun r => toMat (V c main_v2) r q)
      (Fin.ext (by show 1024 * ((t.val - 1) % 2) + l.val = l.val; omega))
  · intro l q
    rw [iblk4_1_apply]
    exact congrArg (fun r => toMat (V c main_v2) r q)
      (Fin.ext (by show 1024 * (t.val % 2) + l.val = 1024 + l.val; omega))
  · rfl

end Cert.KernelIdeal.Hand

end
-- ==== Proof.KI.Value.lean ====
/-
  The kernel program's result as a function of its four arguments, at the ideal values.  Region by region the
  output array is a function of the region's two input arrays as the region finds them (the products x q,
  x k, x v; the row softmax of (x q)(x k); the final product), and between regions every array a region does
  not write is carried unchanged; composing the five gives the specification's `out`.
-/
import proofs.«144174_j32117765439601_2_alg».proof.Proof.KI.Run
import proofs.«144174_j32117765439601_2_alg».proof.Proof.KI.R0Value
import proofs.«144174_j32117765439601_2_alg».proof.Proof.KI.R1Value
import proofs.«144174_j32117765439601_2_alg».proof.Proof.KI.R2Value
import proofs.«144174_j32117765439601_2_alg».proof.Proof.KI.R3Value
import proofs.«144174_j32117765439601_2_alg».proof.Proof.KI.R4Value

set_option maxRecDepth 16384

noncomputable section

namespace Cert.KernelIdeal.Hand

open Cert.KernelIdeal Cert.KernelIdeal.Gen Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- x q: what region 0 leaves in its output array. -/
theorem xq_eq (c : Dev nD) : toMat (W1 m ρ c (Proc.devRef .tc main_v0))
    = mm (toMat (m ((c : Thread nD τ).loc main_arg0))) (toMat (m ((c : Thread nD τ).loc main_arg1))) :=
  (congrArg toMat (W1_arr m ρ c 2)).trans (value0 (V0 m ρ) c)

/-- x k: what region 1 leaves; its inputs are still the launch contents. -/
theorem xk_eq (c : Dev nD) : toMat (W2 m ρ c (Proc.devRef .tc main_v1))
    = mm (toMat (m ((c : Thread nD τ).loc main_arg0))) (toMat (m ((c : Thread nD τ).loc main_arg2))) := by
  refine (congrArg toMat (W2_arr m ρ c 2)).trans ((value1 (V1 m ρ) c).trans ?_)
  have e0 : V1 m ρ c main_arg0 = m ((c : Thread nD τ).loc main_arg0) := W1_in0 m ρ c
  have e2 : V1 m ρ c main_arg2 = m ((c : Thread nD τ).loc main_arg2) := W1_of_ne m ρ c main_arg2 (by decide)
  rw [e0, e2]

/-- x v: what region 2 leaves. -/
theorem xv_eq (c : Dev nD) : toMat (W3 m ρ c (Proc.devRef .tc main_v2))
    = mm (toMat (m ((c : Thread nD τ).loc main_arg0))) (toMat (m ((c : Thread nD τ).loc main_arg3))) := by
  refine (congrArg toMat (W3_arr m ρ c 2)).trans ((value2 (V2 m ρ) c).trans ?_)
  have e0 : V2 m ρ c main_arg0 = m ((c : Thread nD τ).loc main_arg0) := (W2_in0 m ρ c).trans (W1_in0 m ρ c)
  have e3 : V2 m ρ c main_arg3 = m ((c : Thread nD τ).loc main_arg3) :=
    (W2_of_ne m ρ c main_arg3 (by decide)).trans (W1_of_ne m ρ c main_arg3 (by decide))
  rw [e0, e3]

/-- The attention weights: what region 3 leaves, over x q and x k as regions 0 and 1 left them. -/
theorem attn_eq (c : Dev nD) : toMat (W4 m ρ c (Proc.devRef .tc main_v3))
    = sm (mm (mm (toMat (m ((c : Thread nD τ).loc main_arg0))) (toMat (m ((c : Thread nD τ).loc main_arg1))))
             (mm (toMat (m ((c : Thread nD τ).loc main_arg0))) (toMat (m ((c : Thread nD τ).loc main_arg2))))) := by
  refine (congrArg toMat (W4_arr m ρ c 2)).trans ((value3 (V3 m ρ) c).trans ?_)
  have e0 : V3 m ρ c main_v0 = W1 m ρ c (Proc.devRef .tc main_v0) :=
    (W3_of_ne m ρ c main_v0 (by decide)).trans (W2_of_ne m ρ c main_v0 (by decide))
  have e1 : V3 m ρ c main_v1 = W2 m ρ c (Proc.devRef .tc main_v1) := W3_of_ne m ρ c main_v1 (by decide)
  rw [e0, e1, xq_eq, xk_eq]

/-- The result: what region 4 leaves, over the attention weights and x v. -/
theorem result_eq (c : Dev nD) : toMat (W5 m ρ c (Proc.devRef .tc main_v4))
    = out (toMat (m ((c : Thread nD τ).loc main_arg0))) (toMat (m ((c : Thread nD τ).loc main_arg1)))
          (toMat (m ((c : Thread nD τ).loc main_arg2))) (toMat (m ((c : Thread nD τ).loc main_arg3))) := by
  refine (congrArg toMat (W5_arr m ρ c 2)).trans ((value4 (V4 m ρ) c).trans ?_)
  have e3 : V4 m ρ c main_v3 = W4 m ρ c (Proc.devRef .tc main_v3) := rfl
  have e2 : V4 m ρ c main_v2 = W3 m ρ c (Proc.devRef .tc main_v2) := W4_of_ne m ρ c main_v2 (by decide)
  rw [e3, e2, attn_eq, xv_eq]
  rfl

/-- The kernel program's run, read: the result array at the specification's value, the arguments unchanged. -/
theorem run_spec : θ_run defs (onTc (τ := τ) (main (F := Ideal))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v4 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.RefSide.lean ====
/-
  The reference program's value: its run read back one operation at a time, and that the value is the
  specification's `out` of the four argument matrices.
-/
import proofs.«144174_j32117765439601_2_alg».proof.Proof.Spec
import proofs.«144174_j32117765439601_2_alg».proof.Proof.Gen.ReferenceIdeal.Read

noncomputable section

namespace Cert.RefSide

open Idealize.ShloMosaic Idealize.ShloMosaic.ValueIdx Idealize.SL.Sem Idealize.ShloMosaic.TcCoe
open Cert.ReferenceIdeal Cert.ReferenceIdeal.Gen Cert.ReferenceIdeal.Read Cert.Spec
open scoped BigOperators

/-- A 2048 x 2048 array of extended reals, as the reference program holds it. -/
abbrev Arr : Type := (⟨S2048x2048, .f32⟩ : BufTy).Contents (Elt Ideal)

example : Arr = (S.Idx → EReal) := rfl

theorem toMat_apply (X : S.Idx → EReal) (r c : Fin 2048) : toMat X r c = X (ix2 r c) := rfl

theorem mm_apply (A B : Mat) (r c : Fin 2048) : mm A B r c = ∑ l : Fin 2048, A r l * B l c := rfl

/-- The left operand's index of a product at entry (r, c) and position k is (r, k). -/
theorem lidx_ix2 (r c k : Fin 2048) : lidx_main_v0 (ix2 r c) k = ix2 r k :=
  funext fun a => Fin.ext (by match a with | ⟨0, _⟩ => rfl | ⟨1, _⟩ => rfl)

/-- The right operand's index of a product at entry (r, c) and position k is (k, c). -/
theorem ridx_ix2 (r c k : Fin 2048) : ridx_main_v0 (ix2 r c) k = ix2 k c :=
  funext fun a => Fin.ext (by match a with | ⟨0, _⟩ => rfl | ⟨1, _⟩ => rfl)

/-- A product of two arrays, read as a matrix, is the matrix product. -/
theorem dot_toMat (A B : Arr) : toMat (val_main_v0 (F := Ideal) A B) = mm (toMat A) (toMat B) := by
  funext r c
  rw [toMat_apply, mm_apply, val_main_v0_apply]
  refine Finset.sum_congr rfl fun k _ => ?_
  rw [lidx_ix2, ridx_ix2, toMat_apply, toMat_apply]

/-- The product of the two products, read as a matrix. -/
theorem v2_toMat (x0 x1 x2 : Arr) :
    toMat (val_main_v2 (F := Ideal) x0 x1 x2) = mm (mm (toMat x0) (toMat x1)) (mm (toMat x0) (toMat x2)) := by
  have e : val_main_v2 (F := Ideal) x0 x1 x2
      = val_main_v0 (F := Ideal) (val_main_v0 (F := Ideal) x0 x1) (val_main_v0 (F := Ideal) x0 x2) := rfl
  rw [e, dot_toMat, dot_toMat, dot_toMat]

/-- The word of negative infinity is the bottom element. -/
theorem negInf_eq_bot : Ideal.ofBits .f32 0xFF800000#32 = (⊥ : EReal) := by
  simp [Ideal.ofBits, Ideal.ieee]

/-- Row r with column k put back is (r, k). -/
theorem lift_ix2 (h : S2048x2048.Reduces [1] S2048) (r : Fin 2048) (k : Fin (S2048x2048.size 1)) :
    h.lift (ix1 r) k = ix2 r (⟨k.val, k.isLt⟩ : Fin 2048) := by
  funext c; apply Fin.ext
  fin_cases c <;> rfl

/-- A maximum over the columns from the bottom element is, at row r, the row's largest entry. -/
theorem reduce_max_row (X : Arr) (init : S_.Idx → EReal) (h' : S2048x2048.ReducesTo [1] S2048) (hu : 0 < S_.numel)
    (hinit : init (Shape.Idx.first hu) = ⊥) (r : Fin 2048) :
    Host.reduce (FloatOps.maximumf (F := Ideal) (φ := .f32)) X init h' hu (ix1 r) = rowMax (toMat X) r := by
  have h : S2048x2048.Reduces [1] S2048 := by decide
  refine (Host.reduce_eq_fold_single (FloatOps.maximumf (F := Ideal) (φ := .f32)) X init h' h hu (ix1 r)).trans ?_
  rw [hinit]
  have hf : (X ∘ h.lift (ix1 r)) = toMat X r := funext fun k => congrArg X (lift_ix2 h r k)
  rw [hf]
  rfl

/-- The row maxima of the product, read at row r. -/
theorem v3_row (x0 x1 x2 : Arr) (r : Fin 2048) :
    val_main_v3 (F := Ideal) x0 x1 x2 (ix1 r) = rowMax (toMat (val_main_v2 (F := Ideal) x0 x1 x2)) r := by
  unfold val_main_v3
  exact reduce_max_row _ _ _ _ negInf_eq_bot r

/-- The larger of negative infinity and the row maximum is the row maximum. -/
theorem v5_row (x0 x1 x2 : Arr) (r : Fin 2048) :
    val_main_v5 (F := Ideal) x0 x1 x2 (ix1 r) = rowMax (toMat (val_main_v2 (F := Ideal) x0 x1 x2)) r := by
  rw [val_main_v5_apply, val_main_v4_apply, val_main_cst_0_apply, v3_row, Ideal.maximumf_def, Ideal.ofBits_def,
    negInf_eq_bot]
  exact max_bot_left _

/-- A column broadcast along the rows reads, at (r, c), the vector at r. -/
theorem idx_col (r c : Fin 2048) : idx_main_v6 (idx_main_v7 (ix2 r c)) = ix1 r :=
  funext fun a => Fin.ext (by match a with | ⟨0, _⟩ => rfl)

/-- The row maxima broadcast along the rows. -/
theorem v7_at (x0 x1 x2 : Arr) (r c : Fin 2048) :
    val_main_v7 (F := Ideal) x0 x1 x2 (ix2 r c) = rowMax (toMat (val_main_v2 (F := Ideal) x0 x1 x2)) r := by
  rw [val_main_v7_apply, val_main_v6_apply, idx_col, v5_row]

/-- The shifted exponentials. -/
theorem v9_at (x0 x1 x2 : Arr) (r c : Fin 2048) :
    val_main_v9 (F := Ideal) x0 x1 x2 (ix2 r c) = ex (toMat (val_main_v2 (F := Ideal) x0 x1 x2)) r c := by
  rw [val_main_v9_apply, val_main_v8_apply, v7_at, Ideal.hostUnary_exp_def, Ideal.subf_def]
  rfl

/-- The index of the sum over the columns at row r and position k is (r, k). -/
theorem idx_sum (r k : Fin 2048) : idx_main_v10 (ix1 r) k = ix2 r k :=
  funext fun a => Fin.ext (by match a with | ⟨0, _⟩ => rfl | ⟨1, _⟩ => rfl)

/-- The row sums of the shifted exponentials. -/
theorem v10_row (x0 x1 x2 : Arr) (r : Fin 2048) :
    val_main_v10 (F := Ideal) x0 x1 x2 (ix1 r)
      = ∑ c' : Fin 2048, ex (toMat (val_main_v2 (F := Ideal) x0 x1 x2)) r c' := by
  rw [val_main_v10_apply, val_main_cst_1_apply, Ideal.ofBits_def, Ideal.ofBits_zero_f32, zero_add]
  refine Finset.sum_congr rfl fun k _ => ?_
  rw [idx_sum, v9_at]

/-- The row sums broadcast along the rows. -/
theorem v12_at (x0 x1 x2 : Arr) (r c : Fin 2048) :
    val_main_v12 (F := Ideal) x0 x1 x2 (ix2 r c)
      = ∑ c' : Fin 2048, ex (toMat (val_main_v2 (F := Ideal) x0 x1 x2)) r c' := by
  rw [val_main_v12_apply, val_main_v11_apply]
  exact (congrArg (val_main_v10 (F := Ideal) x0 x1 x2) (idx_col r c)).trans (v10_row x0 x1 x2 r)

/-- The row softmax of the product. -/
theorem v13_toMat (x0 x1 x2 : Arr) :
    toMat (val_main_v13 (F := Ideal) x0 x1 x2) = sm (toMat (val_main_v2 (F := Ideal) x0 x1 x2)) := by
  funext r c
  rw [toMat_apply, val_main_v13_apply, v9_at, v12_at, Ideal.hostDivf_def]
  rfl

/-- The reference's value is the specification's. -/
theorem ref_value (x0 x1 x2 x3 : Arr) :
    toMat (val_main_v15 (F := Ideal) x0 x1 x2 x3) = out (toMat x0) (toMat x1) (toMat x2) (toMat x3) := by
  have e : val_main_v15 (F := Ideal) x0 x1 x2 x3
      = val_main_v0 (F := Ideal) (val_main_v13 (F := Ideal) x0 x1 x2) (val_main_v0 (F := Ideal) x0 x3) := rfl
  rw [e, dot_toMat, dot_toMat, v13_toMat, v2_toMat]
  rfl

/-- On every device, from any memory with zero counters, every weakly fair execution of the reference program
    terminates with its result, read as a matrix, at the specification's value of the four argument matrices, and
    the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      toMat (r.2.mem ((c.tc : Thread nD τ).loc main_v15))
        = out (toMat (m ((c.tc : Thread nD τ).loc main_arg0))) (toMat (m ((c.tc : Thread nD τ).loc main_arg1)))
            (toMat (m ((c.tc : Thread nD τ).loc main_arg2))) (toMat (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(congrArg toMat ((h c).1.trans (val_main_v15_eq _ _ _ _))).trans (ref_value _ _ _ _), (h c).2⟩)
    (Cert.ReferenceIdeal.Value.run m ρ)

end Cert.RefSide

end
-- ==== Proof.lean ====
/-
  The claim.  The kernel program is five kernel regions — x q, x k, x v, the row softmax of (x q)(x k), and
  the final product — each tiling its 2048 x 2048 product in 1024-row blocks and two steps along the
  contracted axis, adding into an accumulator it keeps between the two steps.  Its frame, at the word level
  and at the ideal values, is the regions' launch: every region leaves its input arrays as it found them and
  writes only its own output array.  At the ideal values the result array holds the specification's `out`
  of the four arguments (a finite sum may be grouped in any way on the extended reals; a change of float
  format is the identity), and so does the reference's; the rewriting pass changed nothing, so that
  conjunct is trivial.
-/
import proofs.«144174_j32117765439601_2_alg».proof.Defs
import proofs.«144174_j32117765439601_2_alg».proof.Proof.KB.Run
import proofs.«144174_j32117765439601_2_alg».proof.Proof.KI.Value
import proofs.«144174_j32117765439601_2_alg».proof.Proof.RefSide
import proofs.«144174_j32117765439601_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's value of arguments that agree. -/
theorem algebraic : Cert.algebraic_KernelIdeal_ReferenceIdeal := by
  intro m ρ m' ρ' _ hagree
  refine ⟨fun c => Cert.KernelIdeal.Hand.W5 m ρ c (Proc.devRef .tc Cert.KernelIdeal.main_v4),
    Cert.KernelIdeal.Hand.run_spec m ρ, ?_⟩
  refine (θ_run Cert.ReferenceIdeal.defs _ _).mono (fun _ h c => ⟨?_, (h c).2⟩) (Cert.RefSide.run_spec m' ρ')
  refine Cert.Spec.toMat_inj ((h c).1.trans ?_)
  rw [(hagree c).1, (hagree c).2.1, (hagree c).2.2.1, (hagree c).2.2.2]
  exact (Cert.KernelIdeal.Hand.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
